-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S1x1x512 : Shape := ⟨3, ![1, 1, 512]⟩
abbrev S2048x2048 : Shape := ⟨2, ![2048, 2048]⟩
abbrev S64x4096 : Shape := ⟨2, ![64, 4096]⟩
abbrev S512x64 : Shape := ⟨2, ![512, 64]⟩
abbrev S512 : Shape := ⟨1, ![512]⟩
abbrev S1536 : Shape := ⟨1, ![1536]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1x1x512 : S_.BroadcastsInDim S1x1x512 (![] : Fin 0 → Fin S1x1x512.rank)
  reducesTo_S1x1x512_S_d0_1_2 : S1x1x512.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S64x4096 : S_.BroadcastsInDim S64x4096 (![] : Fin 0 → Fin S64x4096.rank)
  reducesTo_S64x4096_S_d0_1 : S64x4096.ReducesTo [0, 1] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S1536 : S_.BroadcastsInDim S1536 (![] : Fin 0 → Fin S1536.rank)
  reducesTo_S1536_S_d0 : S1536.ReducesTo [0] S_

variable [Facts]

def fn_part3 {F : FTy → Type} [FloatOps F] (main_v48 : IVec S_ 1) (main_v49 : FVec F S1536 .f32) (main_v50 : FVec F S1536 .f32) : IVec S_ 1 :=
  let main_v51 : IVec S1536 1 := cmpf .olt main_v49 main_v50
  let main_c_19 : IVec S_ 1 := constantI S_ 1 1#1
  let main_v52 : IVec S_ 1 := (fun x v => Host.reduce IntOp.andi x v reducesTo_S1536_S_d0 h_S_) main_v51 main_c_19
  let main_v53 : IVec S_ 1 := andi main_v48 main_v52
  main_v53

def fn_part2 {F : FTy → Type} [FloatOps F] (main_arg7 : FVec F S512 .f32) (main_arg8 : FVec F S512 .f32) (main_arg9 : FVec F S1536 .f32) (main_arg10 : FVec F S1536 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1536 .f32 := Host.absf main_arg10
  let main_cst_18 : FVec F S_ .f32 := constant S_ .f32 0x7F800000#32
  let main_v50 : FVec F S1536 .f32 := broadcastInDim S1536 ![] bcast_S_S1536 main_cst_18
  fn_part3 (F := F) main_v48 main_v49 main_v50

def fn_part1 {F : FTy → Type} [FloatOps F] (main_arg4 : FVec F S64x4096 .f32) (main_arg5 : FVec F S512x64 .f32) (main_arg6 : FVec F S512 .f32) (main_arg7 : FVec F S512 .f32) (main_arg8 : FVec F S512 .f32) (main_arg9 : FVec F S1536 .f32) (main_arg10 : FVec F S1536 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x2048 .f32) (main_arg1 : FVec F S4x4096x2048 .f32) (main_arg2 : FVec F S1x1x512 .f32) (main_arg3 : FVec F S2048x2048 .f32) (main_arg4 : FVec F S64x4096 .f32) (main_arg5 : FVec F S512x64 .f32) (main_arg6 : FVec F S512 .f32) (main_arg7 : FVec F S512 .f32) (main_arg8 : FVec F S512 .f32) (main_arg9 : FVec F S1536 .f32) (main_arg10 : FVec F S1536 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S1x1x512 .f32 := Host.absf main_arg2
  let main_cst_2 : FVec F S_ .f32 := constant S_ .f32 0x7F800000#32
  let main_v10 : FVec F S1x1x512 .f32 := broadcastInDim S1x1x512 ![] bcast_S_S1x1x512 main_cst_2
  let main_v11 : IVec S1x1x512 1 := cmpf .olt main_v9 main_v10
  let main_c_3 : IVec S_ 1 := constantI S_ 1 1#1
  let main_v12 : IVec S_ 1 := (fun x v => Host.reduce IntOp.andi x v reducesTo_S1x1x512_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S4x4096x2048 : Shape := ⟨3, ![4, 4096, 2048]⟩
abbrev S1x1x512 : Shape := ⟨3, ![1, 1, 512]⟩
abbrev S2048x2048 : Shape := ⟨2, ![2048, 2048]⟩
abbrev S64x4096 : Shape := ⟨2, ![64, 4096]⟩
abbrev S512x64 : Shape := ⟨2, ![512, 64]⟩
abbrev S512 : Shape := ⟨1, ![512]⟩
abbrev S1536 : Shape := ⟨1, ![1536]⟩
abbrev S16384x2048 : Shape := ⟨2, ![16384, 2048]⟩
abbrev S64x512 : Shape := ⟨2, ![64, 512]⟩
abbrev S64x1536 : Shape := ⟨2, ![64, 1536]⟩
abbrev S64x2048 : Shape := ⟨2, ![64, 2048]⟩
abbrev S_ : Shape := ⟨0, ![]⟩
abbrev S1x512 : Shape := ⟨2, ![1, 512]⟩
abbrev S1x1536 : Shape := ⟨2, ![1, 1536]⟩
abbrev S256x2048 : Shape := ⟨2, ![256, 2048]⟩
abbrev S256x512 : Shape := ⟨2, ![256, 512]⟩
abbrev S256x1536 : Shape := ⟨2, ![256, 1536]⟩
abbrev S256 : Shape := ⟨1, ![256]⟩
abbrev S256x1 : Shape := ⟨2, ![256, 1]⟩
abbrev S256x64 : Shape := ⟨2, ![256, 64]⟩

abbrev nBuf : Space → Nat
  | .hbm => 47
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x1x512, .f32⟩
  | .hbm, ⟨3, _⟩ => ⟨S2048x2048, .f32⟩
  | .hbm, ⟨4, _⟩ => ⟨S64x4096, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1536, .f32⟩
  | .hbm, ⟨10, _⟩ => ⟨S1536, .f32⟩
  | .hbm, ⟨11, _⟩ => ⟨S16384x2048, .f32⟩
  | .hbm, ⟨12, _⟩ => ⟨S16384x2048, .f32⟩
  | .hbm, ⟨13, _⟩ => ⟨S2048x2048, .bf16⟩
  | .hbm, ⟨14, _⟩ => ⟨S64x512, .f32⟩
  | .hbm, ⟨15, _⟩ => ⟨S64x512, .bf16⟩
  | .hbm, ⟨16, _⟩ => ⟨S64x1536, .f32⟩
  | .hbm, ⟨17, _⟩ => ⟨S64x1536, .bf16⟩
  | .hbm, ⟨18, _⟩ => ⟨S64x2048, .f32⟩
  | .hbm, ⟨19, _⟩ => ⟨S64x2048, .bf16⟩
  | .hbm, ⟨20, _⟩ => ⟨S512x64, .bf16⟩
  | .hbm, ⟨21, _⟩ => ⟨S_, .f32⟩
  | .hbm, ⟨22, _⟩ => ⟨S1x1x512, .f32⟩
  | .hbm, ⟨23, _⟩ => ⟨S1x1x512, .f32⟩
  | .hbm, ⟨24, _⟩ => ⟨S1x1x512, .f32⟩
  | .hbm, ⟨25, _⟩ => ⟨S1x1x512, .f32⟩
  | .hbm, ⟨26, _⟩ => ⟨S1x1x512, .i1⟩
  | .hbm, ⟨27, _⟩ => ⟨S1x1x512, .f32⟩
  | .hbm, ⟨28, _⟩ => ⟨S1x1x512, .f32⟩
  | .hbm, ⟨29, _⟩ => ⟨S1x1x512, .f32⟩
  | .hbm, ⟨30, _⟩ => ⟨S1x1x512, .f32⟩
  | .hbm, ⟨31, _⟩ => ⟨S1x1x512, .f32⟩
  | .hbm, ⟨32, _⟩ => ⟨S1x1x512, .f32⟩
  | .hbm, ⟨33, _⟩ => ⟨S1x1x512, .f32⟩
  | .hbm, ⟨34, _⟩ => ⟨S1x1x512, .f32⟩
  | .hbm, ⟨35, _⟩ => ⟨S1x1x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x1536, .f32⟩
  | .hbm, ⟨44, _⟩ => ⟨S1x1536, .f32⟩
  | .hbm, ⟨45, _⟩ => ⟨S16384x2048, .f32⟩
  | .hbm, ⟨46, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S64x512, .bf16⟩
  | .local _ .vmem, ⟨6, _⟩ => ⟨S64x1536, .bf16⟩
  | .local _ .vmem, ⟨7, _⟩ => ⟨S64x2048, .bf16⟩
  | .local _ .vmem, ⟨8, _⟩ => ⟨S512x64, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x1536, .f32⟩
  | .local _ .vmem, ⟨15, _⟩ => ⟨S1x1536, .f32⟩
  | .local _ .vmem, ⟨16, _⟩ => ⟨S256x2048, .f32⟩
  | .local _ .vmem, ⟨17, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S4x4096x2048_S16384x2048 : S4x4096x2048.ShapeCasts S16384x2048
  bitsLt_bf16_f32 : FTy.bits .bf16 < FTy.bits .f32
  slices_S64x4096_S64x512_0_0 : S64x4096.Slices ![0, 0] S64x512
  slices_S64x4096_S64x1536_0_512 : S64x4096.Slices ![0, 512] S64x1536
  slices_S64x4096_S64x2048_0_2048 : S64x4096.Slices ![0, 2048] S64x2048
  bcast_S_S1x1x512 : S_.BroadcastsInDim S1x1x512 (![] : Fin 0 → Fin S1x1x512.rank)
  shapeCasts_S1x1x512_S1x512 : S1x1x512.ShapeCasts S1x512
  bcast_S_S1x512 : S_.BroadcastsInDim S1x512 (![] : Fin 0 → Fin S1x512.rank)
  shapeCasts_S512_S1x512 : S512.ShapeCasts S1x512
  shapeCasts_S1536_S1x1536 : S1536.ShapeCasts S1x1536
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x2048_o0_0_S256x512 : S256x2048.Slices ![0, 0] S256x512
  slices_S256x2048_o0_512_S256x1536 : S256x2048.Slices ![0, 512] S256x1536
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S256x512_S256 : S256x512.Reduces [1] S256
  shapeCasts_S256_S256x1 : S256.ShapeCasts S256x1
  broadcasts_S256x1_S256x512 : S256x1.Broadcasts S256x512
  broadcasts_S1x512_S256x512 : S1x512.Broadcasts S256x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reduces_S256x1536_S256 : S256x1536.Reduces [1] S256
  broadcasts_S256x1_S256x1536 : S256x1.Broadcasts S256x1536
  broadcasts_S1x1536_S256x1536 : S1x1536.Broadcasts S256x1536
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S256x2048_S256x512_0_0 : ∀ a, (![0, 0] : Fin 2 → Nat) a + S256x512.size a ≤ S256x2048.size a
  h_S256x512 : 0 < S256x512.numel
  inb_S256x2048_S256x1536_0_512 : ∀ a, (![0, 512] : Fin 2 → Nat) a + S256x1536.size a ≤ S256x2048.size a
  h_S256x1536 : 0 < S256x1536.numel
  shapeCasts_S16384x2048_S4x4096x2048 : S16384x2048.ShapeCasts S4x4096x2048
  dot_S256x2048_S2048x2048_S256x2048_1_1_0_0_n_n_wf : DotDims.WF S256x2048 S2048x2048 S256x2048 [1] [1] [0] [0] [] []
  dot_S256x512_S64x512_S256x64_1_1_0_0_n_n_wf : DotDims.WF S256x512 S64x512 S256x64 [1] [1] [0] [0] [] []
  dot_S256x1536_S64x1536_S256x64_1_1_0_0_n_n_wf : DotDims.WF S256x1536 S64x1536 S256x64 [1] [1] [0] [0] [] []
  dot_S256x2048_S64x2048_S256x64_1_1_0_0_n_n_wf : DotDims.WF S256x2048 S64x2048 S256x64 [1] [1] [0] [0] [] []
  dot_S256x64_S512x64_S256x512_1_1_0_0_n_n_wf : DotDims.WF S256x64 S512x64 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .bf16 = 32 ∨ (Rect.block (s := S64x512) S64x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1536.size a ≤ S64x1536.size a
  hwx0_4 : ∀ i : grid0.Coords, EltTy.bits .bf16 = 32 ∨ (Rect.block (s := S64x1536) S64x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .bf16 = 32 ∨ (Rect.block (s := S512x64) S512x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1536.size a ≤ S1x1536.size a
  hwx0_12 : ∀ i : grid0.Coords, EltTy.bits .f32 = 32 ∨ (Rect.block (s := S1x1536) S1x1536.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1536.size a ≤ S1x1536.size a
  hwx0_13 : ∀ i : grid0.Coords, EltTy.bits .f32 = 32 ∨ (Rect.block (s := S1x1536) S1x1536.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x2048.size a ≤ S16384x2048.size a
  hwx0_14 : ∀ i : grid0.Coords, EltTy.bits .f32 = 32 ∨ (Rect.block (s := S16384x2048) S256x2048.size (cc0_transform_14 i) (hinb0_14 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x512_S64x512_S256x64_1_1_0_0_n_n : DotDims S256x512 S64x512 S256x64 where
  lhsContracting := [1]
  rhsContracting := [1]
  lhsNonContracting := [0]
  rhsNonContracting := [0]
  lhsBatch := []
  rhsBatch := []
  wf := dot_S256x512_S64x512_S256x64_1_1_0_0_n_n_wf
def dot_S256x1536_S64x1536_S256x64_1_1_0_0_n_n : DotDims S256x1536 S64x1536 S256x64 where
  lhsContracting := [1]
  rhsContracting := [1]
  lhsNonContracting := [0]
  rhsNonContracting := [0]
  lhsBatch := []
  rhsBatch := []
  wf := dot_S256x1536_S64x1536_S256x64_1_1_0_0_n_n_wf
def dot_S256x2048_S64x2048_S256x64_1_1_0_0_n_n : DotDims S256x2048 S64x2048 S256x64 where
  lhsContracting := [1]
  rhsContracting := [1]
  lhsNonContracting := [0]
  rhsNonContracting := [0]
  lhsBatch := []
  rhsBatch := []
  wf := dot_S256x2048_S64x2048_S256x64_1_1_0_0_n_n_wf
def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S1x1536.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S1x1536.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S256x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S1x1x512 : Shape := ⟨3, ![1, 1, 512]⟩
abbrev S2048x2048 : Shape := ⟨2, ![2048, 2048]⟩
abbrev S64x4096 : Shape := ⟨2, ![64, 4096]⟩
abbrev S512x64 : Shape := ⟨2, ![512, 64]⟩
abbrev S512 : Shape := ⟨1, ![512]⟩
abbrev S1536 : Shape := ⟨1, ![1536]⟩
abbrev S4x4096x512 : Shape := ⟨3, ![4, 4096, 512]⟩
abbrev S4x4096x1536 : Shape := ⟨3, ![4, 4096, 1536]⟩
abbrev S_ : Shape := ⟨0, ![]⟩
abbrev S4x4096 : Shape := ⟨2, ![4, 4096]⟩
abbrev S4x4096x1 : Shape := ⟨3, ![4, 4096, 1]⟩
abbrev S1x1x1536 : Shape := ⟨3, ![1, 1, 1536]⟩
abbrev S4x4096x4096 : Shape := ⟨3, ![4, 4096, 4096]⟩
abbrev S4x4096x64 : Shape := ⟨3, ![4, 4096, 64]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x1x512, .f32⟩
  | .hbm, ⟨3, _⟩ => ⟨S2048x2048, .f32⟩
  | .hbm, ⟨4, _⟩ => ⟨S64x4096, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1536, .f32⟩
  | .hbm, ⟨10, _⟩ => ⟨S1536, .f32⟩
  | .hbm, ⟨11, _⟩ => ⟨S4x4096x512, .f32⟩
  | .hbm, ⟨12, _⟩ => ⟨S4x4096x1536, .f32⟩
  | .hbm, ⟨13, _⟩ => ⟨S4x4096x2048, .f32⟩
  | .hbm, ⟨14, _⟩ => ⟨S4x4096x512, .f32⟩
  | .hbm, ⟨15, _⟩ => ⟨S4x4096x1536, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x512, .f32⟩
  | .hbm, ⟨32, _⟩ => ⟨S4x4096x512, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x512, .f32⟩
  | .hbm, ⟨38, _⟩ => ⟨S4x4096x512, .f32⟩
  | .hbm, ⟨39, _⟩ => ⟨S1x1x512, .f32⟩
  | .hbm, ⟨40, _⟩ => ⟨S4x4096x512, .f32⟩
  | .hbm, ⟨41, _⟩ => ⟨S4x4096x512, .f32⟩
  | .hbm, ⟨42, _⟩ => ⟨S1x1x512, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1536, .f32⟩
  | .hbm, ⟨52, _⟩ => ⟨S4x4096x1536, .f32⟩
  | .hbm, ⟨53, _⟩ => ⟨S4x4096x1536, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1536, .f32⟩
  | .hbm, ⟨61, _⟩ => ⟨S4x4096x1536, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1536, .f32⟩
  | .hbm, ⟨67, _⟩ => ⟨S4x4096x1536, .f32⟩
  | .hbm, ⟨68, _⟩ => ⟨S1x1x1536, .f32⟩
  | .hbm, ⟨69, _⟩ => ⟨S4x4096x1536, .f32⟩
  | .hbm, ⟨70, _⟩ => ⟨S4x4096x1536, .f32⟩
  | .hbm, ⟨71, _⟩ => ⟨S1x1x1536, .f32⟩
  | .hbm, ⟨72, _⟩ => ⟨S4x4096x1536, .f32⟩
  | .hbm, ⟨73, _⟩ => ⟨S4x4096x1536, .f32⟩
  | .hbm, ⟨74, _⟩ => ⟨S4x4096x2048, .f32⟩
  | .hbm, ⟨75, _⟩ => ⟨S4x4096x4096, .f32⟩
  | .hbm, ⟨76, _⟩ => ⟨S4x4096x64, .f32⟩
  | .hbm, ⟨77, _⟩ => ⟨S4x4096x512, .f32⟩
  | .hbm, ⟨78, _⟩ => ⟨S1x1x512, .f32⟩
  | .hbm, ⟨79, _⟩ => ⟨S4x4096x512, .f32⟩
  | .hbm, ⟨80, _⟩ => ⟨S4x4096x512, .f32⟩
  | .hbm, ⟨81, _⟩ => ⟨S_, .f32⟩
  | .hbm, ⟨82, _⟩ => ⟨S4x4096x512, .f32⟩
  | .hbm, ⟨83, _⟩ => ⟨S4x4096x512, .f32⟩
  | .hbm, ⟨84, _⟩ => ⟨S4x4096x512, .f32⟩
  | .hbm, ⟨85, _⟩ => ⟨S4x4096x512, .f32⟩
  | .hbm, ⟨86, _⟩ => ⟨S4x4096x512, .i1⟩
  | .hbm, ⟨87, _⟩ => ⟨S4x4096x512, .f32⟩
  | .hbm, ⟨88, _⟩ => ⟨S4x4096x512, .f32⟩
  | .hbm, ⟨89, _⟩ => ⟨S4x4096x512, .f32⟩
  | .hbm, ⟨90, _⟩ => ⟨S4x4096x512, .f32⟩
  | .hbm, ⟨91, _⟩ => ⟨S4x4096x512, .f32⟩
  | .hbm, ⟨92, _⟩ => ⟨S4x4096x512, .f32⟩
  | .hbm, ⟨93, _⟩ => ⟨S4x4096x512, .f32⟩
  | .hbm, ⟨94, _⟩ => ⟨S4x4096x512, .f32⟩
  | .hbm, ⟨95, _⟩ => ⟨S_, .f32⟩
  | .hbm, ⟨96, _⟩ => ⟨S1x1x512, .f32⟩
  | .hbm, ⟨97, _⟩ => ⟨S1x1x512, .f32⟩
  | .hbm, ⟨98, _⟩ => ⟨S1x1x512, .f32⟩
  | .hbm, ⟨99, _⟩ => ⟨S1x1x512, .f32⟩
  | .hbm, ⟨100, _⟩ => ⟨S1x1x512, .i1⟩
  | .hbm, ⟨101, _⟩ => ⟨S1x1x512, .f32⟩
  | .hbm, ⟨102, _⟩ => ⟨S1x1x512, .f32⟩
  | .hbm, ⟨103, _⟩ => ⟨S1x1x512, .f32⟩
  | .hbm, ⟨104, _⟩ => ⟨S1x1x512, .f32⟩
  | .hbm, ⟨105, _⟩ => ⟨S1x1x512, .f32⟩
  | .hbm, ⟨106, _⟩ => ⟨S1x1x512, .f32⟩
  | .hbm, ⟨107, _⟩ => ⟨S1x1x512, .f32⟩
  | .hbm, ⟨108, _⟩ => ⟨S1x1x512, .f32⟩
  | .hbm, ⟨109, _⟩ => ⟨S1x1x512, .f32⟩
  | .hbm, ⟨110, _⟩ => ⟨S4x4096x512, .f32⟩
  | .hbm, ⟨111, _⟩ => ⟨S4x4096x512, .f32⟩
  | .hbm, ⟨112, _⟩ => ⟨S4x4096x512, .f32⟩
  | .hbm, ⟨113, _⟩ => ⟨S_, .f32⟩
  | .hbm, ⟨114, _⟩ => ⟨S4x4096x512, .f32⟩
  | .hbm, ⟨115, _⟩ => ⟨S4x4096x512, .f32⟩
  | .hbm, ⟨116, _⟩ => ⟨S4x4096x512, .f32⟩
  | .hbm, ⟨117, _⟩ => ⟨S4x4096x512, .f32⟩
  | .hbm, ⟨118, _⟩ => ⟨S4x4096x512, .f32⟩
  | .hbm, ⟨119, _⟩ => ⟨S4x4096x512, .f32⟩
  | .hbm, ⟨120, _⟩ => ⟨S4x4096x512, .f32⟩
  | .hbm, ⟨121, _⟩ => ⟨S4x4096x1536, .f32⟩
  | .hbm, ⟨122, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v60 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_9 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩

abbrev nD : Nat := 1
abbrev τ : Topo := Topo.v7x

variable {F : FTy → Type} [FloatOps F]

class Facts₀ : Prop where
  slices_S4x4096x2048_S4x4096x512_0_0_0 : S4x4096x2048.Slices ![0, 0, 0] S4x4096x512
  slices_S4x4096x2048_S4x4096x1536_0_0_512 : S4x4096x2048.Slices ![0, 0, 512] S4x4096x1536
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  reducesTo_S4x4096x1536_S4x4096_d2 : S4x4096x1536.ReducesTo [2] S4x4096
  bcast_S4x4096x1_S4x4096x1536_0_1_2 : S4x4096x1.BroadcastsInDim S4x4096x1536 (![0, 1, 2] : Fin 3 → Fin S4x4096x1536.rank)
  bcast_S1536_S1x1x1536_2 : S1536.BroadcastsInDim S1x1x1536 (![2] : Fin 1 → Fin S1x1x1536.rank)
  bcast_S1x1x1536_S4x4096x1536_0_1_2 : S1x1x1536.BroadcastsInDim S4x4096x1536 (![0, 1, 2] : Fin 3 → Fin S4x4096x1536.rank)
  concatenates_S4x4096x512_S4x4096x1536_S4x4096x2048_d2 : Shape.Concatenates [S4x4096x512, S4x4096x1536] S4x4096x2048 2
  concatenates_S4x4096x2048_S4x4096x2048_S4x4096x4096_d2 : Shape.Concatenates [S4x4096x2048, S4x4096x2048] S4x4096x4096 2
  bcast_S_S4x4096x512 : S_.BroadcastsInDim S4x4096x512 (![] : Fin 0 → Fin S4x4096x512.rank)
  bcast_S_S1x1x512 : S_.BroadcastsInDim S1x1x512 (![] : Fin 0 → Fin S1x1x512.rank)
  dot_S4x4096x2048_S2048x2048_S4x4096x2048_2_1_01_0_n_n_wf : DotDims.WF S4x4096x2048 S2048x2048 S4x4096x2048 [2] [1] [0, 1] [0] [] []
  dot_S4x4096x4096_S64x4096_S4x4096x64_2_1_01_0_n_n_wf : DotDims.WF S4x4096x4096 S64x4096 S4x4096x64 [2] [1] [0, 1] [0] [] []
  dot_S4x4096x64_S512x64_S4x4096x512_2_1_01_0_n_n_wf : DotDims.WF S4x4096x64 S512x64 S4x4096x512 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf
def dot_S4x4096x64_S512x64_S4x4096x512_2_1_01_0_n_n : DotDims S4x4096x64 S512x64 S4x4096x512 where
  lhsContracting := [2]
  rhsContracting := [1]
  lhsNonContracting := [0, 1]
  rhsNonContracting := [0]
  lhsBatch := []
  rhsBatch := []
  wf := dot_S4x4096x64_S512x64_S4x4096x512_2_1_01_0_n_n_wf

class Facts : Prop extends Facts₀ where

variable [Facts]
-- ==== Proof.KernelProducts.lean ====
/-
  The kernel's five matrix products, each read at one entry.

  Every product in the kernel body has the same form: a [256, K] block times an [N, K] weight, BOTH contracted on
  their last axis (the weight is used in its natural layout, never transposed), accumulated into a zero block.  Over
  the extended reals such a product at entry (p, c) is the plain sum  Σ_{k < K} lhs(p, k) · rhs(c, k): the zero
  accumulator adds nothing, the one contracted axis is a `Fin K`, and the operand indices at contraction position k are
  (p, k) on the left and (c, k) on the right.  The proof is the same for each of the five dimension records; it is
  stated once per record because the records are distinct constants of the printed program.
-/
import proofs.«117532_j26560077758945_2_alg».proof.KernelIdeal
import proofs.«117532_j26560077758945_2_alg».proof.Proof.Gen.KernelIdeal
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

variable {φ₁ φ₂ : FTy}

/-- the row's product with W: [256, 2048] against [2048, 2048], both contracted on their last axis: entry (p, c) is Σ_k lhs(p, k) · rhs(c, k). -/
theorem mm1_apply (lhs : FVec Ideal S256x2048 φ₁) (rhs : FVec Ideal S2048x2048 φ₂) (p : Fin 256) (c : Fin 2048) :
    matmul dot_S256x2048_S2048x2048_S256x2048_1_1_0_0_n_n none lhs rhs (constant S256x2048 .f32 0x00000000#32) (ix2 p c)
      = ∑ k : Fin 2048, lhs (ix2 p k) * rhs (ix2 c k) := by
  refine (Ideal.matmul_constant_zero_apply dot_S256x2048_S2048x2048_S256x2048_1_1_0_0_n_n none lhs rhs (ix2 p c)).trans ?_
  rw [← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p c) ((contrEquiv1 dot_S256x2048_S2048x2048_S256x2048_1_1_0_0_n_n 2048 rfl rfl).symm k) = ix2 p k :=
    funext fun a => Fin.ext (by
      match a with
      | ⟨0, _⟩ =>
        show (dot_S256x2048_S2048x2048_S256x2048_1_1_0_0_n_n.lhsIdx (ix2 p c) ((contrEquiv1 dot_S256x2048_S2048x2048_S256x2048_1_1_0_0_n_n 2048 rfl rfl).symm k) 0).val = p.val
        unfold DotDims.lhsIdx
        rw [dif_neg (show ¬(0 : Fin S256x2048.rank) ∈ dot_S256x2048_S2048x2048_S256x2048_1_1_0_0_n_n.lhsBatch by decide),
          dif_pos (show (0 : Fin S256x2048.rank) ∈ dot_S256x2048_S2048x2048_S256x2048_1_1_0_0_n_n.lhsNonContracting by decide)]
        rfl
      | ⟨1, _⟩ => exact (dot_S256x2048_S2048x2048_S256x2048_1_1_0_0_n_n.lhsIdx_val_of_single rfl (ix2 p c) _).trans hk)
  have er : dot_S256x2048_S2048x2048_S256x2048_1_1_0_0_n_n.rhsIdx (ix2 p c) ((contrEquiv1 dot_S256x2048_S2048x2048_S256x2048_1_1_0_0_n_n 2048 rfl rfl).symm k) = ix2 c k :=
    funext fun a => Fin.ext (by
      match a with
      | ⟨0, _⟩ =>
        show (dot_S256x2048_S2048x2048_S256x2048_1_1_0_0_n_n.rhsIdx (ix2 p c) ((contrEquiv1 dot_S256x2048_S2048x2048_S256x2048_1_1_0_0_n_n 2048 rfl rfl).symm k) 0).val = c.val
        unfold DotDims.rhsIdx
        rw [dif_neg (show ¬(0 : Fin S2048x2048.rank) ∈ dot_S256x2048_S2048x2048_S256x2048_1_1_0_0_n_n.rhsBatch by decide),
          dif_pos (show (0 : Fin S2048x2048.rank) ∈ dot_S256x2048_S2048x2048_S256x2048_1_1_0_0_n_n.rhsNonContracting by decide)]
        rfl
      | ⟨1, _⟩ => exact (dot_S256x2048_S2048x2048_S256x2048_1_1_0_0_n_n.rhsIdx_val_of_single rfl (ix2 p c) _).trans hk)
  rw [el, er]

/-- the first 512 columns of D: [256, 512] against [64, 512]: entry (p, c) is Σ_k lhs(p, k) · rhs(c, k). -/
theorem mm2_apply (lhs : FVec Ideal S256x512 φ₁) (rhs : FVec Ideal S64x512 φ₂) (p : Fin 256) (c : Fin 64) :
    matmul dot_S256x512_S64x512_S256x64_1_1_0_0_n_n none lhs rhs (constant S256x64 .f32 0x00000000#32) (ix2 p c)
      = ∑ k : Fin 512, lhs (ix2 p k) * rhs (ix2 c k) := by
  refine (Ideal.matmul_constant_zero_apply dot_S256x512_S64x512_S256x64_1_1_0_0_n_n none lhs rhs (ix2 p c)).trans ?_
  rw [← Equiv.sum_comp (contrEquiv1 dot_S256x512_S64x512_S256x64_1_1_0_0_n_n 512 rfl rfl).symm]
  refine Finset.sum_congr rfl fun k _ => ?_
  have hk := contrEquiv1_symm_val dot_S256x512_S64x512_S256x64_1_1_0_0_n_n 512 rfl rfl k
  have el : dot_S256x512_S64x512_S256x64_1_1_0_0_n_n.lhsIdx (ix2 p c) ((contrEquiv1 dot_S256x512_S64x512_S256x64_1_1_0_0_n_n 512 rfl rfl).symm k) = ix2 p k :=
    funext fun a => Fin.ext (by
      match a with
      | ⟨0, _⟩ =>
        show (dot_S256x512_S64x512_S256x64_1_1_0_0_n_n.lhsIdx (ix2 p c) ((contrEquiv1 dot_S256x512_S64x512_S256x64_1_1_0_0_n_n 512 rfl rfl).symm k) 0).val = p.val
        unfold DotDims.lhsIdx
        rw [dif_neg (show ¬(0 : Fin S256x512.rank) ∈ dot_S256x512_S64x512_S256x64_1_1_0_0_n_n.lhsBatch by decide),
          dif_pos (show (0 : Fin S256x512.rank) ∈ dot_S256x512_S64x512_S256x64_1_1_0_0_n_n.lhsNonContracting by decide)]
        rfl
      | ⟨1, _⟩ => exact (dot_S256x512_S64x512_S256x64_1_1_0_0_n_n.lhsIdx_val_of_single rfl (ix2 p c) _).trans hk)
  have er : dot_S256x512_S64x512_S256x64_1_1_0_0_n_n.rhsIdx (ix2 p c) ((contrEquiv1 dot_S256x512_S64x512_S256x64_1_1_0_0_n_n 512 rfl rfl).symm k) = ix2 c k :=
    funext fun a => Fin.ext (by
      match a with
      | ⟨0, _⟩ =>
        show (dot_S256x512_S64x512_S256x64_1_1_0_0_n_n.rhsIdx (ix2 p c) ((contrEquiv1 dot_S256x512_S64x512_S256x64_1_1_0_0_n_n 512 rfl rfl).symm k) 0).val = c.val
        unfold DotDims.rhsIdx
        rw [dif_neg (show ¬(0 : Fin S64x512.rank) ∈ dot_S256x512_S64x512_S256x64_1_1_0_0_n_n.rhsBatch by decide),
          dif_pos (show (0 : Fin S64x512.rank) ∈ dot_S256x512_S64x512_S256x64_1_1_0_0_n_n.rhsNonContracting by decide)]
        rfl
      | ⟨1, _⟩ => exact (dot_S256x512_S64x512_S256x64_1_1_0_0_n_n.rhsIdx_val_of_single rfl (ix2 p c) _).trans hk)
  rw [el, er]

/-- the next 1536 columns of D: [256, 1536] against [64, 1536]: entry (p, c) is Σ_k lhs(p, k) · rhs(c, k). -/
theorem mm3_apply (lhs : FVec Ideal S256x1536 φ₁) (rhs : FVec Ideal S64x1536 φ₂) (p : Fin 256) (c : Fin 64) :
    matmul dot_S256x1536_S64x1536_S256x64_1_1_0_0_n_n none lhs rhs (constant S256x64 .f32 0x00000000#32) (ix2 p c)
      = ∑ k : Fin 1536, lhs (ix2 p k) * rhs (ix2 c k) := by
  refine (Ideal.matmul_constant_zero_apply dot_S256x1536_S64x1536_S256x64_1_1_0_0_n_n none lhs rhs (ix2 p c)).trans ?_
  rw [← Equiv.sum_comp (contrEquiv1 dot_S256x1536_S64x1536_S256x64_1_1_0_0_n_n 1536 rfl rfl).symm]
  refine Finset.sum_congr rfl fun k _ => ?_
  have hk := contrEquiv1_symm_val dot_S256x1536_S64x1536_S256x64_1_1_0_0_n_n 1536 rfl rfl k
  have el : dot_S256x1536_S64x1536_S256x64_1_1_0_0_n_n.lhsIdx (ix2 p c) ((contrEquiv1 dot_S256x1536_S64x1536_S256x64_1_1_0_0_n_n 1536 rfl rfl).symm k) = ix2 p k :=
    funext fun a => Fin.ext (by
      match a with
      | ⟨0, _⟩ =>
        show (dot_S256x1536_S64x1536_S256x64_1_1_0_0_n_n.lhsIdx (ix2 p c) ((contrEquiv1 dot_S256x1536_S64x1536_S256x64_1_1_0_0_n_n 1536 rfl rfl).symm k) 0).val = p.val
        unfold DotDims.lhsIdx
        rw [dif_neg (show ¬(0 : Fin S256x1536.rank) ∈ dot_S256x1536_S64x1536_S256x64_1_1_0_0_n_n.lhsBatch by decide),
          dif_pos (show (0 : Fin S256x1536.rank) ∈ dot_S256x1536_S64x1536_S256x64_1_1_0_0_n_n.lhsNonContracting by decide)]
        rfl
      | ⟨1, _⟩ => exact (dot_S256x1536_S64x1536_S256x64_1_1_0_0_n_n.lhsIdx_val_of_single rfl (ix2 p c) _).trans hk)
  have er : dot_S256x1536_S64x1536_S256x64_1_1_0_0_n_n.rhsIdx (ix2 p c) ((contrEquiv1 dot_S256x1536_S64x1536_S256x64_1_1_0_0_n_n 1536 rfl rfl).symm k) = ix2 c k :=
    funext fun a => Fin.ext (by
      match a with
      | ⟨0, _⟩ =>
        show (dot_S256x1536_S64x1536_S256x64_1_1_0_0_n_n.rhsIdx (ix2 p c) ((contrEquiv1 dot_S256x1536_S64x1536_S256x64_1_1_0_0_n_n 1536 rfl rfl).symm k) 0).val = c.val
        unfold DotDims.rhsIdx
        rw [dif_neg (show ¬(0 : Fin S64x1536.rank) ∈ dot_S256x1536_S64x1536_S256x64_1_1_0_0_n_n.rhsBatch by decide),
          dif_pos (show (0 : Fin S64x1536.rank) ∈ dot_S256x1536_S64x1536_S256x64_1_1_0_0_n_n.rhsNonContracting by decide)]
        rfl
      | ⟨1, _⟩ => exact (dot_S256x1536_S64x1536_S256x64_1_1_0_0_n_n.rhsIdx_val_of_single rfl (ix2 p c) _).trans hk)
  rw [el, er]

/-- the last 2048 columns of D: [256, 2048] against [64, 2048]: entry (p, c) is Σ_k lhs(p, k) · rhs(c, k). -/
theorem mm4_apply (lhs : FVec Ideal S256x2048 φ₁) (rhs : FVec Ideal S64x2048 φ₂) (p : Fin 256) (c : Fin 64) :
    matmul dot_S256x2048_S64x2048_S256x64_1_1_0_0_n_n none lhs rhs (constant S256x64 .f32 0x00000000#32) (ix2 p c)
      = ∑ k : Fin 2048, lhs (ix2 p k) * rhs (ix2 c k) := by
  refine (Ideal.matmul_constant_zero_apply dot_S256x2048_S64x2048_S256x64_1_1_0_0_n_n none lhs rhs (ix2 p c)).trans ?_
  rw [← Equiv.sum_comp (contrEquiv1 dot_S256x2048_S64x2048_S256x64_1_1_0_0_n_n 2048 rfl rfl).symm]
  refine Finset.sum_congr rfl fun k _ => ?_
  have hk := contrEquiv1_symm_val dot_S256x2048_S64x2048_S256x64_1_1_0_0_n_n 2048 rfl rfl k
  have el : dot_S256x2048_S64x2048_S256x64_1_1_0_0_n_n.lhsIdx (ix2 p c) ((contrEquiv1 dot_S256x2048_S64x2048_S256x64_1_1_0_0_n_n 2048 rfl rfl).symm k) = ix2 p k :=
    funext fun a => Fin.ext (by
      match a with
      | ⟨0, _⟩ =>
        show (dot_S256x2048_S64x2048_S256x64_1_1_0_0_n_n.lhsIdx (ix2 p c) ((contrEquiv1 dot_S256x2048_S64x2048_S256x64_1_1_0_0_n_n 2048 rfl rfl).symm k) 0).val = p.val
        unfold DotDims.lhsIdx
        rw [dif_neg (show ¬(0 : Fin S256x2048.rank) ∈ dot_S256x2048_S64x2048_S256x64_1_1_0_0_n_n.lhsBatch by decide),
          dif_pos (show (0 : Fin S256x2048.rank) ∈ dot_S256x2048_S64x2048_S256x64_1_1_0_0_n_n.lhsNonContracting by decide)]
        rfl
      | ⟨1, _⟩ => exact (dot_S256x2048_S64x2048_S256x64_1_1_0_0_n_n.lhsIdx_val_of_single rfl (ix2 p c) _).trans hk)
  have er : dot_S256x2048_S64x2048_S256x64_1_1_0_0_n_n.rhsIdx (ix2 p c) ((contrEquiv1 dot_S256x2048_S64x2048_S256x64_1_1_0_0_n_n 2048 rfl rfl).symm k) = ix2 c k :=
    funext fun a => Fin.ext (by
      match a with
      | ⟨0, _⟩ =>
        show (dot_S256x2048_S64x2048_S256x64_1_1_0_0_n_n.rhsIdx (ix2 p c) ((contrEquiv1 dot_S256x2048_S64x2048_S256x64_1_1_0_0_n_n 2048 rfl rfl).symm k) 0).val = c.val
        unfold DotDims.rhsIdx
        rw [dif_neg (show ¬(0 : Fin S64x2048.rank) ∈ dot_S256x2048_S64x2048_S256x64_1_1_0_0_n_n.rhsBatch by decide),
          dif_pos (show (0 : Fin S64x2048.rank) ∈ dot_S256x2048_S64x2048_S256x64_1_1_0_0_n_n.rhsNonContracting by decide)]
        rfl
      | ⟨1, _⟩ => exact (dot_S256x2048_S64x2048_S256x64_1_1_0_0_n_n.rhsIdx_val_of_single rfl (ix2 p c) _).trans hk)
  rw [el, er]

/-- the product with U: [256, 64] against [512, 64]: entry (p, c) is Σ_k lhs(p, k) · rhs(c, k). -/
theorem mm5_apply (lhs : FVec Ideal S256x64 φ₁) (rhs : FVec Ideal S512x64 φ₂) (p : Fin 256) (c : Fin 512) :
    matmul dot_S256x64_S512x64_S256x512_1_1_0_0_n_n none lhs rhs (constant S256x512 .f32 0x00000000#32) (ix2 p c)
      = ∑ k : Fin 64, lhs (ix2 p k) * rhs (ix2 c k) := by
  refine (Ideal.matmul_constant_zero_apply dot_S256x64_S512x64_S256x512_1_1_0_0_n_n none lhs rhs (ix2 p c)).trans ?_
  rw [← Equiv.sum_comp (contrEquiv1 dot_S256x64_S512x64_S256x512_1_1_0_0_n_n 64 rfl rfl).symm]
  refine Finset.sum_congr rfl fun k _ => ?_
  have hk := contrEquiv1_symm_val dot_S256x64_S512x64_S256x512_1_1_0_0_n_n 64 rfl rfl k
  have el : dot_S256x64_S512x64_S256x512_1_1_0_0_n_n.lhsIdx (ix2 p c) ((contrEquiv1 dot_S256x64_S512x64_S256x512_1_1_0_0_n_n 64 rfl rfl).symm k) = ix2 p k :=
    funext fun a => Fin.ext (by
      match a with
      | ⟨0, _⟩ =>
        show (dot_S256x64_S512x64_S256x512_1_1_0_0_n_n.lhsIdx (ix2 p c) ((contrEquiv1 dot_S256x64_S512x64_S256x512_1_1_0_0_n_n 64 rfl rfl).symm k) 0).val = p.val
        unfold DotDims.lhsIdx
        rw [dif_neg (show ¬(0 : Fin S256x64.rank) ∈ dot_S256x64_S512x64_S256x512_1_1_0_0_n_n.lhsBatch by decide),
          dif_pos (show (0 : Fin S256x64.rank) ∈ dot_S256x64_S512x64_S256x512_1_1_0_0_n_n.lhsNonContracting by decide)]
        rfl
      | ⟨1, _⟩ => exact (dot_S256x64_S512x64_S256x512_1_1_0_0_n_n.lhsIdx_val_of_single rfl (ix2 p c) _).trans hk)
  have er : dot_S256x64_S512x64_S256x512_1_1_0_0_n_n.rhsIdx (ix2 p c) ((contrEquiv1 dot_S256x64_S512x64_S256x512_1_1_0_0_n_n 64 rfl rfl).symm k) = ix2 c k :=
    funext fun a => Fin.ext (by
      match a with
      | ⟨0, _⟩ =>
        show (dot_S256x64_S512x64_S256x512_1_1_0_0_n_n.rhsIdx (ix2 p c) ((contrEquiv1 dot_S256x64_S512x64_S256x512_1_1_0_0_n_n 64 rfl rfl).symm k) 0).val = c.val
        unfold DotDims.rhsIdx
        rw [dif_neg (show ¬(0 : Fin S512x64.rank) ∈ dot_S256x64_S512x64_S256x512_1_1_0_0_n_n.rhsBatch by decide),
          dif_pos (show (0 : Fin S512x64.rank) ∈ dot_S256x64_S512x64_S256x512_1_1_0_0_n_n.rhsNonContracting by decide)]
        rfl
      | ⟨1, _⟩ => exact (dot_S256x64_S512x64_S256x512_1_1_0_0_n_n.rhsIdx_val_of_single rfl (ix2 p c) _).trans hk)
  rw [el, er]

end Cert.KernelIdeal.Products

end
-- ==== Proof.RowSpec.lean ====
/-
  The function both programs compute, written once, row by row, over the extended reals.

  The result is f32[4, 4096, 2048]; entry (b, s, j) depends only on row (b, s) of `hidden_states` (called X) and of
  `y` (called Y) and on the weights.  With x = X[b, s, :] split as x_sel = x[:512], x_res = x[512:], and yrow = Y[b, s, :]:

    wy[h]     = Σ_k yrow[k] · W[h, k]                                  (k < 2048)
    n_sel     = layer norm of x_sel over its 512 entries, scale gs, shift bs
    n_res     = layer norm of x_res over its 1536 entries, scale gr, shift br
    low[r]    = Σ_{k<512} n_sel[k]·D[r, k] + Σ_{k<1536} n_res[k]·D[r, 512+k] + Σ_{k<2048} yrow[k]·D[r, 2048+k]
    pre[d]    = Σ_{r<64} low[r]·U[d, r] + bd[d]
    delta[d]  = softplus(pre[d])
    aneg[d]   = -softplus(A[0, 0, d])
    abar[d]   = exp(delta[d] · aneg[d])
    bbar[d]   = (abar[d] - 1) / aneg[d]
    out[j]    = abar[j]·x_sel[j] + bbar[j]·wy[j]          for j < 512
    out[j]    = x[j] + wy[j]                               for 512 ≤ j

  A layer norm of v over n entries with the count word c is (v_j - μ)·rsqrt(var + ε)·γ_j + β_j with μ = (Σ v)/c and
  var = (Σ (v_k - μ)²)/c, the quotient being the extended reals' `Ideal.div`; softplus(u) is
  max(u, 0) + log1p(exp(-|u - 0|)) with |t| = max(t, -t), the form both programs spell.  The float words that occur
  (0, 1, 512, 1536 and ε = 0x3727C5AC) stay words: the same word stands on both sides and is never evaluated.

  Also here: the two small facts about the extended reals that the comparison of the programs needs besides the
  quotient law — a sum over 4096 = 512 + 1536 + 2048 positions splits into the three sums (addition on the extended
  reals is commutative and associative, so no finiteness is asked), and a select guarded by "t ≠ t" takes its second
  branch.
-/
import Idealize.ShloMosaic.PureOps.Ideal
import Idealize.ShloMosaic.PureOps.Ideal.Laws
import Idealize.ShloMosaic.Lib.ValueIdx

noncomputable section

open scoped BigOperators

namespace Cert.SsmRow

open Idealize.ShloMosaic Idealize.ShloMosaic.ValueIdx

/-! ## The words -/

abbrev w0 : EReal := Ideal.ofBits .f32 0x00000000#32
abbrev w1 : EReal := Ideal.ofBits .f32 0x3F800000#32
abbrev w512 : EReal := Ideal.ofBits .f32 0x44000000#32
abbrev w1536 : EReal := Ideal.ofBits .f32 0x44C00000#32
abbrev wEps : EReal := Ideal.ofBits .f32 0x3727C5AC#32

/-! ## The scalar and vector pieces -/

/-- The mean of `n` values, the count given as the word `c`. -/
def mean {n : ℕ} (c : EReal) (v : Fin n → EReal) : EReal := Ideal.div (∑ k, v k) c

/-- Entry `j` of the layer norm of `v` (count word `c`, scale `γ`, shift `β`). -/
def lnorm {n : ℕ} (c : EReal) (v γ β : Fin n → EReal) (j : Fin n) : EReal :=
  (v j - mean c v) * Ideal.rsqrt (mean c (fun k => (v k - mean c v) * (v k - mean c v)) + wEps) * γ j + β j

/-- `softplus u = max(u, 0) + log1p(exp(-|u - 0|))`. -/
def softplus (u : EReal) : EReal :=
  max u w0 + Ideal.log1p (Ideal.exp (-(max (u - w0) (-(u - w0)))))

/-! ## One row -/

section Row

variable (X Y : (⟨3, ![4, 4096, 2048]⟩ : Shape).Idx → EReal) (A : (⟨3, ![1, 1, 512]⟩ : Shape).Idx → EReal)
  (W : (⟨2, ![2048, 2048]⟩ : Shape).Idx → EReal) (D : (⟨2, ![64, 4096]⟩ : Shape).Idx → EReal)
  (U : (⟨2, ![512, 64]⟩ : Shape).Idx → EReal) (bd gs bs : (⟨1, ![512]⟩ : Shape).Idx → EReal)
  (gr br : (⟨1, ![1536]⟩ : Shape).Idx → EReal)

/-- The first 512 entries of row (b, s) of X. -/
def xsel (b : Fin 4) (s : Fin 4096) (k : Fin 512) : EReal := X (ix3 b s ⟨k.val, by omega⟩)
/-- The last 1536 entries of row (b, s) of X. -/
def xres (b : Fin 4) (s : Fin 4096) (k : Fin 1536) : EReal := X (ix3 b s ⟨512 + k.val, by omega⟩)
/-- `wy[h] = Σ_k Y[b, s, k] · W[h, k]`. -/
def wy (b : Fin 4) (s : Fin 4096) (h : Fin 2048) : EReal := ∑ k : Fin 2048, Y (ix3 b s k) * W (ix2 h k)
/-- The layer norm of the first 512 entries. -/
def nsel (b : Fin 4) (s : Fin 4096) (j : Fin 512) : EReal :=
  lnorm w512 (xsel X b s) (fun k => gs (ix1 k)) (fun k => bs (ix1 k)) j
/-- The layer norm of the last 1536 entries. -/
def nres (b : Fin 4) (s : Fin 4096) (j : Fin 1536) : EReal :=
  lnorm w1536 (xres X b s) (fun k => gr (ix1 k)) (fun k => br (ix1 k)) j
/-- The low-rank projection: three sums over the three column ranges of D. -/
def low (b : Fin 4) (s : Fin 4096) (r : Fin 64) : EReal :=
  (∑ k : Fin 512, nsel X gs bs b s k * D (ix2 r ⟨k.val, by omega⟩)
    + ∑ k : Fin 1536, nres X gr br b s k * D (ix2 r ⟨512 + k.val, by omega⟩))
    + ∑ k : Fin 2048, Y (ix3 b s k) * D (ix2 r ⟨2048 + k.val, by omega⟩)
/-- `pre[d] = Σ_r low[r]·U[d, r] + bd[d]`. -/
def pre (b : Fin 4) (s : Fin 4096) (d : Fin 512) : EReal :=
  (∑ r : Fin 64, low X Y D gs bs gr br b s r * U (ix2 d r)) + bd (ix1 d)
/-- `aneg[d] = -softplus(A[0, 0, d])`. -/
def aneg (d : Fin 512) : EReal := -(softplus (A (ix3 (0 : Fin 1) (0 : Fin 1) d)))
/-- `abar[d] = exp(softplus(pre[d]) · aneg[d])`. -/
def abar (b : Fin 4) (s : Fin 4096) (d : Fin 512) : EReal :=
  Ideal.exp (softplus (pre X Y D U bd gs bs gr br b s d) * aneg A d)
/-- `bbar[d] = (abar[d] - 1) / aneg[d]`. -/
def bbar (b : Fin 4) (s : Fin 4096) (d : Fin 512) : EReal :=
  Ideal.div (abar X Y A D U bd gs bs gr br b s d - w1) (aneg A d)
/-- The first 512 entries of the result's row (b, s). -/
def selOut (b : Fin 4) (s : Fin 4096) (j : Fin 512) : EReal :=
  abar X Y A D U bd gs bs gr br b s j * xsel X b s j
    + bbar X Y A D U bd gs bs gr br b s j * wy Y W b s ⟨j.val, by omega⟩
/-- The last 1536 entries of the result's row (b, s). -/
def resOut (b : Fin 4) (s : Fin 4096) (j : Fin 1536) : EReal :=
  xres X b s j + wy Y W b s ⟨512 + j.val, by omega⟩

/-- THE RESULT, as one function of the argument arrays: entry (b, s, j). -/
def G (i : (⟨3, ![4, 4096, 2048]⟩ : Shape).Idx) : EReal :=
  if h : (i 2).val < 512 then selOut X Y A W D U bd gs bs gr br (i 0) (i 1) ⟨(i 2).val, h⟩
  else resOut X Y W (i 0) (i 1) ⟨(i 2).val - 512, by have h2 : (i 2).val < 2048 := (i 2).isLt; omega⟩

theorem G_sel (b : Fin 4) (s : Fin 4096) (j : Fin 512) :
    G X Y A W D U bd gs bs gr br (ix3 b s ⟨j.val, by omega⟩) = selOut X Y A W D U bd gs bs gr br b s j := by
  unfold G
  rw [dif_pos (show ((ix3 b s (⟨j.val, by omega⟩ : Fin 2048) : (⟨3, ![4, 4096, 2048]⟩ : Shape).Idx) 2).val < 512 from j.isLt)]

theorem G_res (b : Fin 4) (s : Fin 4096) (j : Fin 1536) :
    G X Y A W D U bd gs bs gr br (ix3 b s ⟨512 + j.val, by omega⟩) = resOut X Y W b s j := by
  unfold G
  rw [dif_neg (show ¬((ix3 b s (⟨512 + j.val, by omega⟩ : Fin 2048) : (⟨3, ![4, 4096, 2048]⟩ : Shape).Idx) 2).val < 512 from by
    show ¬(512 + j.val < 512); omega)]
  show resOut X Y W b s ⟨512 + j.val - 512, _⟩ = _
  congr 1
  exact Fin.ext (by show 512 + j.val - 512 = j.val; omega)

end Row

/-! ## Two facts about the extended reals -/

/-- A sum over 4096 positions is the sum over the first 512, the next 1536 and the last 2048. -/
theorem sum_split3 (f : Fin 4096 → EReal) :
    ∑ c, f c = (∑ k : Fin 512, f ⟨k.val, by omega⟩ + ∑ k : Fin 1536, f ⟨512 + k.val, by omega⟩)
      + ∑ k : Fin 2048, f ⟨2048 + k.val, by omega⟩ := by
  have h1 : ∑ c, f c = ∑ k : Fin 2048, f ⟨k.val, by omega⟩ + ∑ k : Fin 2048, f ⟨2048 + k.val, by omega⟩ :=
    Fin.sum_univ_add (a := 2048) (b := 2048) f
  have h2 : ∑ k : Fin 2048, f ⟨k.val, by omega⟩
      = ∑ k : Fin 512, f ⟨k.val, by omega⟩ + ∑ k : Fin 1536, f ⟨512 + k.val, by omega⟩ :=
    Fin.sum_univ_add (a := 512) (b := 1536) (fun k : Fin 2048 => f ⟨k.val, by omega⟩)
  rw [h1, h2]

/-- A select whose condition is "t differs from t" (ordered or unordered) takes its second branch. -/
theorem select_ne_self (p : CmpFPredicate) (hp : p = .one ∨ p = .une) (t x y : EReal) :
    Scalar.select (Ideal.cmp p t t) x y = y := by
  rcases hp with rfl | rfl <;> simp [Ideal.cmp, Scalar.select]

end Cert.SsmRow

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.KernelRowOps.lean ====
/-
  The kernel body's row-wise building blocks, read at one entry, at any block extents.

  The body works on [a, b] blocks whose rows are independent.  Three of its sub-terms are not pointwise and recur:
    * the mean of each row kept as a column: a lane sum `multi_reduction <add>` over axis 1 into [a], recast to
      [a, 1], divided by the count word.  At row p it is (Σ_k x(p, k)) / c — `SsmRow.mean`;
    * the layer norm of each row, which uses that mean twice (of the row, and of the squared deviations), adds ε,
      takes the reciprocal square root, and scales and shifts by two [1, b] rows.  At (p, c) it is `SsmRow.lnorm` of
      row p;
    * softplus, spelt max(u, 0) + log1p(exp(0 - |u - 0|)) under a guard "u - 0 differs from itself" that never fires
      on the extended reals; 0 - t is -t, so at every entry it is `SsmRow.softplus`.
  Each is stated for the term exactly as the body spells it, over arbitrary extents and the shape facts as
  hypotheses, so that the two layer norms of the kernel (512 and 1536 columns) are two uses of one lemma.
-/
import proofs.«117532_j26560077758945_2_alg».proof.Proof.RowSpec
import proofs.«117532_j26560077758945_2_alg».proof.Proof.LibColumnBroadcast
import proofs.«117532_j26560077758945_2_alg».proof.Proof.LibUnitAxisCasts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SsmRow.Ops

open Idealize.ShloMosaic Idealize.ShloMosaic.ValueIdx Cert.SsmRow Cert.LibColumnBroadcast Cert.LibUnitAxisCasts

/-! ## One-operand operations at an entry (all by unfolding) -/

theorem rsqrt_apply {s : Shape} {φ : FTy} (v : FVec Ideal s φ) (i : s.Idx) : rsqrt v i = Ideal.rsqrt (v i) := rfl
theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl
theorem absf_apply {s : Shape} {φ : FTy} (v : FVec Ideal s φ) (i : s.Idx) : absf v i = max (v i) (-(v i)) := rfl

variable {a b : ℕ}

/-! ## The lane sum and the mean column -/

/-- Inserting lane k into row p of an [a, b] block gives the entry (p, k). -/
theorem lift_row (hr : (⟨2, ![a, b]⟩ : Shape).Reduces [1] ⟨1, ![a]⟩) (p : Fin a) (k : Fin b) :
    hr.lift (ix1 p) k = ix2 p k := by
  funext c
  apply Fin.ext
  match c with
  | ⟨0, _⟩ => rfl
  | ⟨1, _⟩ => rfl

/-- The lane sum of row p is Σ_k x(p, k). -/
theorem rowSum_apply (x : FVec Ideal ⟨2, ![a, b]⟩ .f32) (hr : (⟨2, ![a, b]⟩ : Shape).Reduces [1] ⟨1, ![a]⟩)
    (hφ : FKind.Formats .f32) (hacc : (0x00000000#32 : BitVec FTy.f32.bits) = FKind.add.neutral .f32 hφ) (p : Fin a) :
    multiReduction .add [1] ⟨1, ![a]⟩ x 0x00000000#32 hr hφ hacc (ix1 p) = ∑ k : Fin b, x (ix2 p k) := by
  refine (Ideal.multiReduction_add_single x 0x00000000#32 hr hφ hacc (ix1 p)).trans ?_
  exact Finset.sum_congr rfl fun k _ => congrArg x (lift_row hr p k)

/-- The mean column at row p is the mean of row p. -/
theorem meanCol_apply (x : FVec Ideal ⟨2, ![a, b]⟩ .f32) (cw : BitVec 32) (hr : (⟨2, ![a, b]⟩ : Shape).Reduces [1] ⟨1, ![a]⟩)
    (hφ : FKind.Formats .f32) (hacc : (0x00000000#32 : BitVec FTy.f32.bits) = FKind.add.neutral .f32 hφ)
    (hc : (⟨1, ![a]⟩ : Shape).ShapeCasts ⟨2, ![a, 1]⟩) (p : Fin a) :
    divf (shapeCast ⟨2, ![a, 1]⟩ (multiReduction .add [1] ⟨1, ![a]⟩ x 0x00000000#32 hr hφ hacc) hc)
        (broadcast ⟨2, ![a, 1]⟩ (Scalar.ofBits .f32 cw)) (ix2 p (0 : Fin 1))
      = mean (Ideal.ofBits .f32 cw) (fun k => x (ix2 p k)) := by
  show Ideal.div (shapeCast ⟨2, ![a, 1]⟩ (multiReduction .add [1] ⟨1, ![a]⟩ x 0x00000000#32 hr hφ hacc) hc (ix2 p (0 : Fin 1)))
    (Ideal.ofBits .f32 cw) = Ideal.div (∑ k : Fin b, x (ix2 p k)) (Ideal.ofBits .f32 cw)
  rw [shapeCast_a_a1_apply, rowSum_apply]

/-! ## The layer norm -/

/-- The layer-norm term as the kernel body spells it: x an [a, b] block, γ and β [1, b] rows, cw the count word. -/
def lnTerm (x : FVec Ideal ⟨2, ![a, b]⟩ .f32) (γ β : FVec Ideal ⟨2, ![1, b]⟩ .f32) (cw : BitVec 32)
    (hr : (⟨2, ![a, b]⟩ : Shape).Reduces [1] ⟨1, ![a]⟩)
    (hφ : FKind.Formats .f32) (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (hb' : (⟨2, ![1, b]⟩ : Shape).Broadcasts ⟨2, ![a, b]⟩) : FVec Ideal ⟨2, ![a, b]⟩ .f32 :=
  have μ : FVec Ideal ⟨2, ![a, 1]⟩ .f32 :=
    divf (shapeCast ⟨2, ![a, 1]⟩ (multiReduction .add [1] ⟨1, ![a]⟩ x 0x00000000#32 hr hφ hacc) hc)
      (broadcast ⟨2, ![a, 1]⟩ (Scalar.ofBits .f32 cw))
  have d : FVec Ideal ⟨2, ![a, b]⟩ .f32 := subf x (broadcastTo ⟨2, ![a, b]⟩ μ hb)
  have var : FVec Ideal ⟨2, ![a, 1]⟩ .f32 :=
    divf (shapeCast ⟨2, ![a, 1]⟩ (multiReduction .add [1] ⟨1, ![a]⟩ (mulf d d) 0x00000000#32 hr hφ hacc) hc)
      (broadcast ⟨2, ![a, 1]⟩ (Scalar.ofBits .f32 cw))
  addf (mulf (mulf d (broadcastTo ⟨2, ![a, b]⟩
      (rsqrt (addf var (broadcast ⟨2, ![a, 1]⟩ (Scalar.ofBits .f32 0x3727C5AC#32)))) hb))
    (broadcastTo ⟨2, ![a, b]⟩ γ hb')) (broadcastTo ⟨2, ![a, b]⟩ β hb')

/-- At (p, c) the layer-norm term is the layer norm of row p, entry c. -/
theorem lnTerm_apply (x : FVec Ideal ⟨2, ![a, b]⟩ .f32) (γ β : FVec Ideal ⟨2, ![1, b]⟩ .f32) (cw : BitVec 32)
    (hr : (⟨2, ![a, b]⟩ : Shape).Reduces [1] ⟨1, ![a]⟩)
    (hφ : FKind.Formats .f32) (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (hb' : (⟨2, ![1, b]⟩ : Shape).Broadcasts ⟨2, ![a, b]⟩) (p : Fin a) (c : Fin b) :
    lnTerm x γ β cw hr hφ hacc hc hb hb' (ix2 p c)
      = lnorm (Ideal.ofBits .f32 cw) (fun k => x (ix2 p k)) (fun k => γ (ix2 (0 : Fin 1) k))
          (fun k => β (ix2 (0 : Fin 1) k)) c := by
  unfold lnTerm lnorm
  simp only [addf_apply, mulf_apply, subf_apply, rsqrt_apply, broadcast_apply, broadcastTo_a1_ab_apply,
    broadcastTo_1b_ab_apply]
  rw [meanCol_apply x cw hr hφ hacc hc p, meanCol_apply _ cw hr hφ hacc hc p]
  simp only [mulf_apply, subf_apply, broadcastTo_a1_ab_apply]
  rw [meanCol_apply x cw hr hφ hacc hc p]
  rfl

/-! ## Softplus -/

/-- The softplus chain as the kernel body spells it, on a vector of any shape. -/
def spTerm {s : Shape} (u : FVec Ideal s .f32) : FVec Ideal s .f32 :=
  have z : Ideal .f32 := Scalar.ofBits .f32 0x00000000#32
  have v86 : FVec Ideal s .f32 := maximumf u (broadcast s z)
  have v88 : FVec Ideal s .f32 := subf u (broadcast s z)
  have v89 : IVec s 1 := cmpf .one v88 v88
  have v91 : FVec Ideal s .f32 := addf u (broadcast s z)
  have v92 : FVec Ideal s .f32 := absf v88
  have z' : Ideal .f32 := Scalar.ofBits .f32 0x00000000#32
  have v94 : FVec Ideal s .f32 := subf (broadcast s z') v92
  select v89 v91 (addf v86 (log1p (exp v94)))

/-- At every entry the chain is softplus of the entry. -/
theorem spTerm_apply {s : Shape} (u : FVec Ideal s .f32) (i : s.Idx) : spTerm u i = softplus (u i) := by
  unfold spTerm softplus
  simp only [select_apply, cmpf_apply, addf_apply, maximumf_apply, subf_apply, broadcast_apply, log1p_apply,
    exp_apply, absf_apply]
  rw [Ideal.cmpf_def, select_ne_self _ (Or.inl rfl)]
  show max (u i) w0 + Ideal.log1p (Ideal.exp (w0 - max (u i - w0) (-(u i - w0)))) = _
  rw [show w0 - max (u i - w0) (-(u i - w0)) = -(max (u i - w0) (-(u i - w0))) from by
    rw [show w0 = 0 from Ideal.ofBits_zero_f32]; exact zero_sub _]

end Cert.SsmRow.Ops

end
-- ==== Proof.QuotientLaw.lean ====
/-
  The one law that joins the two programs' last step.  The kernel multiplies by a reciprocal computed once,
  `(a_bar - 1) * (1 / a)`; the reference divides, `(a_bar - 1) / a`.  On the extended reals the quotient
  `Ideal.div x a` is `x * a⁻¹` whenever `a ≠ 0`, and then `Ideal.div 1 a = a⁻¹`, so the two agree for every
  extended real `x` — infinities included — as soon as the divisor is not zero.
-/
import Idealize.ShloMosaic.PureOps.Ideal

namespace Cert.SsmRow

open Idealize.ShloMosaic

/-- Off zero, multiplying by the reciprocal is dividing: `x * (1 / a) = x / a` for every extended real `x`. -/
theorem mul_div_one (x a : EReal) (h : a ≠ 0) : x * Ideal.div 1 a = Ideal.div x a := by
  rw [Ideal.div, Ideal.div, if_neg h, if_neg h, one_mul]

end Cert.SsmRow
-- ==== Proof.KernelRowSpec.lean ====
/-
  The row function in the kernel's own arrangement, and that it is the specification's.

  The kernel sees one row x of hidden_states and one row y of y (2048 entries each), the weight W whole, the
  weight D as three column blocks D1 = D[:, :512], D2 = D[:, 512:2048], D3 = D[:, 2048:], the weight U, the bias, and
  two 512-vectors computed once outside the grid: an = -softplus(A) and inv = 1 / an.  From these it forms

      kSel[j] = abar[j]·x[j] + ((abar[j] - 1)·inv[j])·wy[j]      (j < 512)
      kRes[j] = x[512 + j] + wy[512 + j]                          (j < 1536)

  with wy, the two layer norms, low (three sums), pre and abar = exp(softplus(pre)·an) as in the specification.
  Everything except the last factor is the specification's term for the row read out of the arrays; the factor
  (abar - 1)·(1/an) is the specification's (abar - 1)/an because an ≠ 0 (the quotient law).
-/
import proofs.«117532_j26560077758945_2_alg».proof.Proof.RowSpec
import proofs.«117532_j26560077758945_2_alg».proof.Proof.QuotientLaw
import Idealize.ShloMosaic.PureOps.IdealRules

noncomputable section

open scoped BigOperators

namespace Cert.SsmRow.Kernel

open Idealize.ShloMosaic Idealize.ShloMosaic.ValueIdx Cert.SsmRow

section

variable (x y : Fin 2048 → EReal) (W : Fin 2048 → Fin 2048 → EReal)
  (D1 : Fin 64 → Fin 512 → EReal) (D2 : Fin 64 → Fin 1536 → EReal) (D3 : Fin 64 → Fin 2048 → EReal)
  (U : Fin 512 → Fin 64 → EReal) (bd an inv gs bs : Fin 512 → EReal) (gr br : Fin 1536 → EReal)

/-- `wy[h] = Σ_k y[k]·W[h, k]`. -/
def kwy (h : Fin 2048) : EReal := ∑ k : Fin 2048, y k * W h k
/-- The layer norm of the first 512 entries of the row. -/
def knsel (j : Fin 512) : EReal := lnorm w512 (fun k : Fin 512 => x ⟨k.val, by omega⟩) gs bs j
/-- The layer norm of the last 1536 entries of the row. -/
def knres (j : Fin 1536) : EReal := lnorm w1536 (fun k : Fin 1536 => x ⟨512 + k.val, by omega⟩) gr br j
/-- The low-rank projection, as three sums over the three blocks of D. -/
def klow (r : Fin 64) : EReal :=
  (∑ k : Fin 512, knsel x gs bs k * D1 r k + ∑ k : Fin 1536, knres x gr br k * D2 r k) + ∑ k : Fin 2048, y k * D3 r k
/-- `pre[d] = Σ_r low[r]·U[d, r] + bd[d]`. -/
def kpre (d : Fin 512) : EReal := (∑ r : Fin 64, klow x y D1 D2 D3 gs bs gr br r * U d r) + bd d
/-- `abar[d] = exp(softplus(pre[d])·an[d])`. -/
def kabar (d : Fin 512) : EReal := Ideal.exp (softplus (kpre x y D1 D2 D3 U bd gs bs gr br d) * an d)
/-- The first 512 entries of the output row, with the reciprocal multiplied in. -/
def kSel (j : Fin 512) : EReal :=
  kabar x y D1 D2 D3 U bd an gs bs gr br j * x ⟨j.val, by omega⟩
    + (kabar x y D1 D2 D3 U bd an gs bs gr br j - w1) * inv j * kwy y W ⟨j.val, by omega⟩
/-- The last 1536 entries of the output row. -/
def kRes (j : Fin 1536) : EReal := x ⟨512 + j.val, by omega⟩ + kwy y W ⟨512 + j.val, by omega⟩

end

section

variable (X Y : (⟨3, ![4, 4096, 2048]⟩ : Shape).Idx → EReal) (A : (⟨3, ![1, 1, 512]⟩ : Shape).Idx → EReal)
  (W : (⟨2, ![2048, 2048]⟩ : Shape).Idx → EReal) (D : (⟨2, ![64, 4096]⟩ : Shape).Idx → EReal)
  (U : (⟨2, ![512, 64]⟩ : Shape).Idx → EReal) (bd gs bs : (⟨1, ![512]⟩ : Shape).Idx → EReal)
  (gr br : (⟨1, ![1536]⟩ : Shape).Idx → EReal)

/-- The word 0x3F800000 is the number 1. -/
theorem w1_eq_one : w1 = 1 := IdealRules.sign_bit.ideal_onePat .f32

/-- For the row (b, s) read out of the arrays, with `an = aneg A` and `inv = 1 / an`, the kernel's first 512 output
    entries are the specification's: the one difference is the quotient, equal because `an ≠ 0`. -/
theorem kSel_eq (b : Fin 4) (s : Fin 4096) (inv : Fin 512 → EReal) (hinv : ∀ d, inv d = Ideal.div w1 (aneg A d))
    (hne : ∀ d, aneg A d ≠ 0) (j : Fin 512) :
    kSel (fun k => X (ix3 b s k)) (fun k => Y (ix3 b s k)) (fun h k => W (ix2 h k))
        (fun r k => D (ix2 r ⟨k.val, by omega⟩)) (fun r k => D (ix2 r ⟨512 + k.val, by omega⟩))
        (fun r k => D (ix2 r ⟨2048 + k.val, by omega⟩)) (fun d r => U (ix2 d r)) (fun d => bd (ix1 d)) (aneg A) inv
        (fun k => gs (ix1 k)) (fun k => bs (ix1 k)) (fun k => gr (ix1 k)) (fun k => br (ix1 k)) j
      = selOut X Y A W D U bd gs bs gr br b s j := by
  unfold kSel selOut bbar
  rw [hinv j, show Ideal.div w1 (aneg A j) = Ideal.div 1 (aneg A j) from by rw [w1_eq_one], mul_div_one _ _ (hne j)]
  rfl

/-- The last 1536 output entries are the specification's by unfolding. -/
theorem kRes_eq (b : Fin 4) (s : Fin 4096) (j : Fin 1536) :
    kRes (fun k => X (ix3 b s k)) (fun k => Y (ix3 b s k)) (fun h k => W (ix2 h k)) j = resOut X Y W b s j := rfl

end

end Cert.SsmRow.Kernel

end
-- ==== Proof.KernelRow.lean ====
/-
  The kernel body's stored values, read at one entry of the block, as functions of the block's rows.

  The body stores two values into its [256, 2048] output block: columns 0..511 (the selective part) and columns
  512..2047 (the residual part).  Read at row p, each depends only on row p of the two [256, 2048] input blocks and on
  the weight blocks:
    * the residual part at (p, j) is x[512 + j] + wy[512 + j]  (`Kernel.kRes` of the rows);
    * the selective part at (p, j) is `Kernel.kSel` of the rows: the product with W, the two layer norms, the three
      products with the blocks of D added, the product with U, the bias, softplus, the exponential and the final
      combination.
  The intermediate values are the body's own pure terms (one definition per stored or reused value); each lemma
  below reads one of them at an entry, using the five products, the lane means and layer norms, and softplus read at
  an entry.  Changes of float format are the identity on the extended reals, and a cast of a block to its own shape
  is the identity.
-/
import proofs.«117532_j26560077758945_2_alg».proof.Proof.Gen.KernelIdeal.Skeleton
import proofs.«117532_j26560077758945_2_alg».proof.Proof.KernelProducts
import proofs.«117532_j26560077758945_2_alg».proof.Proof.KernelRowOps
import proofs.«117532_j26560077758945_2_alg».proof.Proof.KernelRowSpec

noncomputable section

open scoped BigOperators

namespace Cert.KernelIdeal.Row

open Cert.KernelIdeal Cert.KernelIdeal.Gen Cert.KernelIdeal.Products Idealize.ShloMosaic Idealize.ShloMosaic.ValueIdx
open Cert.SsmRow Cert.SsmRow.Ops Cert.SsmRow.Kernel

/-! ## The two input blocks and their slices -/

theorem pay3_eq (v0 : Vec Ideal S256x2048 .f32) : k0_pay3 v0 = v0 := by
  unfold k0_pay3; exact shapeCast_self _ _

theorem pay4_apply (v0 : Vec Ideal S256x2048 .f32) (p : Fin 256) (j : Fin 512) :
    k0_pay4 v0 (ix2 p j) = v0 (ix2 p ⟨j.val, by omega⟩) := by
  unfold k0_pay4
  rw [pay3_eq]
  refine (slice2_axis1_eq 0 v0 slices_S256x2048_o0_0_S256x512 p j).trans ?_
  exact congrArg v0 (congrArg (ix2 p) (Fin.ext (Nat.zero_add _)))

theorem pay5_apply (v0 : Vec Ideal S256x2048 .f32) (p : Fin 256) (j : Fin 1536) :
    k0_pay5 v0 (ix2 p j) = v0 (ix2 p ⟨512 + j.val, by omega⟩) := by
  unfold k0_pay5
  rw [pay3_eq]
  exact slice2_axis1_eq 512 v0 slices_S256x2048_o0_512_S256x1536 p j

theorem pay6_apply (v2 : Vec Ideal S256x2048 .f32) (i : S256x2048.Idx) : k0_pay6 v2 i = v2 i := by
  unfold k0_pay6
  show shapeCast S256x2048 v2 shapeCasts_S256x2048_S256x2048 i = v2 i
  rw [shapeCast_self]

/-! ## The product with W -/

theorem pay7_apply (v2 : Vec Ideal S256x2048 .f32) (v7 : Vec Ideal S2048x2048 .bf16) (p : Fin 256) (h : Fin 2048) :
    k0_pay7 v2 v7 (ix2 p h) = kwy (fun k => v2 (ix2 p k)) (fun h k => v7 (ix2 h k)) h := by
  unfold k0_pay7 kwy
  refine (mm1_apply _ _ p h).trans ?_
  refine Finset.sum_congr rfl fun k _ => ?_
  rw [pay6_apply, shapeCast_self]

theorem pay8_apply (v2 : Vec Ideal S256x2048 .f32) (v7 : Vec Ideal S2048x2048 .bf16) (p : Fin 256) (j : Fin 512) :
    k0_pay8 v2 v7 (ix2 p j) = kwy (fun k => v2 (ix2 p k)) (fun h k => v7 (ix2 h k)) ⟨j.val, by omega⟩ := by
  unfold k0_pay8
  refine (slice2_axis1_eq 0 (k0_pay7 v2 v7) slices_S256x2048_o0_0_S256x512 p j).trans ?_
  rw [pay7_apply]
  exact congrArg _ (Fin.ext (Nat.zero_add _))

theorem pay9_apply (v2 : Vec Ideal S256x2048 .f32) (v7 : Vec Ideal S2048x2048 .bf16) (p : Fin 256) (j : Fin 1536) :
    k0_pay9 v2 v7 (ix2 p j) = kwy (fun k => v2 (ix2 p k)) (fun h k => v7 (ix2 h k)) ⟨512 + j.val, by omega⟩ := by
  unfold k0_pay9
  refine (slice2_axis1_eq 512 (k0_pay7 v2 v7) slices_S256x2048_o0_512_S256x1536 p j).trans ?_
  rw [pay7_apply]

/-! ## The layer norm of the first 512 columns -/

theorem pay10_eq (v0 : Vec Ideal S256x2048 .f32) (v12 v14 : Vec Ideal S1x512 .f32) :
    k0_pay10 v0 v12 v14 = lnTerm (k0_pay4 v0) (shapeCast S1x512 v12 shapeCasts_S1x512_S1x512)
      (shapeCast S1x512 v14 shapeCasts_S1x512_S1x512) 0x44000000#32 reduces_S256x512_S256 (.inl rfl) rfl
      shapeCasts_S256_S256x1 broadcasts_S256x1_S256x512 broadcasts_S1x512_S256x512 := rfl

theorem pay10_apply (v0 : Vec Ideal S256x2048 .f32) (v12 v14 : Vec Ideal S1x512 .f32) (p : Fin 256) (j : Fin 512) :
    k0_pay10 v0 v12 v14 (ix2 p j)
      = knsel (fun k => v0 (ix2 p k)) (fun k => v12 (ix2 (0 : Fin 1) k)) (fun k => v14 (ix2 (0 : Fin 1) k)) j := by
  rw [pay10_eq]
  refine (lnTerm_apply _ _ _ _ _ _ _ _ _ _ p j).trans ?_
  unfold knsel
  simp only [pay4_apply, shapeCast_self]

/-! ## The pre-activation: the second layer norm, the three products with D, the product with U -/

theorem pay12_eq (v5 : FVec Ideal S256x1536 .f32) (v6 : FVec Ideal S256x2048 .bf16) (v37 : FVec Ideal S256x512 .f32)
    (v39 : FVec Ideal S1x1536 .f32) (v40 : Vec Ideal S1x1536 .f32) (v66 : Vec Ideal S64x512 .bf16)
    (v69 : Vec Ideal S64x1536 .bf16) (v73 : Vec Ideal S64x2048 .bf16) (v78 : Vec Ideal S512x64 .bf16) :
    k0_pay12 v5 v6 v37 v39 v40 v66 v69 v73 v78
      = matmul dot_S256x64_S512x64_S256x512_1_1_0_0_n_n none
          (truncf .bf16 (addf (addf
            (matmul dot_S256x512_S64x512_S256x64_1_1_0_0_n_n none (truncf .bf16 v37 bitsLt_bf16_f32)
              (shapeCast S64x512 v66 shapeCasts_S64x512_S64x512 : FVec Ideal S64x512 .bf16) (constant S256x64 .f32 0x00000000#32))
            (matmul dot_S256x1536_S64x1536_S256x64_1_1_0_0_n_n none
              (truncf .bf16 (lnTerm v5 v39 (shapeCast S1x1536 v40 shapeCasts_S1x1536_S1x1536) 0x44C00000#32
                reduces_S256x1536_S256 (.inl rfl) rfl shapeCasts_S256_S256x1 broadcasts_S256x1_S256x1536
                broadcasts_S1x1536_S256x1536) bitsLt_bf16_f32)
              (shapeCast S64x1536 v69 shapeCasts_S64x1536_S64x1536 : FVec Ideal S64x1536 .bf16) (constant S256x64 .f32 0x00000000#32)))
            (matmul dot_S256x2048_S64x2048_S256x64_1_1_0_0_n_n none v6
              (shapeCast S64x2048 v73 shapeCasts_S64x2048_S64x2048 : FVec Ideal S64x2048 .bf16) (constant S256x64 .f32 0x00000000#32)))
            bitsLt_bf16_f32)
          (shapeCast S512x64 v78 shapeCasts_S512x64_S512x64 : FVec Ideal S512x64 .bf16) (constant S256x512 .f32 0x00000000#32) := rfl

theorem pay12_apply (v5 : FVec Ideal S256x1536 .f32) (v6 : FVec Ideal S256x2048 .bf16) (v37 : FVec Ideal S256x512 .f32)
    (v39 : FVec Ideal S1x1536 .f32) (v40 : Vec Ideal S1x1536 .f32) (v66 : Vec Ideal S64x512 .bf16)
    (v69 : Vec Ideal S64x1536 .bf16) (v73 : Vec Ideal S64x2048 .bf16) (v78 : Vec Ideal S512x64 .bf16)
    (p : Fin 256) (d : Fin 512) :
    k0_pay12 v5 v6 v37 v39 v40 v66 v69 v73 v78 (ix2 p d)
      = ∑ r : Fin 64,
          ((∑ k : Fin 512, v37 (ix2 p k) * v66 (ix2 r k)
            + ∑ k : Fin 1536, lnorm w1536 (fun k => v5 (ix2 p k)) (fun k => v39 (ix2 (0 : Fin 1) k))
                (fun k => v40 (ix2 (0 : Fin 1) k)) k * v69 (ix2 r k))
            + ∑ k : Fin 2048, v6 (ix2 p k) * v73 (ix2 r k)) * v78 (ix2 d r) := by
  rw [pay12_eq]
  refine (mm5_apply _ _ p d).trans ?_
  refine Finset.sum_congr rfl fun r _ => ?_
  simp only [shapeCast_self]
  refine congrArg (· * v78 (ix2 d r)) ?_
  show (matmul (F := Ideal) dot_S256x512_S64x512_S256x64_1_1_0_0_n_n none _ _ _ (ix2 p r)
      + matmul (F := Ideal) dot_S256x1536_S64x1536_S256x64_1_1_0_0_n_n none _ _ _ (ix2 p r))
      + matmul (F := Ideal) dot_S256x2048_S64x2048_S256x64_1_1_0_0_n_n none _ _ _ (ix2 p r) = _
  rw [mm2_apply, mm3_apply, mm4_apply]
  simp only [truncf_apply]
  refine congrArg₂ (· + ·) (congrArg₂ (· + ·) rfl (Finset.sum_congr rfl fun k _ => ?_)) rfl
  exact congrArg (· * v69 (ix2 r k)) (lnTerm_apply v5 v39 v40 0x44C00000#32 reduces_S256x1536_S256 (.inl rfl) rfl
    shapeCasts_S256_S256x1 broadcasts_S256x1_S256x1536 broadcasts_S1x1536_S256x1536 p k)

/-! ## The two stored values -/

theorem pay1_eq (v4 v10 v80 : FVec Ideal S256x512 .f32) (v81 v99 v106 : Vec Ideal S1x512 .f32) :
    k0_pay1 v4 v10 v80 v81 v99 v106
      = addf (mulf (exp (mulf (spTerm (addf v80 (broadcastTo S256x512 (shapeCast S1x512 v81 shapeCasts_S1x512_S1x512)
              broadcasts_S1x512_S256x512)))
            (broadcastTo S256x512 (shapeCast S1x512 v99 shapeCasts_S1x512_S1x512) broadcasts_S1x512_S256x512))) v4)
          (mulf (mulf (subf (exp (mulf (spTerm (addf v80 (broadcastTo S256x512
              (shapeCast S1x512 v81 shapeCasts_S1x512_S1x512) broadcasts_S1x512_S256x512)))
            (broadcastTo S256x512 (shapeCast S1x512 v99 shapeCasts_S1x512_S1x512) broadcasts_S1x512_S256x512)))
              (broadcast S256x512 (Scalar.ofBits .f32 0x3F800000#32)))
            (broadcastTo S256x512 (shapeCast S1x512 v106 shapeCasts_S1x512_S1x512) broadcasts_S1x512_S256x512)) v10) := rfl

theorem pay1_apply (v4 v10 v80 : FVec Ideal S256x512 .f32) (v81 v99 v106 : Vec Ideal S1x512 .f32) (p : Fin 256) (j : Fin 512) :
    k0_pay1 v4 v10 v80 v81 v99 v106 (ix2 p j)
      = Ideal.exp (softplus (v80 (ix2 p j) + v81 (ix2 (0 : Fin 1) j)) * v99 (ix2 (0 : Fin 1) j)) * v4 (ix2 p j)
        + (Ideal.exp (softplus (v80 (ix2 p j) + v81 (ix2 (0 : Fin 1) j)) * v99 (ix2 (0 : Fin 1) j)) - w1)
            * v106 (ix2 (0 : Fin 1) j) * v10 (ix2 p j) := by
  rw [pay1_eq]
  simp only [addf_apply, mulf_apply, subf_apply, exp_apply, broadcast_apply, spTerm_apply, broadcastTo_1b_ab_apply,
    shapeCast_self]
  rfl

/-- THE SELECTIVE PART of the block at (p, j): `kSel` of row p of the two input blocks. -/
theorem sel_apply (x0 x1 : Vec Ideal S256x2048 .f32) (x2 : Vec Ideal S2048x2048 .bf16) (x3 : Vec Ideal S64x512 .bf16)
    (x4 : Vec Ideal S64x1536 .bf16) (x5 : Vec Ideal S64x2048 .bf16) (x6 : Vec Ideal S512x64 .bf16)
    (x7 x8 x9 x10 x11 : Vec Ideal S1x512 .f32) (x12 x13 : Vec Ideal S1x1536 .f32) (p : Fin 256) (j : Fin 512) :
    k0_pay1 (k0_pay4 x0) (k0_pay8 x1 x2)
        (k0_pay12 (k0_pay5 x0) (k0_pay6 x1) (k0_pay10 x0 x10 x11) (k0_pay11 x12) x13 x3 x4 x5 x6) x7 x8 x9 (ix2 p j)
      = kSel (fun k => x0 (ix2 p k)) (fun k => x1 (ix2 p k)) (fun h k => x2 (ix2 h k)) (fun r k => x3 (ix2 r k))
          (fun r k => x4 (ix2 r k)) (fun r k => x5 (ix2 r k)) (fun d r => x6 (ix2 d r)) (fun d => x7 (ix2 (0 : Fin 1) d))
          (fun d => x8 (ix2 (0 : Fin 1) d)) (fun d => x9 (ix2 (0 : Fin 1) d)) (fun k => x10 (ix2 (0 : Fin 1) k))
          (fun k => x11 (ix2 (0 : Fin 1) k)) (fun k => x12 (ix2 (0 : Fin 1) k)) (fun k => x13 (ix2 (0 : Fin 1) k)) j := by
  rw [pay1_apply, pay12_apply, pay4_apply, pay8_apply]
  simp only [pay5_apply, pay6_apply, pay10_apply]
  unfold kSel kabar kpre klow knres k0_pay11
  simp only [shapeCast_self]

/-- THE RESIDUAL PART of the block at (p, j): `kRes` of row p of the two input blocks. -/
theorem res_apply (x0 x1 : Vec Ideal S256x2048 .f32) (x2 : Vec Ideal S2048x2048 .bf16) (p : Fin 256) (j : Fin 1536) :
    k0_pay2 (k0_pay5 x0) (k0_pay9 x1 x2) (ix2 p j)
      = kRes (fun k => x0 (ix2 p k)) (fun k => x1 (ix2 p k)) (fun h k => x2 (ix2 h k)) j := by
  unfold k0_pay2 kRes
  show k0_pay5 x0 (ix2 p j) + k0_pay9 x1 x2 (ix2 p j) = _
  rw [pay5_apply, pay9_apply]

end Cert.KernelIdeal.Row

end
-- ==== Proof.KernelBlock.lean ====
/-
  What the kernel body leaves in its output block, read at an entry.

  At every grid point the body fills its [256, 2048] output staging block by two stores: columns 0..511 with the
  selective value and columns 512..2047 with the residual value.  The two rectangles tile the block, so the block's
  contents after the body are the "canonical contents" of the two stores: at an entry of the second rectangle the
  second store's value, elsewhere the first store's.  Read at (p, j):
      out(p, j)        = kSel(row p of the inputs)[j]      for j < 512,
      out(p, 512 + j)  = kRes(row p of the inputs)[j]      for j < 1536.
  The body's loads read whole staging blocks at zero offsets, so each load is the block's contents.
-/
import proofs.«117532_j26560077758945_2_alg».proof.Proof.Gen.KernelIdeal.Frame
import proofs.«117532_j26560077758945_2_alg».proof.Proof.KernelRow
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Row Idealize.ShloMosaic Idealize.ShloMosaic.TcCoe
open Idealize.ShloMosaic.Tactic Idealize.ShloMosaic.ValueIdx Idealize.SL.Sem Cert.SsmRow Cert.SsmRow.Kernel

theorem hz : (![0, 0] : Fin 2 → Nat) = fun _ => 0 := funext fun a => by fin_cases a <;> rfl

/-- Two stores, the later one listed first: at an entry of the earlier store's rectangle that the later store's
    rectangle does not hold, the contents are the earlier store's value. -/
theorem canon_pair_earlier {S : Shape} {e : EltTy} (r₂ r₁ : Rect S) (w₂ : r₂.shape.Idx → Elt Ideal e)
    (w₁ : r₁.shape.Idx → Elt Ideal e) (x : r₁.shape.Idx) (h : r₁.emb x ∉ r₂.set) :
    View.canon [(⟨r₂, w₂⟩ : View.Piece (Elt Ideal) S e), ⟨r₁, w₁⟩] (r₁.emb x) = w₁ x := by
  rw [View.canon_cons_of_not_mem (⟨r₂, w₂⟩ : View.Piece (Elt Ideal) S e) [⟨r₁, w₁⟩] h, View.canon_cons_emb]

/-- The output block after the body is the canonical contents of its two stores. -/
theorem out_canon (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S64x512 .bf16) (harg4 : arg4.IsWhole) (arg5 : Memref sig .tc .vmem S64x1536 .bf16) (harg5 : arg5.IsWhole) (arg6 : Memref sig .tc .vmem S64x2048 .bf16) (harg6 : arg6.IsWhole) (arg7 : Memref sig .tc .vmem S512x64 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1536 .f32) (harg13 : arg13.IsWhole) (arg14 : Memref sig .tc .vmem S1x1536 .f32) (harg14 : arg14.IsWhole) (arg15 : Memref sig .tc .vmem S256x2048 .f32) (harg15 : arg15.IsWhole) (x0 : Vec Ideal S256x2048 .f32) (x1 : Vec Ideal S256x2048 .f32) (x2 : Vec Ideal S2048x2048 .bf16) (x3 : Vec Ideal S64x512 .bf16) (x4 : Vec Ideal S64x1536 .bf16) (x5 : Vec Ideal S64x2048 .bf16) (x6 : Vec Ideal S512x64 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x1536 .f32) (x13 : Vec Ideal S1x1536 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13
      = View.canon
          [⟨Rect.unit (s := S256x2048) ![0, 512] ![256, 1536] inb_S256x2048_S256x1536_0_512,
              k0_pay2 (k0_pay5 x0) (k0_pay9 x1 x2)⟩,
           ⟨Rect.unit (s := S256x2048) ![0, 0] ![256, 512] inb_S256x2048_S256x512_0_0,
              k0_pay1 (k0_pay4 x0) (k0_pay8 x1 x2)
                (k0_pay12 (k0_pay5 x0) (k0_pay6 x1) (k0_pay10 x0 x10 x11) (k0_pay11 x12) x13 x3 x4 x5 x6) x7 x8 x9⟩] := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, harg14.read_unread,
    View.ld_unit_zero (S := S256x2048) hz, View.ld_unit_zero (S := S2048x2048) hz, View.ld_unit_zero (S := S64x512) hz,
    View.ld_unit_zero (S := S64x1536) hz, View.ld_unit_zero (S := S64x2048) hz, View.ld_unit_zero (S := S512x64) hz,
    View.ld_unit_zero (S := S1x512) hz, View.ld_unit_zero (S := S1x1536) hz]

/-- The residual columns: entry (p, 512 + j) is `kRes` of row p. -/
theorem out_res (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S64x512 .bf16) (harg4 : arg4.IsWhole) (arg5 : Memref sig .tc .vmem S64x1536 .bf16) (harg5 : arg5.IsWhole) (arg6 : Memref sig .tc .vmem S64x2048 .bf16) (harg6 : arg6.IsWhole) (arg7 : Memref sig .tc .vmem S512x64 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1536 .f32) (harg13 : arg13.IsWhole) (arg14 : Memref sig .tc .vmem S1x1536 .f32) (harg14 : arg14.IsWhole) (arg15 : Memref sig .tc .vmem S256x2048 .f32) (harg15 : arg15.IsWhole) (x0 : Vec Ideal S256x2048 .f32) (x1 : Vec Ideal S256x2048 .f32) (x2 : Vec Ideal S2048x2048 .bf16) (x3 : Vec Ideal S64x512 .bf16) (x4 : Vec Ideal S64x1536 .bf16) (x5 : Vec Ideal S64x2048 .bf16) (x6 : Vec Ideal S512x64 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x1536 .f32) (x13 : Vec Ideal S1x1536 .f32) (p : Fin 256) (j : Fin 1536) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (ix2 p (⟨512 + j.val, by omega⟩ : Fin 2048))
      = kRes (fun k => x0 (ix2 p k)) (fun k => x1 (ix2 p k)) (fun h k => x2 (ix2 h k)) j := by
  rw [out_canon]
  have he : (ix2 p (⟨512 + j.val, by omega⟩ : Fin 2048) : S256x2048.Idx)
      = (Rect.unit (s := S256x2048) ![0, 512] ![256, 1536] inb_S256x2048_S256x1536_0_512).emb (ix2 p j) := by
    funext a
    apply Fin.ext
    rw [Rect.emb_apply]
    match a with
    | ⟨0, _⟩ => show p.val = 0 + 1 * p.val; omega
    | ⟨1, _⟩ => show 512 + j.val = 512 + 1 * j.val; omega
  rw [he, View.canon_cons_emb]
  exact res_apply x0 x1 x2 p j

/-- The selective columns: entry (p, j), j < 512, is `kSel` of row p. -/
theorem out_sel (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x2048 .bf16) (harg3 : arg3.IsWhole) (arg4 : Memref sig .tc .vmem S64x512 .bf16) (harg4 : arg4.IsWhole) (arg5 : Memref sig .tc .vmem S64x1536 .bf16) (harg5 : arg5.IsWhole) (arg6 : Memref sig .tc .vmem S64x2048 .bf16) (harg6 : arg6.IsWhole) (arg7 : Memref sig .tc .vmem S512x64 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1536 .f32) (harg13 : arg13.IsWhole) (arg14 : Memref sig .tc .vmem S1x1536 .f32) (harg14 : arg14.IsWhole) (arg15 : Memref sig .tc .vmem S256x2048 .f32) (harg15 : arg15.IsWhole) (x0 : Vec Ideal S256x2048 .f32) (x1 : Vec Ideal S256x2048 .f32) (x2 : Vec Ideal S2048x2048 .bf16) (x3 : Vec Ideal S64x512 .bf16) (x4 : Vec Ideal S64x1536 .bf16) (x5 : Vec Ideal S64x2048 .bf16) (x6 : Vec Ideal S512x64 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x1536 .f32) (x13 : Vec Ideal S1x1536 .f32) (p : Fin 256) (j : Fin 512) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (ix2 p (⟨j.val, by omega⟩ : Fin 2048))
      = kSel (fun k => x0 (ix2 p k)) (fun k => x1 (ix2 p k)) (fun h k => x2 (ix2 h k)) (fun r k => x3 (ix2 r k))
          (fun r k => x4 (ix2 r k)) (fun r k => x5 (ix2 r k)) (fun d r => x6 (ix2 d r)) (fun d => x7 (ix2 (0 : Fin 1) d))
          (fun d => x8 (ix2 (0 : Fin 1) d)) (fun d => x9 (ix2 (0 : Fin 1) d)) (fun k => x10 (ix2 (0 : Fin 1) k))
          (fun k => x11 (ix2 (0 : Fin 1) k)) (fun k => x12 (ix2 (0 : Fin 1) k)) (fun k => x13 (ix2 (0 : Fin 1) k)) j := by
  rw [out_canon]
  have hn : (Rect.unit (s := S256x2048) ![0, 0] ![256, 512] inb_S256x2048_S256x512_0_0).emb (ix2 p j)
      ∉ (Rect.unit (s := S256x2048) ![0, 512] ![256, 1536] inb_S256x2048_S256x1536_0_512).set := by
    rw [Rect.mem_set_unit]
    intro h
    have h1 := (h 1).1
    rw [Rect.emb_apply] at h1
    have hj : (512 : ℕ) ≤ 0 + 1 * j.val := h1
    have := j.isLt
    omega
  have he : (ix2 p (⟨j.val, by omega⟩ : Fin 2048) : S256x2048.Idx)
      = (Rect.unit (s := S256x2048) ![0, 0] ![256, 512] inb_S256x2048_S256x512_0_0).emb (ix2 p j) := by
    funext a
    apply Fin.ext
    rw [Rect.emb_apply]
    match a with
    | ⟨0, _⟩ => show p.val = 0 + 1 * p.val; omega
    | ⟨1, _⟩ => show j.val = 0 + 1 * j.val; omega
  rw [he]
  refine (canon_pair_earlier
    (Rect.unit (s := S256x2048) ![0, 512] ![256, 1536] inb_S256x2048_S256x1536_0_512)
    (Rect.unit (s := S256x2048) ![0, 0] ![256, 512] inb_S256x2048_S256x512_0_0) _ _ (ix2 p j) hn).trans ?_
  exact sel_apply x0 x1 x2 x3 x4 x5 x6 x7 x8 x9 x10 x11 x12 x13 p j

end Cert.KernelIdeal.Block

end
-- ==== Proof.KernelArray.lean ====
/-
  From the blocks to the whole array, and through the reshape after the region.

  The region has 64 grid points.  At point t the two big inputs' windows hold rows 256·t .. 256·t + 255 of their
  [16384, 2048] arrays, the twelve small windows hold their whole arrays (their block index never moves), and the output
  window's block, rows 256·t .. 256·t + 255 of the [16384, 2048] result, is written back at every point.  Since the body's
  output at (p, j) depends only on row p of the inputs, the block written back at point t is the block of ONE function
  `Garr` of the arrays the region finds: `Garr(R, j) = kSel(row R)[j]` for j < 512 and `kRes(row R)[j - 512]` otherwise.
  The 64 blocks cover every row (row R lies in block R / 256), so the result array ends at `Garr`; the one host
  operation after the region reshapes it to [4, 4096, 2048], which keeps each entry's row-major position:
  entry (b, s, j) is `Garr(4096·b + s, j)`.
-/
import proofs.«117532_j26560077758945_2_alg».proof.Proof.Gen.KernelIdeal.Frame
import proofs.«117532_j26560077758945_2_alg».proof.Proof.KernelBlock
import Idealize.ShloMosaic.Lib.Pipeline.Value
import Idealize.ShloMosaic.Lib.StableHlo.Run
import Idealize.ShloMosaic.Lib.Tactic

set_option maxRecDepth 16384

noncomputable section

namespace Cert.KernelIdeal.Array

open Cert.KernelIdeal Cert.KernelIdeal.Gen Cert.KernelIdeal.Block Idealize.ShloMosaic Idealize.ShloMosaic.TcCoe
open Idealize.ShloMosaic.Tactic Idealize.ShloMosaic.ValueIdx Idealize.SL.Sem Idealize.ShloMosaic.StableHlo
open Idealize.ShloMosaic.Pipeline (Dat)
open Cert.SsmRow Cert.SsmRow.Kernel

variable (m : (ℓ : Loc nD τ sig) → Buf (Elt Ideal) ℓ) (ρ : Dev nD → PrngReg)

/-! ## The printed index maps, decided once over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = t.val ∧ win0_14.index t (1 : Fin 2) = 0 :=
  (by decide +kernel : ∀ t : Fin grid0.N, _)

theorem t_lt (t : Fin cfg0.N) : t.val < 64 := by
  have h := t.isLt
  have hN : cfg0.N = 64 := N_0
  omega

/-! ## Each input window's block, read off its array -/

/-- Window 0 at point t holds rows 256·t .. of its array. -/
theorem iblk0_apply (c : Dev nD) (t : Fin cfg0.N) (p : Fin 256) (k : Fin 2048) :
    (iblk m c 0 t : Vec Ideal S256x2048 .f32) (ix2 p k)
      = V m c main_v0 (ix2 (⟨256 * t.val + p.val, by have := t_lt t; omega⟩ : Fin 16384) k) := by
  unfold iblk
  rw [View.read_apply]
  show V m c main_v0 _ = V m c main_v0 _
  refine congrArg (V m c main_v0) ?_
  funext a
  apply Fin.ext
  match a with
  | ⟨0, _⟩ =>
    show win0_0.index t (0 : Fin 2) * 256 + 1 * p.val = 256 * t.val + p.val
    rw [(idx_facts t).1]; omega
  | ⟨1, _⟩ =>
    show win0_0.index t (1 : Fin 2) * 2048 + 1 * k.val = k.val
    rw [(idx_facts t).2.1]; omega

/-- Window 1 at point t holds rows 256·t .. of its array. -/
theorem iblk1_apply (c : Dev nD) (t : Fin cfg0.N) (p : Fin 256) (k : Fin 2048) :
    (iblk m c 1 t : Vec Ideal S256x2048 .f32) (ix2 p k)
      = V m c main_v1 (ix2 (⟨256 * t.val + p.val, by have := t_lt t; omega⟩ : Fin 16384) k) := by
  unfold iblk
  rw [View.read_apply]
  show V m c main_v1 _ = V m c main_v1 _
  refine congrArg (V m c main_v1) ?_
  funext a
  apply Fin.ext
  match a with
  | ⟨0, _⟩ =>
    show win0_1.index t (0 : Fin 2) * 256 + 1 * p.val = 256 * t.val + p.val
    rw [(idx_facts t).2.2.1]; omega
  | ⟨1, _⟩ =>
    show win0_1.index t (1 : Fin 2) * 2048 + 1 * k.val = k.val
    rw [(idx_facts t).2.2.2.1]; omega

/-- Window 2 holds its whole array at every point. -/
theorem iblk2_apply (c : Dev nD) (t : Fin cfg0.N) (a' : Fin 2048) (b' : Fin 2048) :
    (iblk m c 2 t : Vec Ideal S2048x2048 .bf16) (ix2 a' b') = V m c main_v2 (ix2 a' b') := by
  unfold iblk
  rw [View.read_apply]
  show V m c main_v2 _ = V m c main_v2 _
  refine congrArg (V m c main_v2) ?_
  funext a
  apply Fin.ext
  match a with
  | ⟨0, _⟩ =>
    show win0_2.index t (0 : Fin 2) * 2048 + 1 * a'.val = a'.val
    rw [(idx_facts t).2.2.2.2.1]; omega
  | ⟨1, _⟩ =>
    show win0_2.index t (1 : Fin 2) * 2048 + 1 * b'.val = b'.val
    rw [(idx_facts t).2.2.2.2.2.1]; omega

/-- Window 3 holds its whole array at every point. -/
theorem iblk3_apply (c : Dev nD) (t : Fin cfg0.N) (a' : Fin 64) (b' : Fin 512) :
    (iblk m c 3 t : Vec Ideal S64x512 .bf16) (ix2 a' b') = V m c main_v4 (ix2 a' b') := by
  unfold iblk
  rw [View.read_apply]
  show V m c main_v4 _ = V m c main_v4 _
  refine congrArg (V m c main_v4) ?_
  funext a
  apply Fin.ext
  match a with
  | ⟨0, _⟩ =>
    show win0_3.index t (0 : Fin 2) * 64 + 1 * a'.val = a'.val
    rw [(idx_facts t).2.2.2.2.2.2.1]; omega
  | ⟨1, _⟩ =>
    show win0_3.index t (1 : Fin 2) * 512 + 1 * b'.val = b'.val
    rw [(idx_facts t).2.2.2.2.2.2.2.1]; omega

/-- Window 4 holds its whole array at every point. -/
theorem iblk4_apply (c : Dev nD) (t : Fin cfg0.N) (a' : Fin 64) (b' : Fin 1536) :
    (iblk m c 4 t : Vec Ideal S64x1536 .bf16) (ix2 a' b') = V m c main_v6 (ix2 a' b') := by
  unfold iblk
  rw [View.read_apply]
  show V m c main_v6 _ = V m c main_v6 _
  refine congrArg (V m c main_v6) ?_
  funext a
  apply Fin.ext
  match a with
  | ⟨0, _⟩ =>
    show win0_4.index t (0 : Fin 2) * 64 + 1 * a'.val = a'.val
    rw [(idx_facts t).2.2.2.2.2.2.2.2.1]; omega
  | ⟨1, _⟩ =>
    show win0_4.index t (1 : Fin 2) * 1536 + 1 * b'.val = b'.val
    rw [(idx_facts t).2.2.2.2.2.2.2.2.2.1]; omega

/-- Window 5 holds its whole array at every point. -/
theorem iblk5_apply (c : Dev nD) (t : Fin cfg0.N) (a' : Fin 64) (b' : Fin 2048) :
    (iblk m c 5 t : Vec Ideal S64x2048 .bf16) (ix2 a' b') = V m c main_v8 (ix2 a' b') := by
  unfold iblk
  rw [View.read_apply]
  show V m c main_v8 _ = V m c main_v8 _
  refine congrArg (V m c main_v8) ?_
  funext a
  apply Fin.ext
  match a with
  | ⟨0, _⟩ =>
    show win0_5.index t (0 : Fin 2) * 64 + 1 * a'.val = a'.val
    rw [(idx_facts t).2.2.2.2.2.2.2.2.2.2.1]; omega
  | ⟨1, _⟩ =>
    show win0_5.index t (1 : Fin 2) * 2048 + 1 * b'.val = b'.val
    rw [(idx_facts t).2.2.2.2.2.2.2.2.2.2.2.1]; omega

/-- Window 6 holds its whole array at every point. -/
theorem iblk6_apply (c : Dev nD) (t : Fin cfg0.N) (a' : Fin 512) (b' : Fin 64) :
    (iblk m c 6 t : Vec Ideal S512x64 .bf16) (ix2 a' b') = V m c main_v9 (ix2 a' b') := by
  unfold iblk
  rw [View.read_apply]
  show V m c main_v9 _ = V m c main_v9 _
  refine congrArg (V m c main_v9) ?_
  funext a
  apply Fin.ext
  match a with
  | ⟨0, _⟩ =>
    show win0_6.index t (0 : Fin 2) * 512 + 1 * a'.val = a'.val
    rw [(idx_facts t).2.2.2.2.2.2.2.2.2.2.2.2.1]; omega
  | ⟨1, _⟩ =>
    show win0_6.index t (1 : Fin 2) * 64 + 1 * b'.val = b'.val
    rw [(idx_facts t).2.2.2.2.2.2.2.2.2.2.2.2.2.1]; omega

/-- Window 7 holds its whole array at every point. -/
theorem iblk7_apply (c : Dev nD) (t : Fin cfg0.N) (a' : Fin 1) (b' : Fin 512) :
    (iblk m c 7 t : Vec Ideal S1x512 .f32) (ix2 a' b') = V m c main_v15 (ix2 a' b') := by
  unfold iblk
  rw [View.read_apply]
  show V m c main_v15 _ = V m c main_v15 _
  refine congrArg (V m c main_v15) ?_
  funext a
  apply Fin.ext
  match a with
  | ⟨0, _⟩ =>
    show win0_7.index t (0 : Fin 2) * 1 + 1 * a'.val = a'.val
    rw [(idx_facts t).2.2.2.2.2.2.2.2.2.2.2.2.2.2.1]; omega
  | ⟨1, _⟩ =>
    show win0_7.index t (1 : Fin 2) * 512 + 1 * b'.val = b'.val
    rw [(idx_facts t).2.2.2.2.2.2.2.2.2.2.2.2.2.2.2.1]; omega

/-- Window 8 holds its whole array at every point. -/
theorem iblk8_apply (c : Dev nD) (t : Fin cfg0.N) (a' : Fin 1) (b' : Fin 512) :
    (iblk m c 8 t : Vec Ideal S1x512 .f32) (ix2 a' b') = V m c main_v12 (ix2 a' b') := by
  unfold iblk
  rw [View.read_apply]
  show V m c main_v12 _ = V m c main_v12 _
  refine congrArg (V m c main_v12) ?_
  funext a
  apply Fin.ext
  match a with
  | ⟨0, _⟩ =>
    show win0_8.index t (0 : Fin 2) * 1 + 1 * a'.val = a'.val
    rw [(idx_facts t).2.2.2.2.2.2.2.2.2.2.2.2.2.2.2.2.1]; omega
  | ⟨1, _⟩ =>
    show win0_8.index t (1 : Fin 2) * 512 + 1 * b'.val = b'.val
    rw [(idx_facts t).2.2.2.2.2.2.2.2.2.2.2.2.2.2.2.2.2.1]; omega

/-- Window 9 holds its whole array at every point. -/
theorem iblk9_apply (c : Dev nD) (t : Fin cfg0.N) (a' : Fin 1) (b' : Fin 512) :
    (iblk m c 9 t : Vec Ideal S1x512 .f32) (ix2 a' b') = V m c main_v14 (ix2 a' b') := by
  unfold iblk
  rw [View.read_apply]
  show V m c main_v14 _ = V m c main_v14 _
  refine congrArg (V m c main_v14) ?_
  funext a
  apply Fin.ext
  match a with
  | ⟨0, _⟩ =>
    show win0_9.index t (0 : Fin 2) * 1 + 1 * a'.val = a'.val
    rw [(idx_facts t).2.2.2.2.2.2.2.2.2.2.2.2.2.2.2.2.2.2.1]; omega
  | ⟨1, _⟩ =>
    show win0_9.index t (1 : Fin 2) * 512 + 1 * b'.val = b'.val
    rw [(idx_facts t).2.2.2.2.2.2.2.2.2.2.2.2.2.2.2.2.2.2.2.1]; omega

/-- Window 10 holds its whole array at every point. -/
theorem iblk10_apply (c : Dev nD) (t : Fin cfg0.N) (a' : Fin 1) (b' : Fin 512) :
    (iblk m c 10 t : Vec Ideal S1x512 .f32) (ix2 a' b') = V m c main_v16 (ix2 a' b') := by
  unfold iblk
  rw [View.read_apply]
  show V m c main_v16 _ = V m c main_v16 _
  refine congrArg (V m c main_v16) ?_
  funext a
  apply Fin.ext
  match a with
  | ⟨0, _⟩ =>
    show win0_10.index t (0 : Fin 2) * 1 + 1 * a'.val = a'.val
    rw [(idx_facts t).2.2.2.2.2.2.2.2.2.2.2.2.2.2.2.2.2.2.2.2.1]; omega
  | ⟨1, _⟩ =>
    show win0_10.index t (1 : Fin 2) * 512 + 1 * b'.val = b'.val
    rw [(idx_facts t).2.2.2.2.2.2.2.2.2.2.2.2.2.2.2.2.2.2.2.2.2.1]; omega

/-- Window 11 holds its whole array at every point. -/
theorem iblk11_apply (c : Dev nD) (t : Fin cfg0.N) (a' : Fin 1) (b' : Fin 512) :
    (iblk m c 11 t : Vec Ideal S1x512 .f32) (ix2 a' b') = V m c main_v17 (ix2 a' b') := by
  unfold iblk
  rw [View.read_apply]
  show V m c main_v17 _ = V m c main_v17 _
  refine congrArg (V m c main_v17) ?_
  funext a
  apply Fin.ext
  match a with
  | ⟨0, _⟩ =>
    show win0_11.index t (0 : Fin 2) * 1 + 1 * a'.val = a'.val
    rw [(idx_facts t).2.2.2.2.2.2.2.2.2.2.2.2.2.2.2.2.2.2.2.2.2.2.1]; omega
  | ⟨1, _⟩ =>
    show win0_11.index t (1 : Fin 2) * 512 + 1 * b'.val = b'.val
    rw [(idx_facts t).2.2.2.2.2.2.2.2.2.2.2.2.2.2.2.2.2.2.2.2.2.2.2.1]; omega

/-- Window 12 holds its whole array at every point. -/
theorem iblk12_apply (c : Dev nD) (t : Fin cfg0.N) (a' : Fin 1) (b' : Fin 1536) :
    (iblk m c 12 t : Vec Ideal S1x1536 .f32) (ix2 a' b') = V m c main_v18 (ix2 a' b') := by
  unfold iblk
  rw [View.read_apply]
  show V m c main_v18 _ = V m c main_v18 _
  refine congrArg (V m c main_v18) ?_
  funext a
  apply Fin.ext
  match a with
  | ⟨0, _⟩ =>
    show win0_12.index t (0 : Fin 2) * 1 + 1 * a'.val = a'.val
    rw [(idx_facts t).2.2.2.2.2.2.2.2.2.2.2.2.2.2.2.2.2.2.2.2.2.2.2.2.1]; omega
  | ⟨1, _⟩ =>
    show win0_12.index t (1 : Fin 2) * 1536 + 1 * b'.val = b'.val
    rw [(idx_facts t).2.2.2.2.2.2.2.2.2.2.2.2.2.2.2.2.2.2.2.2.2.2.2.2.2.1]; omega

/-- Window 13 holds its whole array at every point. -/
theorem iblk13_apply (c : Dev nD) (t : Fin cfg0.N) (a' : Fin 1) (b' : Fin 1536) :
    (iblk m c 13 t : Vec Ideal S1x1536 .f32) (ix2 a' b') = V m c main_v19 (ix2 a' b') := by
  unfold iblk
  rw [View.read_apply]
  show V m c main_v19 _ = V m c main_v19 _
  refine congrArg (V m c main_v19) ?_
  funext a
  apply Fin.ext
  match a with
  | ⟨0, _⟩ =>
    show win0_13.index t (0 : Fin 2) * 1 + 1 * a'.val = a'.val
    rw [(idx_facts t).2.2.2.2.2.2.2.2.2.2.2.2.2.2.2.2.2.2.2.2.2.2.2.2.2.2.1]; omega
  | ⟨1, _⟩ =>
    show win0_13.index t (1 : Fin 2) * 1536 + 1 * b'.val = b'.val
    rw [(idx_facts t).2.2.2.2.2.2.2.2.2.2.2.2.2.2.2.2.2.2.2.2.2.2.2.2.2.2.2.1]; omega

/-! ## The function of the arrays that every block is a block of -/

/-- `kSel` of row R of the arrays the region finds. -/
def selV (c : Dev nD) (R : Fin 16384) (j : Fin 512) : EReal :=
  kSel (fun k => V m c main_v0 (ix2 R k)) (fun k => V m c main_v1 (ix2 R k)) (fun h k => V m c main_v2 (ix2 h k))
    (fun r k => V m c main_v4 (ix2 r k)) (fun r k => V m c main_v6 (ix2 r k)) (fun r k => V m c main_v8 (ix2 r k))
    (fun d r => V m c main_v9 (ix2 d r)) (fun d => V m c main_v15 (ix2 (0 : Fin 1) d))
    (fun d => V m c main_v12 (ix2 (0 : Fin 1) d)) (fun d => V m c main_v14 (ix2 (0 : Fin 1) d))
    (fun k => V m c main_v16 (ix2 (0 : Fin 1) k)) (fun k => V m c main_v17 (ix2 (0 : Fin 1) k))
    (fun k => V m c main_v18 (ix2 (0 : Fin 1) k)) (fun k => V m c main_v19 (ix2 (0 : Fin 1) k)) j

/-- `kRes` of row R of the arrays the region finds. -/
def resV (c : Dev nD) (R : Fin 16384) (j : Fin 1536) : EReal :=
  kRes (fun k => V m c main_v0 (ix2 R k)) (fun k => V m c main_v1 (ix2 R k)) (fun h k => V m c main_v2 (ix2 h k)) j

/-- The [16384, 2048] result of the region: row R, column j. -/
def Garr (c : Dev nD) (i : S16384x2048.Idx) : EReal :=
  if h : (i 1).val < 512 then selV m c ⟨(i 0).val, idx2_lt0 i⟩ ⟨(i 1).val, h⟩
  else resV m c ⟨(i 0).val, idx2_lt0 i⟩ ⟨(i 1).val - 512, by have := idx2_lt1 i; omega⟩

/-! ## The output block after the body at point t, at explicit coordinates -/

theorem outsAt_sel (c : Dev nD) (t : Fin cfg0.N) (p : Fin 256) (j : Fin 512) :
    outsAt0 m c t (ix2 p (⟨j.val, by omega⟩ : Fin 2048))
      = selV m c (⟨256 * t.val + p.val, by have := t_lt t; omega⟩ : Fin 16384) j := by
  unfold outsAt0
  refine (out_sel c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold selV
  simp only [iblk0_apply, iblk1_apply, iblk2_apply, iblk3_apply, iblk4_apply, iblk5_apply, iblk6_apply, iblk7_apply, iblk8_apply, iblk9_apply, iblk10_apply, iblk11_apply, iblk12_apply, iblk13_apply]

theorem outsAt_res (c : Dev nD) (t : Fin cfg0.N) (p : Fin 256) (j : Fin 1536) :
    outsAt0 m c t (ix2 p (⟨512 + j.val, by omega⟩ : Fin 2048))
      = resV m c (⟨256 * t.val + p.val, by have := t_lt t; omega⟩ : Fin 16384) j := by
  unfold outsAt0
  refine (out_res c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold resV
  simp only [iblk0_apply, iblk1_apply, iblk2_apply]

/-! ## What point t writes back is block t of `Garr` -/

theorem flushed_eq (c : Dev nD) (t : Fin cfg0.N) :
    (dats m 0 c).flushed 14 t = ((cfg0.win 14).blk t).view.read (Elt Ideal) (Garr m c) := by
  show (cfg0.win 14).cut (grid0.coords t) ((dats m 0 c).after 14 t) = _
  rw [after0_14]
  funext y
  have hp : (y 0).val < 256 := (y 0).isLt
  have hj : (y 1).val < 2048 := (y 1).isLt
  have hemb : ((cfg0.win 14).blk t).view.emb y
      = (ix2 (⟨256 * t.val + (y 0).val, by have := t_lt t; omega⟩ : Fin 16384) (⟨(y 1).val, hj⟩ : Fin 2048) : S16384x2048.Idx) := by
    funext a
    apply Fin.ext
    match a with
    | ⟨0, _⟩ =>
      show win0_14.index t (0 : Fin 2) * 256 + 1 * (y 0).val = 256 * t.val + (y 0).val
      rw [(idx_facts t).2.2.2.2.2.2.2.2.2.2.2.2.2.2.2.2.2.2.2.2.2.2.2.2.2.2.2.2.1]; omega
    | ⟨1, _⟩ =>
      show win0_14.index t (1 : Fin 2) * 2048 + 1 * (y 1).val = (y 1).val
      rw [(idx_facts t).2.2.2.2.2.2.2.2.2.2.2.2.2.2.2.2.2.2.2.2.2.2.2.2.2.2.2.2.2]; omega
  rw [View.read_apply, hemb]
  show outsAt0 m c t y = _
  have hy : y = (ix2 (⟨(y 0).val, hp⟩ : Fin 256) (⟨(y 1).val, hj⟩ : Fin 2048) : S256x2048.Idx) :=
    funext fun a => by match a with | ⟨0, _⟩ => rfl | ⟨1, _⟩ => rfl
  have e1 : outsAt0 m c t y = outsAt0 m c t (ix2 (⟨(y 0).val, hp⟩ : Fin 256) (⟨(y 1).val, hj⟩ : Fin 2048)) :=
    congrArg (outsAt0 m c t) hy
  by_cases h : (y 1).val < 512
  · have hG : Garr m c (ix2 (⟨256 * t.val + (y 0).val, by have := t_lt t; omega⟩ : Fin 16384) (⟨(y 1).val, hj⟩ : Fin 2048))
        = selV m c (⟨256 * t.val + (y 0).val, by have := t_lt t; omega⟩ : Fin 16384) ⟨(y 1).val, h⟩ := by
      unfold Garr; exact dif_pos h
    rw [hG, e1]
    exact outsAt_sel m c t ⟨(y 0).val, hp⟩ ⟨(y 1).val, h⟩
  · have hG : Garr m c (ix2 (⟨256 * t.val + (y 0).val, by have := t_lt t; omega⟩ : Fin 16384) (⟨(y 1).val, hj⟩ : Fin 2048))
        = resV m c (⟨256 * t.val + (y 0).val, by have := t_lt t; omega⟩ : Fin 16384) ⟨(y 1).val - 512, by omega⟩ := by
      unfold Garr; exact dif_neg h
    have e2 : (ix2 (⟨(y 0).val, hp⟩ : Fin 256) (⟨(y 1).val, hj⟩ : Fin 2048) : S256x2048.Idx)
        = ix2 (⟨(y 0).val, hp⟩ : Fin 256) (⟨512 + ((y 1).val - 512), by omega⟩ : Fin 2048) :=
      congrArg (ix2 (⟨(y 0).val, hp⟩ : Fin 256)) (Fin.ext (by show (y 1).val = 512 + ((y 1).val - 512); omega))
    rw [hG, e1, e2]
    exact outsAt_res m c t ⟨(y 0).val, hp⟩ ⟨(y 1).val - 512, by omega⟩

/-! ## The blocks cover the array -/

theorem mem_blk (t : Fin cfg0.N) (i : S16384x2048.Idx) :
    i ∈ ((cfg0.win 14).blk t).view.set ↔ ∀ a : Fin 2, win0_14.index t a * S256x2048.size a ≤ (i a).val
      ∧ (i a).val < win0_14.index t a * S256x2048.size a + S256x2048.size a := by
  show i ∈ ((View.whole main_v20).slice (win0_14.rect t)).set ↔ _
  rw [View.set_slice_whole, Rect.mem_set_unit]
  exact Iff.rfl

theorem cover (i : S16384x2048.Idx) :
    ∃ t : Fin cfg0.N, (cfg0.win 14).flush t = true ∧ i ∈ ((cfg0.win 14).blk t).view.set := by
  have h0 : (i 0).val < 16384 := (i 0).isLt
  have h1 : (i 1).val < 2048 := (i 1).isLt
  have hN : cfg0.N = 64 := N_0
  have hq : (i 0).val / 256 < cfg0.N := by rw [hN]; omega
  refine ⟨⟨(i 0).val / 256, hq⟩, flush0_14 _, ?_⟩
  rw [mem_blk]
  intro a
  match a with
  | ⟨0, _⟩ =>
    show win0_14.index ⟨(i 0).val / 256, hq⟩ (0 : Fin 2) * 256 ≤ (i 0).val
      ∧ (i 0).val < win0_14.index ⟨(i 0).val / 256, hq⟩ (0 : Fin 2) * 256 + 256
    rw [(idx_facts ⟨(i 0).val / 256, hq⟩).2.2.2.2.2.2.2.2.2.2.2.2.2.2.2.2.2.2.2.2.2.2.2.2.2.2.2.2.1]
    show (i 0).val / 256 * 256 ≤ (i 0).val ∧ (i 0).val < (i 0).val / 256 * 256 + 256
    omega
  | ⟨1, _⟩ =>
    show win0_14.index ⟨(i 0).val / 256, hq⟩ (1 : Fin 2) * 2048 ≤ (i 1).val
      ∧ (i 1).val < win0_14.index ⟨(i 0).val / 256, hq⟩ (1 : Fin 2) * 2048 + 2048
    rw [(idx_facts ⟨(i 0).val / 256, hq⟩).2.2.2.2.2.2.2.2.2.2.2.2.2.2.2.2.2.2.2.2.2.2.2.2.2.2.2.2.2]
    omega

/-- The region's result array after the run is `Garr`. -/
theorem final (c : Dev nD) : (dats m 0 c).arrAt 14 cfg0.N = Garr m c :=
  (dats m 0 c).arrAt_eq_of_cover 14 (Garr m c) (fun t _ => flushed_eq m c t) (cover)

end Cert.KernelIdeal.Array

end
-- ==== Proof.KernelHost.lean ====
/-
  What the region finds in its fourteen input arrays, read at an entry.

  Before its one region the program reshapes the two big inputs to [16384, 2048] (row `R` of the result is row
  `(R / 4096, R % 4096)` of the operand: a reshape keeps every entry's row-major position), casts four matrices to a
  narrower format (the identity on the extended reals), cuts the [64, 4096] matrix into its three column ranges
  [0, 512), [512, 2048), [2048, 4096), gives the five vectors a leading unit axis, and computes
  `a_neg = -softplus(A)` and `1 / a_neg` as [1, 512] rows. Each theorem here states one of those arrays, at an entry
  given by its coordinates, as the launch memory's argument array at the corresponding entry — or, for the last two,
  as `aneg` and `1 / aneg` of the row specification.

  Each array is first stated once as the host operations' composed term of the argument arrays (`V_vJ_eq`), then read
  at the entry with the layout lemma of its operation.
-/
import proofs.«117532_j26560077758945_2_alg».proof.Proof.Gen.KernelIdeal.Frame
import proofs.«117532_j26560077758945_2_alg».proof.Proof.RowSpec
import proofs.«117532_j26560077758945_2_alg».proof.Proof.LibUnitAxisCasts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Host

open Cert.KernelIdeal Cert.KernelIdeal.Gen Idealize.ShloMosaic Idealize.ShloMosaic.ValueIdx Idealize.ShloMosaic.StableHlo Cert.SsmRow
open Idealize.ShloMosaic.TcCoe Idealize.SL.Sem

variable (m : (ℓ : Loc nD τ sig) → Buf (Elt Ideal) ℓ) (c : Dev nD)

/-- The contents of a buffer when the region is entered, as the host operations' composed term of the launch memory. -/
local macro "host_read" : tactic => `(tactic| (
  dsimp only [Gen.V, Gen.V0]
  simp only [Gen.hostOps0, Gen.hostOps0_1, Gen.hostOps0_2, List.flatten_cons, List.flatten_nil, List.append_nil,
    List.cons_append, List.nil_append]
  after_results
  all_goals rfl))

/-- The same by one simplifier pass, for the arrays at the end of a long chain of operations. -/
local macro "host_read_simp" : tactic => `(tactic| (
  dsimp only [Gen.V, Gen.V0]
  simp only [Gen.hostOps0, Gen.hostOps0_1, Gen.hostOps0_2, List.flatten_cons, List.flatten_nil, List.append_nil,
    List.cons_append, List.nil_append]
  after_results_simp
  all_goals rfl))

/-! ## The two format casts: the identity on the extended reals -/

theorem V_v2_eq : (V m c main_v2 : S2048x2048.Idx → EReal)
    = truncf (F := Ideal) .bf16 (m ((c : Thread nD τ).loc main_arg3) : FVec Ideal S2048x2048 .f32) bitsLt_bf16_f32 := by
  host_read

theorem V_v2_apply (h k : Fin 2048) :
    V m c main_v2 (ix2 h k) = m ((c : Thread nD τ).loc main_arg3) (ix2 h k) := by
  rw [V_v2_eq]; rfl

theorem V_v9_eq : (V m c main_v9 : S512x64.Idx → EReal)
    = truncf (F := Ideal) .bf16 (m ((c : Thread nD τ).loc main_arg5) : FVec Ideal S512x64 .f32) bitsLt_bf16_f32 := by
  host_read

theorem V_v9_apply (d : Fin 512) (r : Fin 64) :
    V m c main_v9 (ix2 d r) = m ((c : Thread nD τ).loc main_arg5) (ix2 d r) := by
  rw [V_v9_eq]; rfl

/-! ## The three column slices of the [64, 4096] matrix, each then cast -/

theorem V_v4_eq : (V m c main_v4 : S64x512.Idx → EReal)
    = truncf (F := Ideal) .bf16 (extractStridedSlice S64x512 ![0, 0]
        (m ((c : Thread nD τ).loc main_arg4) : FVec Ideal S64x4096 .f32) slices_S64x4096_S64x512_0_0) bitsLt_bf16_f32 := by
  host_read

theorem V_v4_apply (r : Fin 64) (k : Fin 512) :
    V m c main_v4 (ix2 r k) = m ((c : Thread nD τ).loc main_arg4) (ix2 r ⟨k.val, by omega⟩) := by
  rw [V_v4_eq]
  exact slice2_axis1_apply 0 _ slices_S64x4096_S64x512_0_0 r k ⟨k.val, by omega⟩ (Nat.zero_add _).symm

theorem V_v6_eq : (V m c main_v6 : S64x1536.Idx → EReal)
    = truncf (F := Ideal) .bf16 (extractStridedSlice S64x1536 ![0, 512]
        (m ((c : Thread nD τ).loc main_arg4) : FVec Ideal S64x4096 .f32) slices_S64x4096_S64x1536_0_512) bitsLt_bf16_f32 := by
  host_read

theorem V_v6_apply (r : Fin 64) (k : Fin 1536) :
    V m c main_v6 (ix2 r k) = m ((c : Thread nD τ).loc main_arg4) (ix2 r ⟨512 + k.val, by omega⟩) := by
  rw [V_v6_eq]
  exact slice2_axis1_apply 512 _ slices_S64x4096_S64x1536_0_512 r k ⟨512 + k.val, by omega⟩ rfl

theorem V_v8_eq : (V m c main_v8 : S64x2048.Idx → EReal)
    = truncf (F := Ideal) .bf16 (extractStridedSlice S64x2048 ![0, 2048]
        (m ((c : Thread nD τ).loc main_arg4) : FVec Ideal S64x4096 .f32) slices_S64x4096_S64x2048_0_2048) bitsLt_bf16_f32 := by
  host_read

theorem V_v8_apply (r : Fin 64) (k : Fin 2048) :
    V m c main_v8 (ix2 r k) = m ((c : Thread nD τ).loc main_arg4) (ix2 r ⟨2048 + k.val, by omega⟩) := by
  rw [V_v8_eq]
  exact slice2_axis1_apply 2048 _ slices_S64x4096_S64x2048_0_2048 r k ⟨2048 + k.val, by omega⟩ rfl

/-! ## The five vectors given a leading unit axis -/

theorem V_v15_eq : (V m c main_v15 : S1x512.Idx → EReal)
    = shapeCast S1x512 (m ((c : Thread nD τ).loc main_arg6) : S512.Idx → EReal) shapeCasts_S512_S1x512 := by
  host_read

theorem V_v15_apply (d : Fin 512) :
    V m c main_v15 (ix2 (0 : Fin 1) d) = m ((c : Thread nD τ).loc main_arg6) (ix1 d) := by
  rw [V_v15_eq]
  exact shapeCast_a_1a_apply _ shapeCasts_S512_S1x512 (0 : Fin 1) d

theorem V_v16_eq : (V m c main_v16 : S1x512.Idx → EReal)
    = shapeCast S1x512 (m ((c : Thread nD τ).loc main_arg7) : S512.Idx → EReal) shapeCasts_S512_S1x512 := by
  host_read

theorem V_v16_apply (d : Fin 512) :
    V m c main_v16 (ix2 (0 : Fin 1) d) = m ((c : Thread nD τ).loc main_arg7) (ix1 d) := by
  rw [V_v16_eq]
  exact shapeCast_a_1a_apply _ shapeCasts_S512_S1x512 (0 : Fin 1) d

theorem V_v17_eq : (V m c main_v17 : S1x512.Idx → EReal)
    = shapeCast S1x512 (m ((c : Thread nD τ).loc main_arg8) : S512.Idx → EReal) shapeCasts_S512_S1x512 := by
  host_read

theorem V_v17_apply (d : Fin 512) :
    V m c main_v17 (ix2 (0 : Fin 1) d) = m ((c : Thread nD τ).loc main_arg8) (ix1 d) := by
  rw [V_v17_eq]
  exact shapeCast_a_1a_apply _ shapeCasts_S512_S1x512 (0 : Fin 1) d

theorem V_v18_eq : (V m c main_v18 : S1x1536.Idx → EReal)
    = shapeCast S1x1536 (m ((c : Thread nD τ).loc main_arg9) : S1536.Idx → EReal) shapeCasts_S1536_S1x1536 := by
  host_read

theorem V_v18_apply (d : Fin 1536) :
    V m c main_v18 (ix2 (0 : Fin 1) d) = m ((c : Thread nD τ).loc main_arg9) (ix1 d) := by
  rw [V_v18_eq]
  exact shapeCast_a_1a_apply _ shapeCasts_S1536_S1x1536 (0 : Fin 1) d

theorem V_v19_eq : (V m c main_v19 : S1x1536.Idx → EReal)
    = shapeCast S1x1536 (m ((c : Thread nD τ).loc main_arg10) : S1536.Idx → EReal) shapeCasts_S1536_S1x1536 := by
  host_read

theorem V_v19_apply (d : Fin 1536) :
    V m c main_v19 (ix2 (0 : Fin 1) d) = m ((c : Thread nD τ).loc main_arg10) (ix1 d) := by
  rw [V_v19_eq]
  exact shapeCast_a_1a_apply _ shapeCasts_S1536_S1x1536 (0 : Fin 1) d

/-! ## The two big inputs with their first two axes merged -/

/-- A `[4, 4096, 2048]` array cast to `[16384, 2048]` reads, at `(R, k)`, the operand at `(R / 4096, R % 4096, k)`: a reshape
    keeps every entry's row-major position, and `(R / 4096) · 4096 + R % 4096 = R`. -/
theorem reshape_rows_apply {α : Type} (X : (⟨3, ![4, 4096, 2048]⟩ : Shape).Idx → α)
    (h : (⟨3, ![4, 4096, 2048]⟩ : Shape).ShapeCasts ⟨2, ![16384, 2048]⟩) (R : Fin 16384) (k : Fin 2048) :
    shapeCast ⟨2, ![16384, 2048]⟩ X h (ix2 R k)
      = X (ix3 (⟨R.val / 4096, by omega⟩ : Fin 4) (⟨R.val % 4096, by omega⟩ : Fin 4096) k) :=
  shapeCast_apply X h _ _ (by
    rw [Shape.rowMajor_val_three, Shape.rowMajor_val_two]
    show (R.val / 4096 * 4096 + R.val % 4096) * 2048 + k.val = R.val * 2048 + k.val
    rw [Nat.div_add_mod'])

theorem V_v0_eq : (V m c main_v0 : S16384x2048.Idx → EReal)
    = shapeCast S16384x2048 (m ((c : Thread nD τ).loc main_arg0) : S4x4096x2048.Idx → EReal)
        shapeCasts_S4x4096x2048_S16384x2048 := by
  host_read

theorem V_v0_apply (R : Fin 16384) (k : Fin 2048) :
    V m c main_v0 (ix2 R k) = m ((c : Thread nD τ).loc main_arg0)
      (ix3 (⟨R.val / 4096, by omega⟩ : Fin 4) (⟨R.val % 4096, by omega⟩ : Fin 4096) k) := by
  rw [V_v0_eq]
  exact reshape_rows_apply _ shapeCasts_S4x4096x2048_S16384x2048 R k

theorem V_v1_eq : (V m c main_v1 : S16384x2048.Idx → EReal)
    = shapeCast S16384x2048 (m ((c : Thread nD τ).loc main_arg1) : S4x4096x2048.Idx → EReal)
        shapeCasts_S4x4096x2048_S16384x2048 := by
  host_read

theorem V_v1_apply (R : Fin 16384) (k : Fin 2048) :
    V m c main_v1 (ix2 R k) = m ((c : Thread nD τ).loc main_arg1)
      (ix3 (⟨R.val / 4096, by omega⟩ : Fin 4) (⟨R.val % 4096, by omega⟩ : Fin 4096) k) := by
  rw [V_v1_eq]
  exact reshape_rows_apply _ shapeCasts_S4x4096x2048_S16384x2048 R k

/-! ## `a_neg = -softplus(A)` and `1 / a_neg` -/

/-- The host's spelling of `-softplus(A)` as a [1, 512] row: with `z` the zero word broadcast and `t = A - z`,
    `reshape(-(select(t ≠ t, A + z, max(A, z) + log1p(exp(-|t|)))))`. -/
def hostAneg (A : FVec Ideal S1x1x512 .f32) : FVec Ideal S1x512 .f32 :=
  shapeCast S1x512
    (Host.negf (F := Ideal)
      (select
        (cmpf (F := Ideal) .une
          (subf A (broadcastInDim S1x1x512 ![] bcast_S_S1x1x512 (constant (F := Ideal) S_ .f32 0x00000000#32)))
          (subf A (broadcastInDim S1x1x512 ![] bcast_S_S1x1x512 (constant (F := Ideal) S_ .f32 0x00000000#32))))
        (addf A (broadcastInDim S1x1x512 ![] bcast_S_S1x1x512 (constant (F := Ideal) S_ .f32 0x00000000#32)))
        (addf
          (maximumf A (broadcastInDim S1x1x512 ![] bcast_S_S1x1x512 (constant (F := Ideal) S_ .f32 0x00000000#32)))
          (Host.log1p (Host.exp (Host.negf (Host.absf
            (subf A (broadcastInDim S1x1x512 ![] bcast_S_S1x1x512 (constant (F := Ideal) S_ .f32 0x00000000#32))))))))))
    shapeCasts_S1x1x512_S1x512

/-- At entry `(0, d)` the host's row is `aneg A d`: the reshape drops the leading unit axis, each operation acts entry by
    entry, and the select guarded by `t ≠ t` takes its second branch. -/
theorem hostAneg_apply (A : FVec Ideal S1x1x512 .f32) (d : Fin 512) :
    hostAneg A (ix2 (0 : Fin 1) d) = aneg A d := by
  unfold hostAneg
  refine (shapeCast_1ab_ab_apply _ shapeCasts_S1x1x512_S1x512 (0 : Fin 1) d).trans ?_
  show -(Scalar.select (Ideal.cmp .une (A (ix3 (0 : Fin 1) (0 : Fin 1) d) - w0) (A (ix3 (0 : Fin 1) (0 : Fin 1) d) - w0))
      (A (ix3 (0 : Fin 1) (0 : Fin 1) d) + w0)
      (max (A (ix3 (0 : Fin 1) (0 : Fin 1) d)) w0
        + Ideal.log1p (Ideal.exp (-(max (A (ix3 (0 : Fin 1) (0 : Fin 1) d) - w0) (-(A (ix3 (0 : Fin 1) (0 : Fin 1) d) - w0))))))) = _
  rw [select_ne_self _ (Or.inr rfl)]
  rfl

theorem V_v12_eq : (V m c main_v12 : S1x512.Idx → EReal)
    = hostAneg (m ((c : Thread nD τ).loc main_arg2) : FVec Ideal S1x1x512 .f32) := by
  host_read_simp

theorem V_v12_apply (d : Fin 512) :
    V m c main_v12 (ix2 (0 : Fin 1) d) = aneg (m ((c : Thread nD τ).loc main_arg2)) d := by
  rw [V_v12_eq]
  exact hostAneg_apply _ d

theorem V_v14_eq : (V m c main_v14 : S1x512.Idx → EReal)
    = Host.divf (F := Ideal)
        (broadcastInDim S1x512 ![] bcast_S_S1x512 (constant (F := Ideal) S_ .f32 0x3F800000#32))
        (hostAneg (m ((c : Thread nD τ).loc main_arg2) : FVec Ideal S1x1x512 .f32)) := by
  host_read_simp

theorem V_v14_apply (d : Fin 512) :
    V m c main_v14 (ix2 (0 : Fin 1) d) = Ideal.div w1 (aneg (m ((c : Thread nD τ).loc main_arg2)) d) := by
  rw [V_v14_eq]
  show Ideal.div w1 (hostAneg (m ((c : Thread nD τ).loc main_arg2)) (ix2 (0 : Fin 1) d)) = _
  rw [hostAneg_apply]

end Cert.KernelIdeal.Host

end
-- ==== Proof.FiniteA.lean ====
/-
  The one place where the precondition is used.

  The result divides by `aneg[d] = -softplus(A[0, 0, d])`, and the quotient law wants a divisor that is not zero.
  On a real `r`, `softplus r = max r 0 + log (1 + exp (-|r|))` is a real above zero (`max r 0 ≥ 0`, and
  `log (1 + e) > 0` for `e > 0`), so `aneg[d]` is below zero — provided `A` holds reals. That is what the precondition
  says: it is the conjunction, nested to the left in argument order, of eleven `all(|x_k| < +∞)`; its third conjunct
  is about `A`, an `all` that holds holds at every index, and an extended real whose absolute value `max x (-x)` is
  below `+∞` is neither `⊥` nor `⊤`.
-/
import proofs.«117532_j26560077758945_2_alg».proof.Pre_finite_inputs
import proofs.«117532_j26560077758945_2_alg».proof.Proof.Gen.Pre_finite_inputs
import proofs.«117532_j26560077758945_2_alg».proof.Proof.RowSpec
import Idealize.ShloMosaic.Lib.ReduceAll
import Idealize.ShloMosaic.Lib.ValueIdx
import Idealize.ShloMosaic.PureOps.Ideal.Laws

noncomputable section

namespace Cert.SsmRow.Finite

open Idealize.ShloMosaic Idealize.ShloMosaic.ValueIdx

/-! ## softplus of a real is a positive real -/

/-- The embedding of the reals is monotone, so it commutes with `max`. -/
theorem coe_max (a b : ℝ) : ((max a b : ℝ) : EReal) = max (a : EReal) (b : EReal) :=
  EReal.coe_strictMono.monotone.map_max

/-- On a real `r`, `softplus r` is the real `max r 0 + log (1 + exp (-|r|))`, with `|r| = max r (-r)`. -/
theorem softplus_coe (r : ℝ) :
    Cert.SsmRow.softplus (r : EReal) = ((max r 0 + Real.log (1 + Real.exp (-(max r (-r)))) : ℝ) : EReal) := by
  have hpos : ¬ (1 + Real.exp (-(max r (-r))) ≤ 0) := not_le.mpr (by positivity)
  have hw : Cert.SsmRow.w0 = 0 := Ideal.ofBits_zero_f32
  unfold Cert.SsmRow.softplus Ideal.log1p
  rw [hw, sub_zero, ← EReal.coe_neg, ← coe_max, ← EReal.coe_neg, Ideal.exp_coe,
    ← EReal.coe_one, ← EReal.coe_add, Ideal.log_coe, if_neg hpos, ← EReal.coe_zero, ← coe_max, ← EReal.coe_add]

/-- `softplus` of a real is above zero: `max r 0 ≥ 0` and `log (1 + e) > 0` for `e > 0`. -/
theorem softplus_pos (r : ℝ) : (0 : EReal) < Cert.SsmRow.softplus (r : EReal) := by
  rw [softplus_coe, ← EReal.coe_zero, EReal.coe_lt_coe_iff]
  have h1 : (0 : ℝ) ≤ max r 0 := le_max_right r 0
  have h2 : (0 : ℝ) < Real.log (1 + Real.exp (-(max r (-r)))) :=
    Real.log_pos (by have := Real.exp_pos (-(max r (-r))); linarith)
  linarith

/-- `aneg[d] = -softplus(A[0,0,d])` is not zero when `A` holds reals: `softplus` of a real is above zero. -/
theorem aneg_ne_zero (A : (⟨3, ![1, 1, 512]⟩ : Shape).Idx → EReal) (hA : ∀ i, ∃ r : ℝ, A i = (r : EReal))
    (d : Fin 512) : Cert.SsmRow.aneg A d ≠ 0 := by
  obtain ⟨r, hr⟩ := hA (ix3 (0 : Fin 1) (0 : Fin 1) d)
  unfold Cert.SsmRow.aneg
  rw [hr]
  intro h0
  have hz : Cert.SsmRow.softplus (r : EReal) = 0 := EReal.neg_eq_zero_iff.mp h0
  exact (ne_of_gt (softplus_pos r)) hz

/-! ## The precondition read back: every entry of A is a real -/

/-- The rank-0 result shape has one index. -/
instance subsingleton_S_ : Subsingleton Cert.Pre_finite_inputs.S_.Idx := ⟨fun a b => funext fun d => d.elim0⟩

/-- The f32 word `0x7F800000` is `+∞`. -/
theorem ofBits_inf_f32 : Ideal.ofBits .f32 0x7F800000#32 = ⊤ := by simp [Ideal.ofBits, Ideal.ieee]

/-- An extended real whose absolute value `max x (-x)` is below `+∞` is a real: at `⊥` and at `⊤` the absolute value is `⊤`. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- A pointwise `and` of two `i1` arrays that is 1 at an index has both operands 1 there. -/
theorem andi_apply_eq_one {s : Shape} (a b : IVec s 1) (j : s.Idx) (h : andi a b j = 1#1) : a j = 1#1 ∧ b j = 1#1 :=
  IntOp.andi_eq_one.1 h

/-- The precondition is the conjunction, nested to the left in argument order, of eleven `all(|x_k| < +∞)`; the third
    conjunct is the one about `A`, and an `all` that holds holds at every index. -/
theorem A_real [Cert.Pre_finite_inputs.Facts]
    (x0 x1 : FVec Ideal Cert.Pre_finite_inputs.S4x4096x2048 .f32) (x2 : FVec Ideal Cert.Pre_finite_inputs.S1x1x512 .f32)
    (x3 : FVec Ideal Cert.Pre_finite_inputs.S2048x2048 .f32) (x4 : FVec Ideal Cert.Pre_finite_inputs.S64x4096 .f32)
    (x5 : FVec Ideal Cert.Pre_finite_inputs.S512x64 .f32) (x6 x7 x8 : FVec Ideal Cert.Pre_finite_inputs.S512 .f32)
    (x9 x10 : FVec Ideal Cert.Pre_finite_inputs.S1536 .f32)
    (h : Cert.Pre_finite_inputs.fn (F := Ideal) x0 x1 x2 x3 x4 x5 x6 x7 x8 x9 x10 = fun _ => 1#1) :
    ∀ i, ∃ r : ℝ, x2 i = (r : EReal) := by
  intro i
  have e := congrFun h ValueIdx.ix0
  unfold Cert.Pre_finite_inputs.fn Cert.Pre_finite_inputs.fn_part1 Cert.Pre_finite_inputs.fn_part2
    Cert.Pre_finite_inputs.fn_part3 at e
  dsimp only at e
  -- peel the conjunction from the outside: eight times the left operand, then the right one
  have h10 := (andi_apply_eq_one _ _ _ e).1
  have h9 := (andi_apply_eq_one _ _ _ h10).1
  have h8 := (andi_apply_eq_one _ _ _ h9).1
  have h7 := (andi_apply_eq_one _ _ _ h8).1
  have h6 := (andi_apply_eq_one _ _ _ h7).1
  have h5 := (andi_apply_eq_one _ _ _ h6).1
  have h4 := (andi_apply_eq_one _ _ _ h5).1
  have h3 := (andi_apply_eq_one _ _ _ h4).1
  have hA := (andi_apply_eq_one _ _ _ h3).2
  -- the `all` over A holds, so its predicate holds at `i`
  have hp := Host.reduce_andi_all _ _ _ _ _ hA i
  exact real_of_abs_lt_inf (x2 i) hp

end Cert.SsmRow.Finite

end
-- ==== Proof.KernelValue.lean ====
/-
  The idealized kernel's run, read: its result array is the specification's function of the argument arrays.

  Three things are joined here.
    * After the region the program reshapes the [16384, 2048] result to [4, 4096, 2048]; a reshape keeps each entry's
      row-major position, so entry (b, s, j) of the result is entry (4096·b + s, j) of the region's array `Garr`.
    * The arrays the region finds are the host operations before it applied to the arguments: row 4096·b + s of the
      two reshaped inputs is row (b, s) of hidden_states and of y; the weight blocks are W, the three column ranges of D,
      and U, unchanged by the format casts; the four scale / shift vectors and the bias are the 1-D arguments; and the two
      vectors computed once are an = -softplus(A) and inv = 1 / an.
    * With these, `kSel` / `kRes` of the row are the specification's `selOut` / `resOut`; the one place where the two
      differ as written, (abar - 1)·(1/an) against (abar - 1)/an, is the quotient law, which needs an ≠ 0.  That is
      where the precondition is used: A is finite, softplus of a real number is positive, so an is a nonzero real.
-/
import proofs.«117532_j26560077758945_2_alg».proof.Defs
import proofs.«117532_j26560077758945_2_alg».proof.Proof.KernelArray
import proofs.«117532_j26560077758945_2_alg».proof.Proof.KernelHost
import proofs.«117532_j26560077758945_2_alg».proof.Proof.FiniteA
import proofs.«117532_j26560077758945_2_alg».proof.Proof.Gen.Pre_finite_inputs

set_option maxRecDepth 16384

noncomputable section

namespace Cert.KernelIdeal.Result

open Cert.KernelIdeal Cert.KernelIdeal.Gen Cert.KernelIdeal.Array Cert.KernelIdeal.Host Idealize.ShloMosaic Idealize.ShloMosaic.TcCoe
open Idealize.ShloMosaic.Tactic Idealize.ShloMosaic.ValueIdx Idealize.SL.Sem Idealize.ShloMosaic.StableHlo
open Cert.SsmRow Cert.SsmRow.Kernel Cert.SsmRow.Finite

variable (m : (ℓ : Loc nD τ sig) → Buf (Elt Ideal) ℓ) (ρ : Dev nD → PrngReg)

/-- The specification's function of the kernel program's argument arrays on core c. -/
abbrev Gm (c : Dev nD) : S4x4096x2048.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## Row R of the region's array is row (R / 4096, R % 4096) of the specification -/

theorem Garr_eq (c : Dev nD) (hA : ∀ i, ∃ r : ℝ, m ((c : Thread nD τ).loc main_arg2) i = (r : EReal))
    (R : Fin 16384) (j : Fin 2048) :
    Garr m c (ix2 R j) = Gm m c (ix3 (⟨R.val / 4096, by omega⟩ : Fin 4) (⟨R.val % 4096, by omega⟩ : Fin 4096) j) := by
  have hne : ∀ d, aneg (m ((c : Thread nD τ).loc main_arg2)) d ≠ 0 := aneg_ne_zero _ hA
  by_cases h : j.val < 512
  · have hG : Garr m c (ix2 R j) = selV m c R ⟨j.val, h⟩ := by unfold Garr; exact dif_pos h
    rw [hG]
    unfold selV
    simp only [V_v0_apply m c, V_v1_apply m c, V_v2_apply m c, V_v4_apply m c, V_v6_apply m c, V_v8_apply m c,
      V_v9_apply m c, V_v15_apply m c, V_v12_apply m c, V_v14_apply m c, V_v16_apply m c, V_v17_apply m c,
      V_v18_apply m c, V_v19_apply m c]
    refine (kSel_eq _ _ _ _ _ _ _ _ _ _ _ (⟨R.val / 4096, by omega⟩ : Fin 4) (⟨R.val % 4096, by omega⟩ : Fin 4096) _
      (fun _ => rfl) hne ⟨j.val, h⟩).trans ?_
    exact (G_sel _ _ _ _ _ _ _ _ _ _ _ _ _ ⟨j.val, h⟩).symm
  · have hG : Garr m c (ix2 R j) = resV m c R ⟨j.val - 512, by omega⟩ := by unfold Garr; exact dif_neg h
    rw [hG]
    unfold resV
    simp only [V_v0_apply m c, V_v1_apply m c, V_v2_apply m c]
    refine (kRes_eq _ _ _ (⟨R.val / 4096, by omega⟩ : Fin 4) (⟨R.val % 4096, by omega⟩ : Fin 4096) ⟨j.val - 512, by omega⟩).trans ?_
    refine (G_res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (⟨R.val / 4096, by omega⟩ : Fin 4) (⟨R.val % 4096, by omega⟩ : Fin 4096) ⟨j.val - 512, by omega⟩).symm.trans ?_
    exact congrArg (Gm m c) (congrArg (ix3 _ _) (Fin.ext (by show 512 + (j.val - 512) = j.val; omega)))

/-! ## The reshape after the region -/

/-- The reshaped result is the specification's function. -/
theorem result_eq (c : Dev nD) (hA : ∀ i, ∃ r : ℝ, m ((c : Thread nD τ).loc main_arg2) i = (r : EReal)) :
    shapeCast S4x4096x2048 (Garr m c) shapeCasts_S16384x2048_S4x4096x2048 = Gm m c := by
  funext i
  obtain ⟨b, s, j, rfl⟩ : ∃ (b : Fin 4) (s : Fin 4096) (j : Fin 2048), i = ix3 b s j := ⟨i 0, i 1, i 2, eq_ix3 i⟩
  refine (shapeCast_apply (Garr m c) shapeCasts_S16384x2048_S4x4096x2048 (ix3 b s j)
    (ix2 (⟨4096 * b.val + s.val, by omega⟩ : Fin 16384) j) (by
      rw [Shape.rowMajor_val_two, Shape.rowMajor_val_three]
      show (4096 * b.val + s.val) * 2048 + j.val = (b.val * 4096 + s.val) * 2048 + j.val
      omega)).trans ?_
  rw [Garr_eq m c hA]
  refine congrArg (Gm m c) ?_
  funext a
  apply Fin.ext
  match a with
  | ⟨0, _⟩ => show (4096 * b.val + s.val) / 4096 = b.val; omega
  | ⟨1, _⟩ => show (4096 * b.val + s.val) % 4096 = s.val; omega
  | ⟨2, _⟩ => rfl

/-- What @main's result buffer holds after the host operation that follows the region: the reshape of the region's array. -/
theorem tail_eq (c : Dev nD) :
    Pipeline.afterTail₀ cfgs (dats m) 0 (V0 m) [hostOps1] c main_v21
      = shapeCast S4x4096x2048 (Garr m c) shapeCasts_S16384x2048_S4x4096x2048 := by
  unfold Pipeline.afterTail₀
  show StableHlo.after hostOps1 _ (Proc.devRef .tc main_v21) = _
  after_results
  all_goals rw [show Pipeline.withArrays (cfgs 0).spec c (V0 m c) (fun w => (dats m 0 c).arrAt w (cfgs 0).N)
      (Proc.devRef .tc main_v20) = Garr m c from
    (Pipeline.withArrays_arr spec0 launch0.win.arr_inj c _ _ 14).trans (final m c)]
  all_goals rfl

/-! ## The finiteness of A, out of the precondition -/

theorem A_finite [Cert.Pre_finite_inputs.Facts] (hpre : Cert.Pre_KernelIdeal m) (c : Dev nD) :
    ∀ i, ∃ r : ℝ, m ((c : Thread nD τ).loc main_arg2) i = (r : EReal) :=
  A_real _ _ _ _ _ _ _ _ _ _ _ (hpre c)

/-! ## The run -/

/-- Under the precondition every weakly fair execution of the idealized kernel program terminates with its result at
    the specification's function of its arguments, the arguments unchanged. -/
theorem run [Cert.Pre_finite_inputs.Facts] (hpre : Cert.Pre_KernelIdeal m) :
    θ_run defs (onTc (τ := τ) (main (F := Ideal))) ⟨m, fun _ => 0, ρ⟩ fun r => ∀ c : Dev nD,
      r.2.mem ((c.tc : Thread nD τ).loc main_v21) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      (((h c).2 main_v21 (Pipeline.mem_restRefs_of main_v21 (by decide) (by decide))).trans (tail_eq m c)).trans
        (result_eq m c (A_finite m hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.Result

end
-- ==== Proof.RefKept.lean ====
/-
  The reference's operations write only their own result buffers, none of which is an argument of the program: so the
  fold of the 112 operations over any contents leaves each of the eleven argument arrays as it was.
-/
import proofs.«117532_j26560077758945_2_alg».proof.Proof.RefOps
import Idealize.ShloMosaic.Lib.StableHlo.Run

noncomputable section

namespace Cert.ReferenceIdeal.Kept

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 8192 in
set_option maxHeartbeats 4000000 in
/-- No operation writes argument 0. -/
theorem kept_arg0 (V : Valuation τ sig (Elt F)) :
    after ops V (Proc.devRef .tc main_arg0) = V (Proc.devRef .tc main_arg0) := by after_results_simp

set_option maxRecDepth 8192 in
set_option maxHeartbeats 4000000 in
/-- No operation writes argument 1. -/
theorem kept_arg1 (V : Valuation τ sig (Elt F)) :
    after ops V (Proc.devRef .tc main_arg1) = V (Proc.devRef .tc main_arg1) := by after_results_simp

set_option maxRecDepth 8192 in
set_option maxHeartbeats 4000000 in
/-- No operation writes argument 2. -/
theorem kept_arg2 (V : Valuation τ sig (Elt F)) :
    after ops V (Proc.devRef .tc main_arg2) = V (Proc.devRef .tc main_arg2) := by after_results_simp

set_option maxRecDepth 8192 in
set_option maxHeartbeats 4000000 in
/-- No operation writes argument 3. -/
theorem kept_arg3 (V : Valuation τ sig (Elt F)) :
    after ops V (Proc.devRef .tc main_arg3) = V (Proc.devRef .tc main_arg3) := by after_results_simp

set_option maxRecDepth 8192 in
set_option maxHeartbeats 4000000 in
/-- No operation writes argument 4. -/
theorem kept_arg4 (V : Valuation τ sig (Elt F)) :
    after ops V (Proc.devRef .tc main_arg4) = V (Proc.devRef .tc main_arg4) := by after_results_simp

set_option maxRecDepth 8192 in
set_option maxHeartbeats 4000000 in
/-- No operation writes argument 5. -/
theorem kept_arg5 (V : Valuation τ sig (Elt F)) :
    after ops V (Proc.devRef .tc main_arg5) = V (Proc.devRef .tc main_arg5) := by after_results_simp

set_option maxRecDepth 8192 in
set_option maxHeartbeats 4000000 in
/-- No operation writes argument 6. -/
theorem kept_arg6 (V : Valuation τ sig (Elt F)) :
    after ops V (Proc.devRef .tc main_arg6) = V (Proc.devRef .tc main_arg6) := by after_results_simp

set_option maxRecDepth 8192 in
set_option maxHeartbeats 4000000 in
/-- No operation writes argument 7. -/
theorem kept_arg7 (V : Valuation τ sig (Elt F)) :
    after ops V (Proc.devRef .tc main_arg7) = V (Proc.devRef .tc main_arg7) := by after_results_simp

set_option maxRecDepth 8192 in
set_option maxHeartbeats 4000000 in
/-- No operation writes argument 8. -/
theorem kept_arg8 (V : Valuation τ sig (Elt F)) :
    after ops V (Proc.devRef .tc main_arg8) = V (Proc.devRef .tc main_arg8) := by after_results_simp

set_option maxRecDepth 8192 in
set_option maxHeartbeats 4000000 in
/-- No operation writes argument 9. -/
theorem kept_arg9 (V : Valuation τ sig (Elt F)) :
    after ops V (Proc.devRef .tc main_arg9) = V (Proc.devRef .tc main_arg9) := by after_results_simp

set_option maxRecDepth 8192 in
set_option maxHeartbeats 4000000 in
/-- No operation writes argument 10. -/
theorem kept_arg10 (V : Valuation τ sig (Elt F)) :
    after ops V (Proc.devRef .tc main_arg10) = V (Proc.devRef .tc main_arg10) := by after_results_simp

end Cert.ReferenceIdeal.Kept

end
-- ==== Proof.RefResult.lean ====
/-
  The reference's result buffer, read out of the fold of its 112 operations.

  The straight line of operations is cut into 17 consecutive pieces, `ops = c0 ++ (c1 ++ … ++ c16)`.  For each piece
  and for ANY valuation `W` at which every buffer still to be read holds its stage — the value `val_…` of the
  arguments' contents that the staged reading of the reference defines for it, an argument buffer its contents — every
  buffer still to be read after the piece holds its stage again: an operation's own result is its function applied to
  its operands' stages, which is the definition of the result's stage, and any other buffer keeps what it held.  A
  concatenate is a piece of its own: its value lists its two operands as dependent pairs, and the operands' stages are
  put in by rewriting the two hypotheses.  The pieces are then chained through
  `after (l₁ ++ l₂) V = after l₂ (after l₁ V)`, from the launch valuation, where each argument buffer holds its own
  contents, to the last piece, whose one buffer still to be read is the result.
-/
import proofs.«117532_j26560077758945_2_alg».proof.Proof.RefOps
import proofs.«117532_j26560077758945_2_alg».proof.Proof.RefRead
import Idealize.ShloMosaic.Lib.StableHlo.Run

noncomputable section

namespace Cert.ReferenceIdeal.ResultRead

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The fold over two lines run one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 to 7. -/
abbrev c0 : List (HloOp τ sig (Elt F)) :=
  [ unary main_arg0 main_v0 ((extractStridedSlice S4x4096x512 ![0, 0, 0] · slices_S4x4096x2048_S4x4096x512_0_0_0) : (⟨S4x4096x2048, .f32⟩ : BufTy).Contents (Elt F) → (⟨S4x4096x512, .f32⟩ : BufTy).Contents (Elt F)),
    unary main_arg0 main_v1 ((extractStridedSlice S4x4096x1536 ![0, 0, 512] · slices_S4x4096x2048_S4x4096x1536_0_0_512) : (⟨S4x4096x2048, .f32⟩ : BufTy).Contents (Elt F) → (⟨S4x4096x1536, .f32⟩ : BufTy).Contents (Elt F)),
    binary main_arg1 main_arg3 main_v2 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    unary main_v2 main_v3 ((extractStridedSlice S4x4096x512 ![0, 0, 0] · slices_S4x4096x2048_S4x4096x512_0_0_0) : (⟨S4x4096x2048, .f32⟩ : BufTy).Contents (Elt F) → (⟨S4x4096x512, .f32⟩ : BufTy).Contents (Elt F)),
    unary main_v2 main_v4 ((extractStridedSlice S4x4096x1536 ![0, 0, 512] · slices_S4x4096x2048_S4x4096x1536_0_0_512) : (⟨S4x4096x2048, .f32⟩ : BufTy).Contents (Elt F) → (⟨S4x4096x1536, .f32⟩ : BufTy).Contents (Elt F)),
    nullary main_cst (constant S_ .f32 0x00000000#32),
    binary main_v0 main_cst main_v5 ((fun x v => Host.reduceAdd x v reducesTo_S4x4096x512_S4x4096_d2 h_S_) : (⟨S4x4096x512, .f32⟩ : BufTy).Contents (Elt F) → (⟨S_, .f32⟩ : BufTy).Contents (Elt F) → (⟨S4x4096, .f32⟩ : BufTy).Contents (Elt F)),
    unary main_v5 main_v6 (broadcastInDim S4x4096x1 ![0, 1] bcast_S4x4096_S4x4096x1_0_1 : (⟨S4x4096, .f32⟩ : BufTy).Contents (Elt F) → (⟨S4x4096x1, .f32⟩ : BufTy).Contents (Elt F)) ]

theorem chunk0 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10) :
    after c0 W (Proc.devRef .tc main_arg1) = x1
    ∧ after c0 W (Proc.devRef .tc main_arg2) = x2
    ∧ after c0 W (Proc.devRef .tc main_arg4) = x4
    ∧ after c0 W (Proc.devRef .tc main_arg5) = x5
    ∧ after c0 W (Proc.devRef .tc main_arg6) = x6
    ∧ after c0 W (Proc.devRef .tc main_arg7) = x7
    ∧ after c0 W (Proc.devRef .tc main_arg8) = x8
    ∧ after c0 W (Proc.devRef .tc main_arg9) = x9
    ∧ after c0 W (Proc.devRef .tc main_arg10) = x10
    ∧ after c0 W (Proc.devRef .tc main_v0) = (val_main_v0 (F := F) x0)
    ∧ after c0 W (Proc.devRef .tc main_v1) = (val_main_v1 (F := F) x0)
    ∧ after c0 W (Proc.devRef .tc main_v3) = (val_main_v3 (F := F) x1 x3)
    ∧ after c0 W (Proc.devRef .tc main_v4) = (val_main_v4 (F := F) x1 x3)
    ∧ after c0 W (Proc.devRef .tc main_v6) = (val_main_v6 (F := F) x0) := by
  refine ⟨?_, ?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg0, h_main_arg1, h_main_arg2, h_main_arg3, h_main_arg4, h_main_arg5, h_main_arg6, h_main_arg7, h_main_arg8, h_main_arg9, h_main_arg10]; try rfl)

/-- Operations 8 to 15. -/
abbrev c1 : List (HloOp τ sig (Elt F)) :=
  [ nullary main_cst_0 (constant S_ .f32 0x44000000#32),
    unary main_cst_0 main_v7 (broadcastInDim S4x4096x1 ![] bcast_S_S4x4096x1 : (⟨S_, .f32⟩ : BufTy).Contents (Elt F) → (⟨S4x4096x1, .f32⟩ : BufTy).Contents (Elt F)),
    binary main_v6 main_v7 main_v8 (Host.divf : (⟨S4x4096x1, .f32⟩ : BufTy).Contents (Elt F) → (⟨S4x4096x1, .f32⟩ : BufTy).Contents (Elt F) → (⟨S4x4096x1, .f32⟩ : BufTy).Contents (Elt F)),
    unary main_v8 main_v9 (broadcastInDim S4x4096x512 ![0, 1, 2] bcast_S4x4096x1_S4x4096x512_0_1_2 : (⟨S4x4096x1, .f32⟩ : BufTy).Contents (Elt F) → (⟨S4x4096x512, .f32⟩ : BufTy).Contents (Elt F)),
    binary main_v0 main_v9 main_v10 (subf : (⟨S4x4096x512, .f32⟩ : BufTy).Contents (Elt F) → (⟨S4x4096x512, .f32⟩ : BufTy).Contents (Elt F) → (⟨S4x4096x512, .f32⟩ : BufTy).Contents (Elt F)),
    binary main_v10 main_v10 main_v11 (mulf : (⟨S4x4096x512, .f32⟩ : BufTy).Contents (Elt F) → (⟨S4x4096x512, .f32⟩ : BufTy).Contents (Elt F) → (⟨S4x4096x512, .f32⟩ : BufTy).Contents (Elt F)),
    nullary main_cst_1 (constant S_ .f32 0x00000000#32),
    binary main_v11 main_cst_1 main_v12 ((fun x v => Host.reduceAdd x v reducesTo_S4x4096x512_S4x4096_d2 h_S_) : (⟨S4x4096x512, .f32⟩ : BufTy).Contents (Elt F) → (⟨S_, .f32⟩ : BufTy).Contents (Elt F) → (⟨S4x4096, .f32⟩ : BufTy).Contents (Elt F)) ]

theorem chunk1 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v6 : W (Proc.devRef .tc main_v6) = (val_main_v6 (F := F) x0)) :
    after c1 W (Proc.devRef .tc main_arg1) = x1
    ∧ after c1 W (Proc.devRef .tc main_arg2) = x2
    ∧ after c1 W (Proc.devRef .tc main_arg4) = x4
    ∧ after c1 W (Proc.devRef .tc main_arg5) = x5
    ∧ after c1 W (Proc.devRef .tc main_arg6) = x6
    ∧ after c1 W (Proc.devRef .tc main_arg7) = x7
    ∧ after c1 W (Proc.devRef .tc main_arg8) = x8
    ∧ after c1 W (Proc.devRef .tc main_arg9) = x9
    ∧ after c1 W (Proc.devRef .tc main_arg10) = x10
    ∧ after c1 W (Proc.devRef .tc main_v0) = (val_main_v0 (F := F) x0)
    ∧ after c1 W (Proc.devRef .tc main_v1) = (val_main_v1 (F := F) x0)
    ∧ after c1 W (Proc.devRef .tc main_v3) = (val_main_v3 (F := F) x1 x3)
    ∧ after c1 W (Proc.devRef .tc main_v4) = (val_main_v4 (F := F) x1 x3)
    ∧ after c1 W (Proc.devRef .tc main_v8) = (val_main_v8 (F := F) x0)
    ∧ after c1 W (Proc.devRef .tc main_v12) = (val_main_v12 (F := F) x0) := by
  refine ⟨?_, ?_, ?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg7, h_main_arg8, h_main_arg9, h_main_arg10, h_main_v0, h_main_v1, h_main_v3, h_main_v4, h_main_v6]; try rfl)

/-- Operations 16 to 23. -/
abbrev c2 : List (HloOp τ sig (Elt F)) :=
  [ unary main_v12 main_v13 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_2 (constant S_ .f32 0x44000000#32),
    unary main_cst_2 main_v14 (broadcastInDim S4x4096x1 ![] bcast_S_S4x4096x1 : (⟨S_, .f32⟩ : BufTy).Contents (Elt F) → (⟨S4x4096x1, .f32⟩ : BufTy).Contents (Elt F)),
    binary main_v13 main_v14 main_v15 (Host.divf : (⟨S4x4096x1, .f32⟩ : BufTy).Contents (Elt F) → (⟨S4x4096x1, .f32⟩ : BufTy).Contents (Elt F) → (⟨S4x4096x1, .f32⟩ : BufTy).Contents (Elt F)),
    unary main_v8 main_v16 (broadcastInDim S4x4096x512 ![0, 1, 2] bcast_S4x4096x1_S4x4096x512_0_1_2 : (⟨S4x4096x1, .f32⟩ : BufTy).Contents (Elt F) → (⟨S4x4096x512, .f32⟩ : BufTy).Contents (Elt F)),
    binary main_v0 main_v16 main_v17 (subf : (⟨S4x4096x512, .f32⟩ : BufTy).Contents (Elt F) → (⟨S4x4096x512, .f32⟩ : BufTy).Contents (Elt F) → (⟨S4x4096x512, .f32⟩ : BufTy).Contents (Elt F)),
    nullary main_cst_3 (constant S_ .f32 0x3727C5AC#32),
    unary main_cst_3 main_v18 (broadcastInDim S4x4096x1 ![] bcast_S_S4x4096x1 : (⟨S_, .f32⟩ : BufTy).Contents (Elt F) → (⟨S4x4096x1, .f32⟩ : BufTy).Contents (Elt F)) ]

theorem chunk2 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v8 : W (Proc.devRef .tc main_v8) = (val_main_v8 (F := F) x0))
    (h_main_v12 : W (Proc.devRef .tc main_v12) = (val_main_v12 (F := F) x0)) :
    after c2 W (Proc.devRef .tc main_arg1) = x1
    ∧ after c2 W (Proc.devRef .tc main_arg2) = x2
    ∧ after c2 W (Proc.devRef .tc main_arg4) = x4
    ∧ after c2 W (Proc.devRef .tc main_arg5) = x5
    ∧ after c2 W (Proc.devRef .tc main_arg6) = x6
    ∧ after c2 W (Proc.devRef .tc main_arg7) = x7
    ∧ after c2 W (Proc.devRef .tc main_arg8) = x8
    ∧ after c2 W (Proc.devRef .tc main_arg9) = x9
    ∧ after c2 W (Proc.devRef .tc main_arg10) = x10
    ∧ after c2 W (Proc.devRef .tc main_v0) = (val_main_v0 (F := F) x0)
    ∧ after c2 W (Proc.devRef .tc main_v1) = (val_main_v1 (F := F) x0)
    ∧ after c2 W (Proc.devRef .tc main_v3) = (val_main_v3 (F := F) x1 x3)
    ∧ after c2 W (Proc.devRef .tc main_v4) = (val_main_v4 (F := F) x1 x3)
    ∧ after c2 W (Proc.devRef .tc main_v15) = (val_main_v15 (F := F) x0)
    ∧ after c2 W (Proc.devRef .tc main_v17) = (val_main_v17 (F := F) x0)
    ∧ after c2 W (Proc.devRef .tc main_v18) = (val_main_v18 (F := F)) := by
  refine ⟨?_, ?_, ?_, ?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg7, h_main_arg8, h_main_arg9, h_main_arg10, h_main_v0, h_main_v1, h_main_v3, h_main_v4, h_main_v8, h_main_v12]; try rfl)

/-- Operations 24 to 31. -/
abbrev c3 : List (HloOp τ sig (Elt F)) :=
  [ binary main_v15 main_v18 main_v19 (addf : (⟨S4x4096x1, .f32⟩ : BufTy).Contents (Elt F) → (⟨S4x4096x1, .f32⟩ : BufTy).Contents (Elt F) → (⟨S4x4096x1, .f32⟩ : BufTy).Contents (Elt F)),
    unary main_v19 main_v20 (Host.rsqrt : (⟨S4x4096x1, .f32⟩ : BufTy).Contents (Elt F) → (⟨S4x4096x1, .f32⟩ : BufTy).Contents (Elt F)),
    unary main_v20 main_v21 (broadcastInDim S4x4096x512 ![0, 1, 2] bcast_S4x4096x1_S4x4096x512_0_1_2 : (⟨S4x4096x1, .f32⟩ : BufTy).Contents (Elt F) → (⟨S4x4096x512, .f32⟩ : BufTy).Contents (Elt F)),
    binary main_v17 main_v21 main_v22 (mulf : (⟨S4x4096x512, .f32⟩ : BufTy).Contents (Elt F) → (⟨S4x4096x512, .f32⟩ : BufTy).Contents (Elt F) → (⟨S4x4096x512, .f32⟩ : BufTy).Contents (Elt F)),
    unary main_arg7 main_v23 (broadcastInDim S1x1x512 ![2] bcast_S512_S1x1x512_2 : (⟨S512, .f32⟩ : BufTy).Contents (Elt F) → (⟨S1x1x512, .f32⟩ : BufTy).Contents (Elt F)),
    unary main_v23 main_v24 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v22 main_v24 main_v25 (mulf : (⟨S4x4096x512, .f32⟩ : BufTy).Contents (Elt F) → (⟨S4x4096x512, .f32⟩ : BufTy).Contents (Elt F) → (⟨S4x4096x512, .f32⟩ : BufTy).Contents (Elt F)),
    unary main_arg8 main_v26 (broadcastInDim S1x1x512 ![2] bcast_S512_S1x1x512_2 : (⟨S512, .f32⟩ : BufTy).Contents (Elt F) → (⟨S1x1x512, .f32⟩ : BufTy).Contents (Elt F)) ]

theorem chunk3 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v15 : W (Proc.devRef .tc main_v15) = (val_main_v15 (F := F) x0))
    (h_main_v17 : W (Proc.devRef .tc main_v17) = (val_main_v17 (F := F) x0))
    (h_main_v18 : W (Proc.devRef .tc main_v18) = (val_main_v18 (F := F))) :
    after c3 W (Proc.devRef .tc main_arg1) = x1
    ∧ after c3 W (Proc.devRef .tc main_arg2) = x2
    ∧ after c3 W (Proc.devRef .tc main_arg4) = x4
    ∧ after c3 W (Proc.devRef .tc main_arg5) = x5
    ∧ after c3 W (Proc.devRef .tc main_arg6) = x6
    ∧ after c3 W (Proc.devRef .tc main_arg9) = x9
    ∧ after c3 W (Proc.devRef .tc main_arg10) = x10
    ∧ after c3 W (Proc.devRef .tc main_v0) = (val_main_v0 (F := F) x0)
    ∧ after c3 W (Proc.devRef .tc main_v1) = (val_main_v1 (F := F) x0)
    ∧ after c3 W (Proc.devRef .tc main_v3) = (val_main_v3 (F := F) x1 x3)
    ∧ after c3 W (Proc.devRef .tc main_v4) = (val_main_v4 (F := F) x1 x3)
    ∧ after c3 W (Proc.devRef .tc main_v25) = (val_main_v25 (F := F) x0 x7)
    ∧ after c3 W (Proc.devRef .tc main_v26) = (val_main_v26 (F := F) x8) := by
  refine ⟨?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg7, h_main_arg8, h_main_arg9, h_main_arg10, h_main_v0, h_main_v1, h_main_v3, h_main_v4, h_main_v15, h_main_v17, h_main_v18]; try rfl)

/-- Operations 32 to 39. -/
abbrev c4 : List (HloOp τ sig (Elt F)) :=
  [ unary main_v26 main_v27 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v25 main_v27 main_v28 (addf : (⟨S4x4096x512, .f32⟩ : BufTy).Contents (Elt F) → (⟨S4x4096x512, .f32⟩ : BufTy).Contents (Elt F) → (⟨S4x4096x512, .f32⟩ : BufTy).Contents (Elt F)),
    nullary main_cst_4 (constant S_ .f32 0x00000000#32),
    binary main_v1 main_cst_4 main_v29 ((fun x v => Host.reduceAdd x v reducesTo_S4x4096x1536_S4x4096_d2 h_S_) : (⟨S4x4096x1536, .f32⟩ : BufTy).Contents (Elt F) → (⟨S_, .f32⟩ : BufTy).Contents (Elt F) → (⟨S4x4096, .f32⟩ : BufTy).Contents (Elt F)),
    unary main_v29 main_v30 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_5 (constant S_ .f32 0x44C00000#32),
    unary main_cst_5 main_v31 (broadcastInDim S4x4096x1 ![] bcast_S_S4x4096x1 : (⟨S_, .f32⟩ : BufTy).Contents (Elt F) → (⟨S4x4096x1, .f32⟩ : BufTy).Contents (Elt F)),
    binary main_v30 main_v31 main_v32 (Host.divf : (⟨S4x4096x1, .f32⟩ : BufTy).Contents (Elt F) → (⟨S4x4096x1, .f32⟩ : BufTy).Contents (Elt F) → (⟨S4x4096x1, .f32⟩ : BufTy).Contents (Elt F)) ]

theorem chunk4 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v25 : W (Proc.devRef .tc main_v25) = (val_main_v25 (F := F) x0 x7))
    (h_main_v26 : W (Proc.devRef .tc main_v26) = (val_main_v26 (F := F) x8)) :
    after c4 W (Proc.devRef .tc main_arg1) = x1
    ∧ after c4 W (Proc.devRef .tc main_arg2) = x2
    ∧ after c4 W (Proc.devRef .tc main_arg4) = x4
    ∧ after c4 W (Proc.devRef .tc main_arg5) = x5
    ∧ after c4 W (Proc.devRef .tc main_arg6) = x6
    ∧ after c4 W (Proc.devRef .tc main_arg9) = x9
    ∧ after c4 W (Proc.devRef .tc main_arg10) = x10
    ∧ after c4 W (Proc.devRef .tc main_v0) = (val_main_v0 (F := F) x0)
    ∧ after c4 W (Proc.devRef .tc main_v1) = (val_main_v1 (F := F) x0)
    ∧ after c4 W (Proc.devRef .tc main_v3) = (val_main_v3 (F := F) x1 x3)
    ∧ after c4 W (Proc.devRef .tc main_v4) = (val_main_v4 (F := F) x1 x3)
    ∧ after c4 W (Proc.devRef .tc main_v28) = (val_main_v28 (F := F) x0 x7 x8)
    ∧ after c4 W (Proc.devRef .tc main_v32) = (val_main_v32 (F := F) x0) := by
  refine ⟨?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg9, h_main_arg10, h_main_v0, h_main_v1, h_main_v3, h_main_v4, h_main_v25, h_main_v26]; try rfl)

/-- Operations 40 to 47. -/
abbrev c5 : List (HloOp τ sig (Elt F)) :=
  [ unary main_v32 main_v33 (broadcastInDim S4x4096x1536 ![0, 1, 2] bcast_S4x4096x1_S4x4096x1536_0_1_2 : (⟨S4x4096x1, .f32⟩ : BufTy).Contents (Elt F) → (⟨S4x4096x1536, .f32⟩ : BufTy).Contents (Elt F)),
    binary main_v1 main_v33 main_v34 (subf : (⟨S4x4096x1536, .f32⟩ : BufTy).Contents (Elt F) → (⟨S4x4096x1536, .f32⟩ : BufTy).Contents (Elt F) → (⟨S4x4096x1536, .f32⟩ : BufTy).Contents (Elt F)),
    binary main_v34 main_v34 main_v35 (mulf : (⟨S4x4096x1536, .f32⟩ : BufTy).Contents (Elt F) → (⟨S4x4096x1536, .f32⟩ : BufTy).Contents (Elt F) → (⟨S4x4096x1536, .f32⟩ : BufTy).Contents (Elt F)),
    nullary main_cst_6 (constant S_ .f32 0x00000000#32),
    binary main_v35 main_cst_6 main_v36 ((fun x v => Host.reduceAdd x v reducesTo_S4x4096x1536_S4x4096_d2 h_S_) : (⟨S4x4096x1536, .f32⟩ : BufTy).Contents (Elt F) → (⟨S_, .f32⟩ : BufTy).Contents (Elt F) → (⟨S4x4096, .f32⟩ : BufTy).Contents (Elt F)),
    unary main_v36 main_v37 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_7 (constant S_ .f32 0x44C00000#32),
    unary main_cst_7 main_v38 (broadcastInDim S4x4096x1 ![] bcast_S_S4x4096x1 : (⟨S_, .f32⟩ : BufTy).Contents (Elt F) → (⟨S4x4096x1, .f32⟩ : BufTy).Contents (Elt F)) ]

theorem chunk5 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v28 : W (Proc.devRef .tc main_v28) = (val_main_v28 (F := F) x0 x7 x8))
    (h_main_v32 : W (Proc.devRef .tc main_v32) = (val_main_v32 (F := F) x0)) :
    after c5 W (Proc.devRef .tc main_arg1) = x1
    ∧ after c5 W (Proc.devRef .tc main_arg2) = x2
    ∧ after c5 W (Proc.devRef .tc main_arg4) = x4
    ∧ after c5 W (Proc.devRef .tc main_arg5) = x5
    ∧ after c5 W (Proc.devRef .tc main_arg6) = x6
    ∧ after c5 W (Proc.devRef .tc main_arg9) = x9
    ∧ after c5 W (Proc.devRef .tc main_arg10) = x10
    ∧ after c5 W (Proc.devRef .tc main_v0) = (val_main_v0 (F := F) x0)
    ∧ after c5 W (Proc.devRef .tc main_v1) = (val_main_v1 (F := F) x0)
    ∧ after c5 W (Proc.devRef .tc main_v3) = (val_main_v3 (F := F) x1 x3)
    ∧ after c5 W (Proc.devRef .tc main_v4) = (val_main_v4 (F := F) x1 x3)
    ∧ after c5 W (Proc.devRef .tc main_v28) = (val_main_v28 (F := F) x0 x7 x8)
    ∧ after c5 W (Proc.devRef .tc main_v32) = (val_main_v32 (F := F) x0)
    ∧ after c5 W (Proc.devRef .tc main_v37) = (val_main_v37 (F := F) x0)
    ∧ after c5 W (Proc.devRef .tc main_v38) = (val_main_v38 (F := F)) := by
  refine ⟨?_, ?_, ?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg9, h_main_arg10, h_main_v0, h_main_v1, h_main_v3, h_main_v4, h_main_v28, h_main_v32]; try rfl)

/-- Operations 48 to 55. -/
abbrev c6 : List (HloOp τ sig (Elt F)) :=
  [ binary main_v37 main_v38 main_v39 (Host.divf : (⟨S4x4096x1, .f32⟩ : BufTy).Contents (Elt F) → (⟨S4x4096x1, .f32⟩ : BufTy).Contents (Elt F) → (⟨S4x4096x1, .f32⟩ : BufTy).Contents (Elt F)),
    unary main_v32 main_v40 (broadcastInDim S4x4096x1536 ![0, 1, 2] bcast_S4x4096x1_S4x4096x1536_0_1_2 : (⟨S4x4096x1, .f32⟩ : BufTy).Contents (Elt F) → (⟨S4x4096x1536, .f32⟩ : BufTy).Contents (Elt F)),
    binary main_v1 main_v40 main_v41 (subf : (⟨S4x4096x1536, .f32⟩ : BufTy).Contents (Elt F) → (⟨S4x4096x1536, .f32⟩ : BufTy).Contents (Elt F) → (⟨S4x4096x1536, .f32⟩ : BufTy).Contents (Elt F)),
    nullary main_cst_8 (constant S_ .f32 0x3727C5AC#32),
    unary main_cst_8 main_v42 (broadcastInDim S4x4096x1 ![] bcast_S_S4x4096x1 : (⟨S_, .f32⟩ : BufTy).Contents (Elt F) → (⟨S4x4096x1, .f32⟩ : BufTy).Contents (Elt F)),
    binary main_v39 main_v42 main_v43 (addf : (⟨S4x4096x1, .f32⟩ : BufTy).Contents (Elt F) → (⟨S4x4096x1, .f32⟩ : BufTy).Contents (Elt F) → (⟨S4x4096x1, .f32⟩ : BufTy).Contents (Elt F)),
    unary main_v43 main_v44 (Host.rsqrt : (⟨S4x4096x1, .f32⟩ : BufTy).Contents (Elt F) → (⟨S4x4096x1, .f32⟩ : BufTy).Contents (Elt F)),
    unary main_v44 main_v45 (broadcastInDim S4x4096x1536 ![0, 1, 2] bcast_S4x4096x1_S4x4096x1536_0_1_2 : (⟨S4x4096x1, .f32⟩ : BufTy).Contents (Elt F) → (⟨S4x4096x1536, .f32⟩ : BufTy).Contents (Elt F)) ]

theorem chunk6 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v28 : W (Proc.devRef .tc main_v28) = (val_main_v28 (F := F) x0 x7 x8))
    (h_main_v32 : W (Proc.devRef .tc main_v32) = (val_main_v32 (F := F) x0))
    (h_main_v37 : W (Proc.devRef .tc main_v37) = (val_main_v37 (F := F) x0))
    (h_main_v38 : W (Proc.devRef .tc main_v38) = (val_main_v38 (F := F))) :
    after c6 W (Proc.devRef .tc main_arg1) = x1
    ∧ after c6 W (Proc.devRef .tc main_arg2) = x2
    ∧ after c6 W (Proc.devRef .tc main_arg4) = x4
    ∧ after c6 W (Proc.devRef .tc main_arg5) = x5
    ∧ after c6 W (Proc.devRef .tc main_arg6) = x6
    ∧ after c6 W (Proc.devRef .tc main_arg9) = x9
    ∧ after c6 W (Proc.devRef .tc main_arg10) = x10
    ∧ after c6 W (Proc.devRef .tc main_v0) = (val_main_v0 (F := F) x0)
    ∧ after c6 W (Proc.devRef .tc main_v1) = (val_main_v1 (F := F) x0)
    ∧ after c6 W (Proc.devRef .tc main_v3) = (val_main_v3 (F := F) x1 x3)
    ∧ after c6 W (Proc.devRef .tc main_v4) = (val_main_v4 (F := F) x1 x3)
    ∧ after c6 W (Proc.devRef .tc main_v28) = (val_main_v28 (F := F) x0 x7 x8)
    ∧ after c6 W (Proc.devRef .tc main_v41) = (val_main_v41 (F := F) x0)
    ∧ after c6 W (Proc.devRef .tc main_v45) = (val_main_v45 (F := F) x0) := by
  refine ⟨?_, ?_, ?_, ?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg9, h_main_arg10, h_main_v0, h_main_v1, h_main_v3, h_main_v4, h_main_v28, h_main_v32, h_main_v37, h_main_v38]; try rfl)

/-- Operations 56 to 62. -/
abbrev c7 : List (HloOp τ sig (Elt F)) :=
  [ binary main_v41 main_v45 main_v46 (mulf : (⟨S4x4096x1536, .f32⟩ : BufTy).Contents (Elt F) → (⟨S4x4096x1536, .f32⟩ : BufTy).Contents (Elt F) → (⟨S4x4096x1536, .f32⟩ : BufTy).Contents (Elt F)),
    unary main_arg9 main_v47 (broadcastInDim S1x1x1536 ![2] bcast_S1536_S1x1x1536_2 : (⟨S1536, .f32⟩ : BufTy).Contents (Elt F) → (⟨S1x1x1536, .f32⟩ : BufTy).Contents (Elt F)),
    unary main_v47 main_v48 (broadcastInDim S4x4096x1536 ![0, 1, 2] bcast_S1x1x1536_S4x4096x1536_0_1_2 : (⟨S1x1x1536, .f32⟩ : BufTy).Contents (Elt F) → (⟨S4x4096x1536, .f32⟩ : BufTy).Contents (Elt F)),
    binary main_v46 main_v48 main_v49 (mulf : (⟨S4x4096x1536, .f32⟩ : BufTy).Contents (Elt F) → (⟨S4x4096x1536, .f32⟩ : BufTy).Contents (Elt F) → (⟨S4x4096x1536, .f32⟩ : BufTy).Contents (Elt F)),
    unary main_arg10 main_v50 (broadcastInDim S1x1x1536 ![2] bcast_S1536_S1x1x1536_2 : (⟨S1536, .f32⟩ : BufTy).Contents (Elt F) → (⟨S1x1x1536, .f32⟩ : BufTy).Contents (Elt F)),
    unary main_v50 main_v51 (broadcastInDim S4x4096x1536 ![0, 1, 2] bcast_S1x1x1536_S4x4096x1536_0_1_2 : (⟨S1x1x1536, .f32⟩ : BufTy).Contents (Elt F) → (⟨S4x4096x1536, .f32⟩ : BufTy).Contents (Elt F)),
    binary main_v49 main_v51 main_v52 (addf : (⟨S4x4096x1536, .f32⟩ : BufTy).Contents (Elt F) → (⟨S4x4096x1536, .f32⟩ : BufTy).Contents (Elt F) → (⟨S4x4096x1536, .f32⟩ : BufTy).Contents (Elt F)) ]

theorem chunk7 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_arg9 : W (Proc.devRef .tc main_arg9) = x9)
    (h_main_arg10 : W (Proc.devRef .tc main_arg10) = x10)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v28 : W (Proc.devRef .tc main_v28) = (val_main_v28 (F := F) x0 x7 x8))
    (h_main_v41 : W (Proc.devRef .tc main_v41) = (val_main_v41 (F := F) x0))
    (h_main_v45 : W (Proc.devRef .tc main_v45) = (val_main_v45 (F := F) x0)) :
    after c7 W (Proc.devRef .tc main_arg1) = x1
    ∧ after c7 W (Proc.devRef .tc main_arg2) = x2
    ∧ after c7 W (Proc.devRef .tc main_arg4) = x4
    ∧ after c7 W (Proc.devRef .tc main_arg5) = x5
    ∧ after c7 W (Proc.devRef .tc main_arg6) = x6
    ∧ after c7 W (Proc.devRef .tc main_v0) = (val_main_v0 (F := F) x0)
    ∧ after c7 W (Proc.devRef .tc main_v1) = (val_main_v1 (F := F) x0)
    ∧ after c7 W (Proc.devRef .tc main_v3) = (val_main_v3 (F := F) x1 x3)
    ∧ after c7 W (Proc.devRef .tc main_v4) = (val_main_v4 (F := F) x1 x3)
    ∧ after c7 W (Proc.devRef .tc main_v28) = (val_main_v28 (F := F) x0 x7 x8)
    ∧ after c7 W (Proc.devRef .tc main_v52) = (val_main_v52 (F := F) x0 x9 x10) := by
  refine ⟨?_, ?_, ?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_arg9, h_main_arg10, h_main_v0, h_main_v1, h_main_v3, h_main_v4, h_main_v28, h_main_v41, h_main_v45]; try rfl)

/-- Operations 63 to 63. -/
abbrev c8 : List (HloOp τ sig (Elt F)) :=
  [ binary main_v28 main_v52 main_v53 ((fun a b => concatenate S4x4096x2048 2 [⟨S4x4096x512, a⟩, ⟨S4x4096x1536, b⟩] concatenates_S4x4096x512_S4x4096x1536_S4x4096x2048_d2) : (⟨S4x4096x512, .f32⟩ : BufTy).Contents (Elt F) → (⟨S4x4096x1536, .f32⟩ : BufTy).Contents (Elt F) → (⟨S4x4096x2048, .f32⟩ : BufTy).Contents (Elt F)) ]

theorem chunk8 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v28 : W (Proc.devRef .tc main_v28) = (val_main_v28 (F := F) x0 x7 x8))
    (h_main_v52 : W (Proc.devRef .tc main_v52) = (val_main_v52 (F := F) x0 x9 x10)) :
    after c8 W (Proc.devRef .tc main_arg1) = x1
    ∧ after c8 W (Proc.devRef .tc main_arg2) = x2
    ∧ after c8 W (Proc.devRef .tc main_arg4) = x4
    ∧ after c8 W (Proc.devRef .tc main_arg5) = x5
    ∧ after c8 W (Proc.devRef .tc main_arg6) = x6
    ∧ after c8 W (Proc.devRef .tc main_v0) = (val_main_v0 (F := F) x0)
    ∧ after c8 W (Proc.devRef .tc main_v1) = (val_main_v1 (F := F) x0)
    ∧ after c8 W (Proc.devRef .tc main_v3) = (val_main_v3 (F := F) x1 x3)
    ∧ after c8 W (Proc.devRef .tc main_v4) = (val_main_v4 (F := F) x1 x3)
    ∧ after c8 W (Proc.devRef .tc main_v53) = (val_main_v53 (F := F) x0 x7 x8 x9 x10) := by
  refine ⟨?_, ?_, ?_, ?_, ?_, ?_, ?_, ?_, ?_, ?_⟩
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v28, h_main_v52]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']; rw [h_main_v28, h_main_v52]; rfl

/-- Operations 64 to 64. -/
abbrev c9 : List (HloOp τ sig (Elt F)) :=
  [ binary main_v53 main_arg1 main_v54 ((fun a b => concatenate S4x4096x4096 2 [⟨S4x4096x2048, a⟩, ⟨S4x4096x2048, b⟩] concatenates_S4x4096x2048_S4x4096x2048_S4x4096x4096_d2) : (⟨S4x4096x2048, .f32⟩ : BufTy).Contents (Elt F) → (⟨S4x4096x2048, .f32⟩ : BufTy).Contents (Elt F) → (⟨S4x4096x4096, .f32⟩ : BufTy).Contents (Elt F)) ]

theorem chunk9 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg1 : W (Proc.devRef .tc main_arg1) = x1)
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v53 : W (Proc.devRef .tc main_v53) = (val_main_v53 (F := F) x0 x7 x8 x9 x10)) :
    after c9 W (Proc.devRef .tc main_arg2) = x2
    ∧ after c9 W (Proc.devRef .tc main_arg4) = x4
    ∧ after c9 W (Proc.devRef .tc main_arg5) = x5
    ∧ after c9 W (Proc.devRef .tc main_arg6) = x6
    ∧ after c9 W (Proc.devRef .tc main_v0) = (val_main_v0 (F := F) x0)
    ∧ after c9 W (Proc.devRef .tc main_v1) = (val_main_v1 (F := F) x0)
    ∧ after c9 W (Proc.devRef .tc main_v3) = (val_main_v3 (F := F) x1 x3)
    ∧ after c9 W (Proc.devRef .tc main_v4) = (val_main_v4 (F := F) x1 x3)
    ∧ after c9 W (Proc.devRef .tc main_v54) = (val_main_v54 (F := F) x0 x1 x7 x8 x9 x10) := by
  refine ⟨?_, ?_, ?_, ?_, ?_, ?_, ?_, ?_, ?_⟩
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg1, h_main_arg2, h_main_arg4, h_main_arg5, h_main_arg6, h_main_v0, h_main_v1, h_main_v3, h_main_v4, h_main_v53]; try rfl
  · simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']; rw [h_main_v53, h_main_arg1]; rfl

/-- Operations 65 to 72. -/
abbrev c10 : List (HloOp τ sig (Elt F)) :=
  [ binary main_v54 main_arg4 main_v55 ((fun l r => Host.dotGeneral dot_S4x4096x4096_S64x4096_S4x4096x64_2_1_01_0_n_n none l r) : (⟨S4x4096x4096, .f32⟩ : BufTy).Contents (Elt F) → (⟨S64x4096, .f32⟩ : BufTy).Contents (Elt F) → (⟨S4x4096x64, .f32⟩ : BufTy).Contents (Elt F)),
    binary main_v55 main_arg5 main_v56 ((fun l r => Host.dotGeneral dot_S4x4096x64_S512x64_S4x4096x512_2_1_01_0_n_n none l r) : (⟨S4x4096x64, .f32⟩ : BufTy).Contents (Elt F) → (⟨S512x64, .f32⟩ : BufTy).Contents (Elt F) → (⟨S4x4096x512, .f32⟩ : BufTy).Contents (Elt F)),
    unary main_arg6 main_v57 (broadcastInDim S1x1x512 ![2] bcast_S512_S1x1x512_2 : (⟨S512, .f32⟩ : BufTy).Contents (Elt F) → (⟨S1x1x512, .f32⟩ : BufTy).Contents (Elt F)),
    unary main_v57 main_v58 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v56 main_v58 main_v59 (addf : (⟨S4x4096x512, .f32⟩ : BufTy).Contents (Elt F) → (⟨S4x4096x512, .f32⟩ : BufTy).Contents (Elt F) → (⟨S4x4096x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x4096x512, .f32⟩) main_call0_v0) (broadcastInDim S4x4096x512 ![] bcast_S_S4x4096x512),
    TRef.binary (TRef.of (T := ⟨S4x4096x512, .f32⟩) main_v59) (TRef.of (T := ⟨S4x4096x512, .f32⟩) main_call0_v0) (TRef.of (T := ⟨S4x4096x512, .f32⟩) main_call0_v1) maximumf ]

theorem chunk10 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg2 : W (Proc.devRef .tc main_arg2) = x2)
    (h_main_arg4 : W (Proc.devRef .tc main_arg4) = x4)
    (h_main_arg5 : W (Proc.devRef .tc main_arg5) = x5)
    (h_main_arg6 : W (Proc.devRef .tc main_arg6) = x6)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v54 : W (Proc.devRef .tc main_v54) = (val_main_v54 (F := F) x0 x1 x7 x8 x9 x10)) :
    after c10 W (Proc.devRef .tc main_arg2) = x2
    ∧ after c10 W (Proc.devRef .tc main_v0) = (val_main_v0 (F := F) x0)
    ∧ after c10 W (Proc.devRef .tc main_v1) = (val_main_v1 (F := F) x0)
    ∧ after c10 W (Proc.devRef .tc main_v3) = (val_main_v3 (F := F) x1 x3)
    ∧ after c10 W (Proc.devRef .tc main_v4) = (val_main_v4 (F := F) x1 x3)
    ∧ after c10 W (Proc.devRef .tc main_v59) = (val_main_v59 (F := F) x0 x1 x4 x5 x6 x7 x8 x9 x10)
    ∧ after c10 W (Proc.devRef .tc main_call0_cst) = (val_main_call0_cst (F := F))
    ∧ after c10 W (Proc.devRef .tc main_call0_v1) = (val_main_call0_v1 (F := F) x0 x1 x4 x5 x6 x7 x8 x9 x10) := by
  refine ⟨?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg2, h_main_arg4, h_main_arg5, h_main_arg6, h_main_v0, h_main_v1, h_main_v3, h_main_v4, h_main_v54]; try rfl)

/-- Operations 73 to 80. -/
abbrev c11 : List (HloOp τ sig (Elt F)) :=
  [ TRef.unary (TRef.of (T := ⟨S_, .f32⟩) main_call0_cst) (TRef.of (T := ⟨S4x4096x512, .f32⟩) main_call0_v2) (broadcastInDim S4x4096x512 ![] bcast_S_S4x4096x512),
    TRef.binary (TRef.of (T := ⟨S4x4096x512, .f32⟩) main_v59) (TRef.of (T := ⟨S4x4096x512, .f32⟩) main_call0_v2) (TRef.of (T := ⟨S4x4096x512, .f32⟩) main_call0_v3) subf,
    TRef.binary (TRef.of (T := ⟨S4x4096x512, .f32⟩) main_call0_v3) (TRef.of (T := ⟨S4x4096x512, .f32⟩) main_call0_v3) (TRef.of (T := ⟨S4x4096x512, .i1⟩) main_call0_v4) (cmpf .une),
    TRef.unary (TRef.of (T := ⟨S_, .f32⟩) main_call0_cst) (TRef.of (T := ⟨S4x4096x512, .f32⟩) main_call0_v5) (broadcastInDim S4x4096x512 ![] bcast_S_S4x4096x512),
    TRef.binary (TRef.of (T := ⟨S4x4096x512, .f32⟩) main_v59) (TRef.of (T := ⟨S4x4096x512, .f32⟩) main_call0_v5) (TRef.of (T := ⟨S4x4096x512, .f32⟩) main_call0_v6) addf,
    TRef.unary (TRef.of (T := ⟨S4x4096x512, .f32⟩) main_call0_v3) (TRef.of (T := ⟨S4x4096x512, .f32⟩) main_call0_v7) Host.absf,
    TRef.unary (TRef.of (T := ⟨S4x4096x512, .f32⟩) main_call0_v7) (TRef.of (T := ⟨S4x4096x512, .f32⟩) main_call0_v8) Host.negf,
    TRef.unary (TRef.of (T := ⟨S4x4096x512, .f32⟩) main_call0_v8) (TRef.of (T := ⟨S4x4096x512, .f32⟩) main_call0_v9) Host.exp ]

theorem chunk11 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg2 : W (Proc.devRef .tc main_arg2) = x2)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v59 : W (Proc.devRef .tc main_v59) = (val_main_v59 (F := F) x0 x1 x4 x5 x6 x7 x8 x9 x10))
    (h_main_call0_cst : W (Proc.devRef .tc main_call0_cst) = (val_main_call0_cst (F := F)))
    (h_main_call0_v1 : W (Proc.devRef .tc main_call0_v1) = (val_main_call0_v1 (F := F) x0 x1 x4 x5 x6 x7 x8 x9 x10)) :
    after c11 W (Proc.devRef .tc main_arg2) = x2
    ∧ after c11 W (Proc.devRef .tc main_v0) = (val_main_v0 (F := F) x0)
    ∧ after c11 W (Proc.devRef .tc main_v1) = (val_main_v1 (F := F) x0)
    ∧ after c11 W (Proc.devRef .tc main_v3) = (val_main_v3 (F := F) x1 x3)
    ∧ after c11 W (Proc.devRef .tc main_v4) = (val_main_v4 (F := F) x1 x3)
    ∧ after c11 W (Proc.devRef .tc main_call0_v1) = (val_main_call0_v1 (F := F) x0 x1 x4 x5 x6 x7 x8 x9 x10)
    ∧ after c11 W (Proc.devRef .tc main_call0_v4) = (val_main_call0_v4 (F := F) x0 x1 x4 x5 x6 x7 x8 x9 x10)
    ∧ after c11 W (Proc.devRef .tc main_call0_v6) = (val_main_call0_v6 (F := F) x0 x1 x4 x5 x6 x7 x8 x9 x10)
    ∧ after c11 W (Proc.devRef .tc main_call0_v9) = (val_main_call0_v9 (F := F) x0 x1 x4 x5 x6 x7 x8 x9 x10) := by
  refine ⟨?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg2, h_main_v0, h_main_v1, h_main_v3, h_main_v4, h_main_v59, h_main_call0_cst, h_main_call0_v1]; try rfl)

/-- Operations 81 to 88. -/
abbrev c12 : List (HloOp τ sig (Elt F)) :=
  [ TRef.unary (TRef.of (T := ⟨S4x4096x512, .f32⟩) main_call0_v9) (TRef.of (T := ⟨S4x4096x512, .f32⟩) main_call0_v10) Host.log1p,
    TRef.binary (TRef.of (T := ⟨S4x4096x512, .f32⟩) main_call0_v1) (TRef.of (T := ⟨S4x4096x512, .f32⟩) main_call0_v10) (TRef.of (T := ⟨S4x4096x512, .f32⟩) main_call0_v11) addf,
    TRef.ternary (TRef.of (T := ⟨S4x4096x512, .i1⟩) main_call0_v4) (TRef.of (T := ⟨S4x4096x512, .f32⟩) main_call0_v6) (TRef.of (T := ⟨S4x4096x512, .f32⟩) main_call0_v11) (TRef.of (T := ⟨S4x4096x512, .f32⟩) main_v60) select,
    TRef.nullary (TRef.of (T := ⟨S_, .f32⟩) main_call1_cst) (constant S_ .f32 0x00000000#32),
    TRef.unary (TRef.of (T := ⟨S_, .f32⟩) main_call1_cst) (TRef.of (T := ⟨S1x1x512, .f32⟩) main_call1_v0) (broadcastInDim S1x1x512 ![] bcast_S_S1x1x512),
    TRef.binary (TRef.of (T := ⟨S1x1x512, .f32⟩) main_arg2) (TRef.of (T := ⟨S1x1x512, .f32⟩) main_call1_v0) (TRef.of (T := ⟨S1x1x512, .f32⟩) main_call1_v1) maximumf,
    TRef.unary (TRef.of (T := ⟨S_, .f32⟩) main_call1_cst) (TRef.of (T := ⟨S1x1x512, .f32⟩) main_call1_v2) (broadcastInDim S1x1x512 ![] bcast_S_S1x1x512),
    TRef.binary (TRef.of (T := ⟨S1x1x512, .f32⟩) main_arg2) (TRef.of (T := ⟨S1x1x512, .f32⟩) main_call1_v2) (TRef.of (T := ⟨S1x1x512, .f32⟩) main_call1_v3) subf ]

theorem chunk12 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg2 : W (Proc.devRef .tc main_arg2) = x2)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_call0_v1 : W (Proc.devRef .tc main_call0_v1) = (val_main_call0_v1 (F := F) x0 x1 x4 x5 x6 x7 x8 x9 x10))
    (h_main_call0_v4 : W (Proc.devRef .tc main_call0_v4) = (val_main_call0_v4 (F := F) x0 x1 x4 x5 x6 x7 x8 x9 x10))
    (h_main_call0_v6 : W (Proc.devRef .tc main_call0_v6) = (val_main_call0_v6 (F := F) x0 x1 x4 x5 x6 x7 x8 x9 x10))
    (h_main_call0_v9 : W (Proc.devRef .tc main_call0_v9) = (val_main_call0_v9 (F := F) x0 x1 x4 x5 x6 x7 x8 x9 x10)) :
    after c12 W (Proc.devRef .tc main_arg2) = x2
    ∧ after c12 W (Proc.devRef .tc main_v0) = (val_main_v0 (F := F) x0)
    ∧ after c12 W (Proc.devRef .tc main_v1) = (val_main_v1 (F := F) x0)
    ∧ after c12 W (Proc.devRef .tc main_v3) = (val_main_v3 (F := F) x1 x3)
    ∧ after c12 W (Proc.devRef .tc main_v4) = (val_main_v4 (F := F) x1 x3)
    ∧ after c12 W (Proc.devRef .tc main_v60) = (val_main_v60 (F := F) x0 x1 x4 x5 x6 x7 x8 x9 x10)
    ∧ after c12 W (Proc.devRef .tc main_call1_cst) = (val_main_call1_cst (F := F))
    ∧ after c12 W (Proc.devRef .tc main_call1_v1) = (val_main_call1_v1 (F := F) x2)
    ∧ after c12 W (Proc.devRef .tc main_call1_v3) = (val_main_call1_v3 (F := F) x2) := by
  refine ⟨?_, ?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg2, h_main_v0, h_main_v1, h_main_v3, h_main_v4, h_main_call0_v1, h_main_call0_v4, h_main_call0_v6, h_main_call0_v9]; try rfl)

/-- Operations 89 to 96. -/
abbrev c13 : List (HloOp τ sig (Elt F)) :=
  [ TRef.binary (TRef.of (T := ⟨S1x1x512, .f32⟩) main_call1_v3) (TRef.of (T := ⟨S1x1x512, .f32⟩) main_call1_v3) (TRef.of (T := ⟨S1x1x512, .i1⟩) main_call1_v4) (cmpf .une),
    TRef.unary (TRef.of (T := ⟨S_, .f32⟩) main_call1_cst) (TRef.of (T := ⟨S1x1x512, .f32⟩) main_call1_v5) (broadcastInDim S1x1x512 ![] bcast_S_S1x1x512),
    TRef.binary (TRef.of (T := ⟨S1x1x512, .f32⟩) main_arg2) (TRef.of (T := ⟨S1x1x512, .f32⟩) main_call1_v5) (TRef.of (T := ⟨S1x1x512, .f32⟩) main_call1_v6) addf,
    TRef.unary (TRef.of (T := ⟨S1x1x512, .f32⟩) main_call1_v3) (TRef.of (T := ⟨S1x1x512, .f32⟩) main_call1_v7) Host.absf,
    TRef.unary (TRef.of (T := ⟨S1x1x512, .f32⟩) main_call1_v7) (TRef.of (T := ⟨S1x1x512, .f32⟩) main_call1_v8) Host.negf,
    TRef.unary (TRef.of (T := ⟨S1x1x512, .f32⟩) main_call1_v8) (TRef.of (T := ⟨S1x1x512, .f32⟩) main_call1_v9) Host.exp,
    TRef.unary (TRef.of (T := ⟨S1x1x512, .f32⟩) main_call1_v9) (TRef.of (T := ⟨S1x1x512, .f32⟩) main_call1_v10) Host.log1p,
    TRef.binary (TRef.of (T := ⟨S1x1x512, .f32⟩) main_call1_v1) (TRef.of (T := ⟨S1x1x512, .f32⟩) main_call1_v10) (TRef.of (T := ⟨S1x1x512, .f32⟩) main_call1_v11) addf ]

theorem chunk13 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_arg2 : W (Proc.devRef .tc main_arg2) = x2)
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v60 : W (Proc.devRef .tc main_v60) = (val_main_v60 (F := F) x0 x1 x4 x5 x6 x7 x8 x9 x10))
    (h_main_call1_cst : W (Proc.devRef .tc main_call1_cst) = (val_main_call1_cst (F := F)))
    (h_main_call1_v1 : W (Proc.devRef .tc main_call1_v1) = (val_main_call1_v1 (F := F) x2))
    (h_main_call1_v3 : W (Proc.devRef .tc main_call1_v3) = (val_main_call1_v3 (F := F) x2)) :
    after c13 W (Proc.devRef .tc main_v0) = (val_main_v0 (F := F) x0)
    ∧ after c13 W (Proc.devRef .tc main_v1) = (val_main_v1 (F := F) x0)
    ∧ after c13 W (Proc.devRef .tc main_v3) = (val_main_v3 (F := F) x1 x3)
    ∧ after c13 W (Proc.devRef .tc main_v4) = (val_main_v4 (F := F) x1 x3)
    ∧ after c13 W (Proc.devRef .tc main_v60) = (val_main_v60 (F := F) x0 x1 x4 x5 x6 x7 x8 x9 x10)
    ∧ after c13 W (Proc.devRef .tc main_call1_v4) = (val_main_call1_v4 (F := F) x2)
    ∧ after c13 W (Proc.devRef .tc main_call1_v6) = (val_main_call1_v6 (F := F) x2)
    ∧ after c13 W (Proc.devRef .tc main_call1_v11) = (val_main_call1_v11 (F := F) x2) := by
  refine ⟨?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_arg2, h_main_v0, h_main_v1, h_main_v3, h_main_v4, h_main_v60, h_main_call1_cst, h_main_call1_v1, h_main_call1_v3]; try rfl)

/-- Operations 97 to 104. -/
abbrev c14 : List (HloOp τ sig (Elt F)) :=
  [ TRef.ternary (TRef.of (T := ⟨S1x1x512, .i1⟩) main_call1_v4) (TRef.of (T := ⟨S1x1x512, .f32⟩) main_call1_v6) (TRef.of (T := ⟨S1x1x512, .f32⟩) main_call1_v11) (TRef.of (T := ⟨S1x1x512, .f32⟩) main_v61) select,
    unary main_v61 main_v62 (Host.negf : (⟨S1x1x512, .f32⟩ : BufTy).Contents (Elt F) → (⟨S1x1x512, .f32⟩ : BufTy).Contents (Elt F)),
    unary main_v62 main_v63 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v60 main_v63 main_v64 (mulf : (⟨S4x4096x512, .f32⟩ : BufTy).Contents (Elt F) → (⟨S4x4096x512, .f32⟩ : BufTy).Contents (Elt F) → (⟨S4x4096x512, .f32⟩ : BufTy).Contents (Elt F)),
    unary main_v64 main_v65 (Host.exp : (⟨S4x4096x512, .f32⟩ : BufTy).Contents (Elt F) → (⟨S4x4096x512, .f32⟩ : BufTy).Contents (Elt F)),
    nullary main_cst_9 (constant S_ .f32 0x3F800000#32),
    unary main_cst_9 main_v66 (broadcastInDim S4x4096x512 ![] bcast_S_S4x4096x512 : (⟨S_, .f32⟩ : BufTy).Contents (Elt F) → (⟨S4x4096x512, .f32⟩ : BufTy).Contents (Elt F)),
    binary main_v65 main_v66 main_v67 (subf : (⟨S4x4096x512, .f32⟩ : BufTy).Contents (Elt F) → (⟨S4x4096x512, .f32⟩ : BufTy).Contents (Elt F) → (⟨S4x4096x512, .f32⟩ : BufTy).Contents (Elt F)) ]

theorem chunk14 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v60 : W (Proc.devRef .tc main_v60) = (val_main_v60 (F := F) x0 x1 x4 x5 x6 x7 x8 x9 x10))
    (h_main_call1_v4 : W (Proc.devRef .tc main_call1_v4) = (val_main_call1_v4 (F := F) x2))
    (h_main_call1_v6 : W (Proc.devRef .tc main_call1_v6) = (val_main_call1_v6 (F := F) x2))
    (h_main_call1_v11 : W (Proc.devRef .tc main_call1_v11) = (val_main_call1_v11 (F := F) x2)) :
    after c14 W (Proc.devRef .tc main_v0) = (val_main_v0 (F := F) x0)
    ∧ after c14 W (Proc.devRef .tc main_v1) = (val_main_v1 (F := F) x0)
    ∧ after c14 W (Proc.devRef .tc main_v3) = (val_main_v3 (F := F) x1 x3)
    ∧ after c14 W (Proc.devRef .tc main_v4) = (val_main_v4 (F := F) x1 x3)
    ∧ after c14 W (Proc.devRef .tc main_v62) = (val_main_v62 (F := F) x2)
    ∧ after c14 W (Proc.devRef .tc main_v65) = (val_main_v65 (F := F) x0 x1 x2 x4 x5 x6 x7 x8 x9 x10)
    ∧ after c14 W (Proc.devRef .tc main_v67) = (val_main_v67 (F := F) x0 x1 x2 x4 x5 x6 x7 x8 x9 x10) := by
  refine ⟨?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_v0, h_main_v1, h_main_v3, h_main_v4, h_main_v60, h_main_call1_v4, h_main_call1_v6, h_main_call1_v11]; try rfl)

/-- Operations 105 to 110. -/
abbrev c15 : List (HloOp τ sig (Elt F)) :=
  [ unary main_v62 main_v68 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v67 main_v68 main_v69 (Host.divf : (⟨S4x4096x512, .f32⟩ : BufTy).Contents (Elt F) → (⟨S4x4096x512, .f32⟩ : BufTy).Contents (Elt F) → (⟨S4x4096x512, .f32⟩ : BufTy).Contents (Elt F)),
    binary main_v65 main_v0 main_v70 (mulf : (⟨S4x4096x512, .f32⟩ : BufTy).Contents (Elt F) → (⟨S4x4096x512, .f32⟩ : BufTy).Contents (Elt F) → (⟨S4x4096x512, .f32⟩ : BufTy).Contents (Elt F)),
    binary main_v69 main_v3 main_v71 (mulf : (⟨S4x4096x512, .f32⟩ : BufTy).Contents (Elt F) → (⟨S4x4096x512, .f32⟩ : BufTy).Contents (Elt F) → (⟨S4x4096x512, .f32⟩ : BufTy).Contents (Elt F)),
    binary main_v70 main_v71 main_v72 (addf : (⟨S4x4096x512, .f32⟩ : BufTy).Contents (Elt F) → (⟨S4x4096x512, .f32⟩ : BufTy).Contents (Elt F) → (⟨S4x4096x512, .f32⟩ : BufTy).Contents (Elt F)),
    binary main_v1 main_v4 main_v73 (addf : (⟨S4x4096x1536, .f32⟩ : BufTy).Contents (Elt F) → (⟨S4x4096x1536, .f32⟩ : BufTy).Contents (Elt F) → (⟨S4x4096x1536, .f32⟩ : BufTy).Contents (Elt F)) ]

theorem chunk15 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_v0 : W (Proc.devRef .tc main_v0) = (val_main_v0 (F := F) x0))
    (h_main_v1 : W (Proc.devRef .tc main_v1) = (val_main_v1 (F := F) x0))
    (h_main_v3 : W (Proc.devRef .tc main_v3) = (val_main_v3 (F := F) x1 x3))
    (h_main_v4 : W (Proc.devRef .tc main_v4) = (val_main_v4 (F := F) x1 x3))
    (h_main_v62 : W (Proc.devRef .tc main_v62) = (val_main_v62 (F := F) x2))
    (h_main_v65 : W (Proc.devRef .tc main_v65) = (val_main_v65 (F := F) x0 x1 x2 x4 x5 x6 x7 x8 x9 x10))
    (h_main_v67 : W (Proc.devRef .tc main_v67) = (val_main_v67 (F := F) x0 x1 x2 x4 x5 x6 x7 x8 x9 x10)) :
    after c15 W (Proc.devRef .tc main_v72) = (val_main_v72 (F := F) x0 x1 x2 x3 x4 x5 x6 x7 x8 x9 x10)
    ∧ after c15 W (Proc.devRef .tc main_v73) = (val_main_v73 (F := F) x0 x1 x3) := by
  refine ⟨?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', h_main_v0, h_main_v1, h_main_v3, h_main_v4, h_main_v62, h_main_v65, h_main_v67]; try rfl)

/-- Operations 111 to 111. -/
abbrev c16 : List (HloOp τ sig (Elt F)) :=
  [ binary main_v72 main_v73 main_v74 ((fun a b => concatenate S4x4096x2048 2 [⟨S4x4096x512, a⟩, ⟨S4x4096x1536, b⟩] concatenates_S4x4096x512_S4x4096x1536_S4x4096x2048_d2) : (⟨S4x4096x512, .f32⟩ : BufTy).Contents (Elt F) → (⟨S4x4096x1536, .f32⟩ : BufTy).Contents (Elt F) → (⟨S4x4096x2048, .f32⟩ : BufTy).Contents (Elt F)) ]

theorem chunk16 (W : Valuation τ sig (Elt F)) (x0 x1 : (⟨S4x4096x2048, .f32⟩ : BufTy).Contents (Elt F)) (x2 : (⟨S1x1x512, .f32⟩ : BufTy).Contents (Elt F)) (x3 : (⟨S2048x2048, .f32⟩ : BufTy).Contents (Elt F)) (x4 : (⟨S64x4096, .f32⟩ : BufTy).Contents (Elt F)) (x5 : (⟨S512x64, .f32⟩ : BufTy).Contents (Elt F)) (x6 x7 x8 : (⟨S512, .f32⟩ : BufTy).Contents (Elt F)) (x9 x10 : (⟨S1536, .f32⟩ : BufTy).Contents (Elt F))
    (h_main_v72 : W (Proc.devRef .tc main_v72) = (val_main_v72 (F := F) x0 x1 x2 x3 x4 x5 x6 x7 x8 x9 x10))
    (h_main_v73 : W (Proc.devRef .tc main_v73) = (val_main_v73 (F := F) x0 x1 x3)) :
    after c16 W (Proc.devRef .tc main_v74) = (val_main_v74 (F := F) x0 x1 x2 x3 x4 x5 x6 x7 x8 x9 x10) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']; rw [h_main_v72, h_main_v73]; rfl

set_option maxRecDepth 8192 in
theorem ops_split : (ops : List (HloOp τ sig (Elt F))) = c0 ++ (c1 ++ (c2 ++ (c3 ++ (c4 ++ (c5 ++ (c6 ++ (c7 ++ (c8 ++ (c9 ++ (c10 ++ (c11 ++ (c12 ++ (c13 ++ (c14 ++ (c15 ++ (c16)))))))))))))))) := rfl

theorem result_read {F : FTy → Type} [FloatOps F] (V : Valuation τ sig (Elt F)) :
    after ops V (Proc.devRef .tc main_v74) = Cert.ReferenceIdeal.Read.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_split]
  simp only [after_append]
  obtain ⟨k0_main_arg1, k0_main_arg2, k0_main_arg4, k0_main_arg5, k0_main_arg6, k0_main_arg7, k0_main_arg8, k0_main_arg9, k0_main_arg10, k0_main_v0, k0_main_v1, k0_main_v3, k0_main_v4, k0_main_v6⟩ := chunk0 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) rfl rfl rfl rfl rfl rfl rfl rfl rfl rfl rfl
  obtain ⟨k1_main_arg1, k1_main_arg2, k1_main_arg4, k1_main_arg5, k1_main_arg6, k1_main_arg7, k1_main_arg8, k1_main_arg9, k1_main_arg10, k1_main_v0, k1_main_v1, k1_main_v3, k1_main_v4, k1_main_v8, k1_main_v12⟩ := chunk1 (after c0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k0_main_arg1 k0_main_arg2 k0_main_arg4 k0_main_arg5 k0_main_arg6 k0_main_arg7 k0_main_arg8 k0_main_arg9 k0_main_arg10 k0_main_v0 k0_main_v1 k0_main_v3 k0_main_v4 k0_main_v6
  obtain ⟨k2_main_arg1, k2_main_arg2, k2_main_arg4, k2_main_arg5, k2_main_arg6, k2_main_arg7, k2_main_arg8, k2_main_arg9, k2_main_arg10, k2_main_v0, k2_main_v1, k2_main_v3, k2_main_v4, k2_main_v15, k2_main_v17, k2_main_v18⟩ := chunk2 (after c1 (after c0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k1_main_arg1 k1_main_arg2 k1_main_arg4 k1_main_arg5 k1_main_arg6 k1_main_arg7 k1_main_arg8 k1_main_arg9 k1_main_arg10 k1_main_v0 k1_main_v1 k1_main_v3 k1_main_v4 k1_main_v8 k1_main_v12
  obtain ⟨k3_main_arg1, k3_main_arg2, k3_main_arg4, k3_main_arg5, k3_main_arg6, k3_main_arg9, k3_main_arg10, k3_main_v0, k3_main_v1, k3_main_v3, k3_main_v4, k3_main_v25, k3_main_v26⟩ := chunk3 (after c2 (after c1 (after c0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k2_main_arg1 k2_main_arg2 k2_main_arg4 k2_main_arg5 k2_main_arg6 k2_main_arg7 k2_main_arg8 k2_main_arg9 k2_main_arg10 k2_main_v0 k2_main_v1 k2_main_v3 k2_main_v4 k2_main_v15 k2_main_v17 k2_main_v18
  obtain ⟨k4_main_arg1, k4_main_arg2, k4_main_arg4, k4_main_arg5, k4_main_arg6, k4_main_arg9, k4_main_arg10, k4_main_v0, k4_main_v1, k4_main_v3, k4_main_v4, k4_main_v28, k4_main_v32⟩ := chunk4 (after c3 (after c2 (after c1 (after c0 V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k3_main_arg1 k3_main_arg2 k3_main_arg4 k3_main_arg5 k3_main_arg6 k3_main_arg9 k3_main_arg10 k3_main_v0 k3_main_v1 k3_main_v3 k3_main_v4 k3_main_v25 k3_main_v26
  obtain ⟨k5_main_arg1, k5_main_arg2, k5_main_arg4, k5_main_arg5, k5_main_arg6, k5_main_arg9, k5_main_arg10, k5_main_v0, k5_main_v1, k5_main_v3, k5_main_v4, k5_main_v28, k5_main_v32, k5_main_v37, k5_main_v38⟩ := chunk5 (after c4 (after c3 (after c2 (after c1 (after c0 V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k4_main_arg1 k4_main_arg2 k4_main_arg4 k4_main_arg5 k4_main_arg6 k4_main_arg9 k4_main_arg10 k4_main_v0 k4_main_v1 k4_main_v3 k4_main_v4 k4_main_v28 k4_main_v32
  obtain ⟨k6_main_arg1, k6_main_arg2, k6_main_arg4, k6_main_arg5, k6_main_arg6, k6_main_arg9, k6_main_arg10, k6_main_v0, k6_main_v1, k6_main_v3, k6_main_v4, k6_main_v28, k6_main_v41, k6_main_v45⟩ := chunk6 (after c5 (after c4 (after c3 (after c2 (after c1 (after c0 V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k5_main_arg1 k5_main_arg2 k5_main_arg4 k5_main_arg5 k5_main_arg6 k5_main_arg9 k5_main_arg10 k5_main_v0 k5_main_v1 k5_main_v3 k5_main_v4 k5_main_v28 k5_main_v32 k5_main_v37 k5_main_v38
  obtain ⟨k7_main_arg1, k7_main_arg2, k7_main_arg4, k7_main_arg5, k7_main_arg6, k7_main_v0, k7_main_v1, k7_main_v3, k7_main_v4, k7_main_v28, k7_main_v52⟩ := chunk7 (after c6 (after c5 (after c4 (after c3 (after c2 (after c1 (after c0 V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k6_main_arg1 k6_main_arg2 k6_main_arg4 k6_main_arg5 k6_main_arg6 k6_main_arg9 k6_main_arg10 k6_main_v0 k6_main_v1 k6_main_v3 k6_main_v4 k6_main_v28 k6_main_v41 k6_main_v45
  obtain ⟨k8_main_arg1, k8_main_arg2, k8_main_arg4, k8_main_arg5, k8_main_arg6, k8_main_v0, k8_main_v1, k8_main_v3, k8_main_v4, k8_main_v53⟩ := chunk8 (after c7 (after c6 (after c5 (after c4 (after c3 (after c2 (after c1 (after c0 V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k7_main_arg1 k7_main_arg2 k7_main_arg4 k7_main_arg5 k7_main_arg6 k7_main_v0 k7_main_v1 k7_main_v3 k7_main_v4 k7_main_v28 k7_main_v52
  obtain ⟨k9_main_arg2, k9_main_arg4, k9_main_arg5, k9_main_arg6, k9_main_v0, k9_main_v1, k9_main_v3, k9_main_v4, k9_main_v54⟩ := chunk9 (after c8 (after c7 (after c6 (after c5 (after c4 (after c3 (after c2 (after c1 (after c0 V))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k8_main_arg1 k8_main_arg2 k8_main_arg4 k8_main_arg5 k8_main_arg6 k8_main_v0 k8_main_v1 k8_main_v3 k8_main_v4 k8_main_v53
  obtain ⟨k10_main_arg2, k10_main_v0, k10_main_v1, k10_main_v3, k10_main_v4, k10_main_v59, k10_main_call0_cst, k10_main_call0_v1⟩ := chunk10 (after c9 (after c8 (after c7 (after c6 (after c5 (after c4 (after c3 (after c2 (after c1 (after c0 V)))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k9_main_arg2 k9_main_arg4 k9_main_arg5 k9_main_arg6 k9_main_v0 k9_main_v1 k9_main_v3 k9_main_v4 k9_main_v54
  obtain ⟨k11_main_arg2, k11_main_v0, k11_main_v1, k11_main_v3, k11_main_v4, k11_main_call0_v1, k11_main_call0_v4, k11_main_call0_v6, k11_main_call0_v9⟩ := chunk11 (after c10 (after c9 (after c8 (after c7 (after c6 (after c5 (after c4 (after c3 (after c2 (after c1 (after c0 V))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k10_main_arg2 k10_main_v0 k10_main_v1 k10_main_v3 k10_main_v4 k10_main_v59 k10_main_call0_cst k10_main_call0_v1
  obtain ⟨k12_main_arg2, k12_main_v0, k12_main_v1, k12_main_v3, k12_main_v4, k12_main_v60, k12_main_call1_cst, k12_main_call1_v1, k12_main_call1_v3⟩ := chunk12 (after c11 (after c10 (after c9 (after c8 (after c7 (after c6 (after c5 (after c4 (after c3 (after c2 (after c1 (after c0 V)))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k11_main_arg2 k11_main_v0 k11_main_v1 k11_main_v3 k11_main_v4 k11_main_call0_v1 k11_main_call0_v4 k11_main_call0_v6 k11_main_call0_v9
  obtain ⟨k13_main_v0, k13_main_v1, k13_main_v3, k13_main_v4, k13_main_v60, k13_main_call1_v4, k13_main_call1_v6, k13_main_call1_v11⟩ := chunk13 (after c12 (after c11 (after c10 (after c9 (after c8 (after c7 (after c6 (after c5 (after c4 (after c3 (after c2 (after c1 (after c0 V))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k12_main_arg2 k12_main_v0 k12_main_v1 k12_main_v3 k12_main_v4 k12_main_v60 k12_main_call1_cst k12_main_call1_v1 k12_main_call1_v3
  obtain ⟨k14_main_v0, k14_main_v1, k14_main_v3, k14_main_v4, k14_main_v62, k14_main_v65, k14_main_v67⟩ := chunk14 (after c13 (after c12 (after c11 (after c10 (after c9 (after c8 (after c7 (after c6 (after c5 (after c4 (after c3 (after c2 (after c1 (after c0 V)))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k13_main_v0 k13_main_v1 k13_main_v3 k13_main_v4 k13_main_v60 k13_main_call1_v4 k13_main_call1_v6 k13_main_call1_v11
  obtain ⟨k15_main_v72, k15_main_v73⟩ := chunk15 (after c14 (after c13 (after c12 (after c11 (after c10 (after c9 (after c8 (after c7 (after c6 (after c5 (after c4 (after c3 (after c2 (after c1 (after c0 V))))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k14_main_v0 k14_main_v1 k14_main_v3 k14_main_v4 k14_main_v62 k14_main_v65 k14_main_v67
  have k16_main_v74 := chunk16 (after c15 (after c14 (after c13 (after c12 (after c11 (after c10 (after c9 (after c8 (after c7 (after c6 (after c5 (after c4 (after c3 (after c2 (after c1 (after c0 V)))))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) k15_main_v72 k15_main_v73
  exact k16_main_v74

end Cert.ReferenceIdeal.ResultRead

end
-- ==== Proof.RefIsSpec.lean ====
/-
  The reference program computes the row function `Cert.SsmRow.G`.

  Every stage of the reference is read at explicit coordinates (b, s, ·) and identified with the piece of the
  row specification it computes: the two slices of X are x_sel and x_res, the first contraction is wy, the two
  normalisations are n_sel and n_res, the contraction of their concatenation with the row of Y against D is the
  three-range sum `low`, then pre, softplus, aneg, abar, bbar, and the two halves of the result.  The zero word in
  front of each host sum is the real number 0 and drops out; a select guarded by "t differs from t" takes its second
  branch.
-/
import proofs.«117532_j26560077758945_2_alg».proof.Proof.RefRead
import proofs.«117532_j26560077758945_2_alg».proof.Proof.RowSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.SsmRow
open Idealize.ShloMosaic Idealize.ShloMosaic.ValueIdx Idealize.ShloMosaic.StableHlo

variable (x0 x1 : (⟨S4x4096x2048, .f32⟩ : BufTy).Contents (Elt Ideal)) (x2 : (⟨S1x1x512, .f32⟩ : BufTy).Contents (Elt Ideal))
  (x3 : (⟨S2048x2048, .f32⟩ : BufTy).Contents (Elt Ideal)) (x4 : (⟨S64x4096, .f32⟩ : BufTy).Contents (Elt Ideal))
  (x5 : (⟨S512x64, .f32⟩ : BufTy).Contents (Elt Ideal)) (x6 x7 x8 : (⟨S512, .f32⟩ : BufTy).Contents (Elt Ideal))
  (x9 x10 : (⟨S1536, .f32⟩ : BufTy).Contents (Elt Ideal))

/-! ## The first 512 entries: x_sel and its layer norm -/

/-- The slice of X at (b, s, k). -/
theorem sel_slice (b : Fin 4) (s : Fin 4096) (k : Fin 512) :
    val_main_v0 (F := Ideal) x0 (ix3 b s k) = xsel x0 b s k := by
  rw [val_main_v0_apply]
  exact congrArg x0 (funext fun a => Fin.ext (by match a with | ⟨0, _⟩ => rfl | ⟨1, _⟩ => rfl | ⟨2, _⟩ => rfl))

/-- The host sum of the slice: the zero word in front is 0. -/
theorem sel_sum (b : Fin 4) (s : Fin 4096) :
    val_main_v5 (F := Ideal) x0 (ix2 b s) = ∑ k : Fin 512, xsel x0 b s k := by
  rw [val_main_v5_apply, val_main_cst_apply, Ideal.ofBits_def, Ideal.ofBits_zero_f32, zero_add]
  refine Finset.sum_congr rfl fun k _ => ?_
  refine Eq.trans (congrArg (val_main_v0 (F := Ideal) x0) ?_) (sel_slice x0 b s k)
  exact funext fun a => Fin.ext (by match a with | ⟨0, _⟩ => rfl | ⟨1, _⟩ => rfl | ⟨2, _⟩ => rfl)

/-- The mean stage. -/
theorem sel_mean (b : Fin 4) (s : Fin 4096) (z : Fin 1) :
    val_main_v8 (F := Ideal) x0 (ix3 b s z) = mean w512 (xsel x0 b s) := by
  rw [val_main_v8_apply, val_main_v6_apply, val_main_v7_apply, val_main_cst_0_apply]
  have e : idx_main_v6 (ix3 b s z) = ix2 b s := funext fun a => Fin.ext (by match a with | ⟨0, _⟩ => rfl | ⟨1, _⟩ => rfl)
  rw [e, sel_sum]
  rfl

/-- The mean broadcast along the row (first use). -/
theorem sel_bmean (b : Fin 4) (s : Fin 4096) (k : Fin 512) :
    val_main_v9 (F := Ideal) x0 (ix3 b s k) = mean w512 (xsel x0 b s) := by
  rw [val_main_v9_apply]
  refine Eq.trans (congrArg (val_main_v8 (F := Ideal) x0) ?_) (sel_mean x0 b s ⟨0, Nat.one_pos⟩)
  exact funext fun a => Fin.ext (by match a with | ⟨0, _⟩ => rfl | ⟨1, _⟩ => rfl | ⟨2, _⟩ => rfl)

/-- The centred entry and its square. -/
theorem sel_sq (b : Fin 4) (s : Fin 4096) (k : Fin 512) :
    val_main_v11 (F := Ideal) x0 (ix3 b s k) = (xsel x0 b s k - mean w512 (xsel x0 b s)) * (xsel x0 b s k - mean w512 (xsel x0 b s)) := by
  rw [val_main_v11_apply, val_main_v10_apply, sel_slice, sel_bmean]
  rfl

/-- The host sum of the squares. -/
theorem sel_sqsum (b : Fin 4) (s : Fin 4096) :
    val_main_v12 (F := Ideal) x0 (ix2 b s) = ∑ k : Fin 512, (xsel x0 b s k - mean w512 (xsel x0 b s)) * (xsel x0 b s k - mean w512 (xsel x0 b s)) := by
  rw [val_main_v12_apply, val_main_cst_1_apply, Ideal.ofBits_def, Ideal.ofBits_zero_f32, zero_add]
  refine Finset.sum_congr rfl fun k _ => ?_
  refine Eq.trans (congrArg (val_main_v11 (F := Ideal) x0) ?_) (sel_sq x0 b s k)
  exact funext fun a => Fin.ext (by match a with | ⟨0, _⟩ => rfl | ⟨1, _⟩ => rfl | ⟨2, _⟩ => rfl)

/-- The variance stage. -/
theorem sel_var (b : Fin 4) (s : Fin 4096) (z : Fin 1) :
    val_main_v15 (F := Ideal) x0 (ix3 b s z) = mean w512 (fun k => (xsel x0 b s k - mean w512 (xsel x0 b s)) * (xsel x0 b s k - mean w512 (xsel x0 b s))) := by
  rw [val_main_v15_apply, val_main_v13_apply, val_main_v14_apply, val_main_cst_2_apply]
  have e : idx_main_v13 (ix3 b s z) = ix2 b s := funext fun a => Fin.ext (by match a with | ⟨0, _⟩ => rfl | ⟨1, _⟩ => rfl)
  rw [e, sel_sqsum]
  rfl

/-- The reciprocal square root of variance plus ε. -/
theorem sel_rs (b : Fin 4) (s : Fin 4096) (z : Fin 1) :
    val_main_v20 (F := Ideal) x0 (ix3 b s z) = Ideal.rsqrt (mean w512 (fun k => (xsel x0 b s k - mean w512 (xsel x0 b s)) * (xsel x0 b s k - mean w512 (xsel x0 b s))) + wEps) := by
  rw [val_main_v20_apply, val_main_v19_apply, sel_var, val_main_v18_apply, val_main_cst_3_apply]
  rfl

/-- The same, broadcast along the row. -/
theorem sel_brs (b : Fin 4) (s : Fin 4096) (k : Fin 512) :
    val_main_v21 (F := Ideal) x0 (ix3 b s k) = Ideal.rsqrt (mean w512 (fun k => (xsel x0 b s k - mean w512 (xsel x0 b s)) * (xsel x0 b s k - mean w512 (xsel x0 b s))) + wEps) := by
  rw [val_main_v21_apply]
  refine Eq.trans (congrArg (val_main_v20 (F := Ideal) x0) ?_) (sel_rs x0 b s ⟨0, Nat.one_pos⟩)
  exact funext fun a => Fin.ext (by match a with | ⟨0, _⟩ => rfl | ⟨1, _⟩ => rfl | ⟨2, _⟩ => rfl)

/-- The mean broadcast along the row (second use). -/
theorem sel_bmean2 (b : Fin 4) (s : Fin 4096) (k : Fin 512) :
    val_main_v16 (F := Ideal) x0 (ix3 b s k) = mean w512 (xsel x0 b s) := by
  rw [val_main_v16_apply]
  refine Eq.trans (congrArg (val_main_v8 (F := Ideal) x0) ?_) (sel_mean x0 b s ⟨0, Nat.one_pos⟩)
  exact funext fun a => Fin.ext (by match a with | ⟨0, _⟩ => rfl | ⟨1, _⟩ => rfl | ⟨2, _⟩ => rfl)

/-- The scale γ, broadcast twice. -/
theorem sel_gamma (b : Fin 4) (s : Fin 4096) (k : Fin 512) :
    val_main_v24 (F := Ideal) x7 (ix3 b s k) = x7 (ix1 k) := by
  rw [val_main_v24_apply, val_main_v23_apply]
  exact congrArg x7 (funext fun a => Fin.ext (by match a with | ⟨0, _⟩ => rfl))

/-- The shift β, broadcast twice. -/
theorem sel_beta (b : Fin 4) (s : Fin 4096) (k : Fin 512) :
    val_main_v27 (F := Ideal) x8 (ix3 b s k) = x8 (ix1 k) := by
  rw [val_main_v27_apply, val_main_v26_apply]
  exact congrArg x8 (funext fun a => Fin.ext (by match a with | ⟨0, _⟩ => rfl))

/-- The normalised row. -/
theorem sel_norm (b : Fin 4) (s : Fin 4096) (k : Fin 512) :
    val_main_v28 (F := Ideal) x0 x7 x8 (ix3 b s k) = nsel x0 x7 x8 b s k := by
  rw [val_main_v28_apply, val_main_v25_apply, val_main_v22_apply, val_main_v17_apply,
    sel_slice, sel_bmean2, sel_brs, sel_gamma, sel_beta]
  rfl

/-! ## The last 1536 entries: x_res and its layer norm -/

/-- The slice of X at (b, s, k). -/
theorem res_slice (b : Fin 4) (s : Fin 4096) (k : Fin 1536) :
    val_main_v1 (F := Ideal) x0 (ix3 b s k) = xres x0 b s k := by
  rw [val_main_v1_apply]
  exact congrArg x0 (funext fun a => Fin.ext (by match a with | ⟨0, _⟩ => rfl | ⟨1, _⟩ => rfl | ⟨2, _⟩ => rfl))

/-- The host sum of the slice: the zero word in front is 0. -/
theorem res_sum (b : Fin 4) (s : Fin 4096) :
    val_main_v29 (F := Ideal) x0 (ix2 b s) = ∑ k : Fin 1536, xres x0 b s k := by
  rw [val_main_v29_apply, val_main_cst_4_apply, Ideal.ofBits_def, Ideal.ofBits_zero_f32, zero_add]
  refine Finset.sum_congr rfl fun k _ => ?_
  refine Eq.trans (congrArg (val_main_v1 (F := Ideal) x0) ?_) (res_slice x0 b s k)
  exact funext fun a => Fin.ext (by match a with | ⟨0, _⟩ => rfl | ⟨1, _⟩ => rfl | ⟨2, _⟩ => rfl)

/-- The mean stage. -/
theorem res_mean (b : Fin 4) (s : Fin 4096) (z : Fin 1) :
    val_main_v32 (F := Ideal) x0 (ix3 b s z) = mean w1536 (xres x0 b s) := by
  rw [val_main_v32_apply, val_main_v30_apply, val_main_v31_apply, val_main_cst_5_apply]
  have e : idx_main_v30 (ix3 b s z) = ix2 b s := funext fun a => Fin.ext (by match a with | ⟨0, _⟩ => rfl | ⟨1, _⟩ => rfl)
  rw [e, res_sum]
  rfl

/-- The mean broadcast along the row (first use). -/
theorem res_bmean (b : Fin 4) (s : Fin 4096) (k : Fin 1536) :
    val_main_v33 (F := Ideal) x0 (ix3 b s k) = mean w1536 (xres x0 b s) := by
  rw [val_main_v33_apply]
  refine Eq.trans (congrArg (val_main_v32 (F := Ideal) x0) ?_) (res_mean x0 b s ⟨0, Nat.one_pos⟩)
  exact funext fun a => Fin.ext (by match a with | ⟨0, _⟩ => rfl | ⟨1, _⟩ => rfl | ⟨2, _⟩ => rfl)

/-- The centred entry and its square. -/
theorem res_sq (b : Fin 4) (s : Fin 4096) (k : Fin 1536) :
    val_main_v35 (F := Ideal) x0 (ix3 b s k) = (xres x0 b s k - mean w1536 (xres x0 b s)) * (xres x0 b s k - mean w1536 (xres x0 b s)) := by
  rw [val_main_v35_apply, val_main_v34_apply, res_slice, res_bmean]
  rfl

/-- The host sum of the squares. -/
theorem res_sqsum (b : Fin 4) (s : Fin 4096) :
    val_main_v36 (F := Ideal) x0 (ix2 b s) = ∑ k : Fin 1536, (xres x0 b s k - mean w1536 (xres x0 b s)) * (xres x0 b s k - mean w1536 (xres x0 b s)) := by
  rw [val_main_v36_apply, val_main_cst_6_apply, Ideal.ofBits_def, Ideal.ofBits_zero_f32, zero_add]
  refine Finset.sum_congr rfl fun k _ => ?_
  refine Eq.trans (congrArg (val_main_v35 (F := Ideal) x0) ?_) (res_sq x0 b s k)
  exact funext fun a => Fin.ext (by match a with | ⟨0, _⟩ => rfl | ⟨1, _⟩ => rfl | ⟨2, _⟩ => rfl)

/-- The variance stage. -/
theorem res_var (b : Fin 4) (s : Fin 4096) (z : Fin 1) :
    val_main_v39 (F := Ideal) x0 (ix3 b s z) = mean w1536 (fun k => (xres x0 b s k - mean w1536 (xres x0 b s)) * (xres x0 b s k - mean w1536 (xres x0 b s))) := by
  rw [val_main_v39_apply, val_main_v37_apply, val_main_v38_apply, val_main_cst_7_apply]
  have e : idx_main_v37 (ix3 b s z) = ix2 b s := funext fun a => Fin.ext (by match a with | ⟨0, _⟩ => rfl | ⟨1, _⟩ => rfl)
  rw [e, res_sqsum]
  rfl

/-- The reciprocal square root of variance plus ε. -/
theorem res_rs (b : Fin 4) (s : Fin 4096) (z : Fin 1) :
    val_main_v44 (F := Ideal) x0 (ix3 b s z) = Ideal.rsqrt (mean w1536 (fun k => (xres x0 b s k - mean w1536 (xres x0 b s)) * (xres x0 b s k - mean w1536 (xres x0 b s))) + wEps) := by
  rw [val_main_v44_apply, val_main_v43_apply, res_var, val_main_v42_apply, val_main_cst_8_apply]
  rfl

/-- The same, broadcast along the row. -/
theorem res_brs (b : Fin 4) (s : Fin 4096) (k : Fin 1536) :
    val_main_v45 (F := Ideal) x0 (ix3 b s k) = Ideal.rsqrt (mean w1536 (fun k => (xres x0 b s k - mean w1536 (xres x0 b s)) * (xres x0 b s k - mean w1536 (xres x0 b s))) + wEps) := by
  rw [val_main_v45_apply]
  refine Eq.trans (congrArg (val_main_v44 (F := Ideal) x0) ?_) (res_rs x0 b s ⟨0, Nat.one_pos⟩)
  exact funext fun a => Fin.ext (by match a with | ⟨0, _⟩ => rfl | ⟨1, _⟩ => rfl | ⟨2, _⟩ => rfl)

/-- The mean broadcast along the row (second use). -/
theorem res_bmean2 (b : Fin 4) (s : Fin 4096) (k : Fin 1536) :
    val_main_v40 (F := Ideal) x0 (ix3 b s k) = mean w1536 (xres x0 b s) := by
  rw [val_main_v40_apply]
  refine Eq.trans (congrArg (val_main_v32 (F := Ideal) x0) ?_) (res_mean x0 b s ⟨0, Nat.one_pos⟩)
  exact funext fun a => Fin.ext (by match a with | ⟨0, _⟩ => rfl | ⟨1, _⟩ => rfl | ⟨2, _⟩ => rfl)

/-- The scale γ, broadcast twice. -/
theorem res_gamma (b : Fin 4) (s : Fin 4096) (k : Fin 1536) :
    val_main_v48 (F := Ideal) x9 (ix3 b s k) = x9 (ix1 k) := by
  rw [val_main_v48_apply, val_main_v47_apply]
  exact congrArg x9 (funext fun a => Fin.ext (by match a with | ⟨0, _⟩ => rfl))

/-- The shift β, broadcast twice. -/
theorem res_beta (b : Fin 4) (s : Fin 4096) (k : Fin 1536) :
    val_main_v51 (F := Ideal) x10 (ix3 b s k) = x10 (ix1 k) := by
  rw [val_main_v51_apply, val_main_v50_apply]
  exact congrArg x10 (funext fun a => Fin.ext (by match a with | ⟨0, _⟩ => rfl))

/-- The normalised row. -/
theorem res_norm (b : Fin 4) (s : Fin 4096) (k : Fin 1536) :
    val_main_v52 (F := Ideal) x0 x9 x10 (ix3 b s k) = nres x0 x9 x10 b s k := by
  rw [val_main_v52_apply, val_main_v49_apply, val_main_v46_apply, val_main_v41_apply,
    res_slice, res_bmean2, res_brs, res_gamma, res_beta]
  rfl

/-! ## The first contraction -/

/-- `wy[h] = Σ_k Y[b, s, k] · W[h, k]`. -/
theorem wy_at (b : Fin 4) (s : Fin 4096) (h : Fin 2048) :
    val_main_v2 (F := Ideal) x1 x3 (ix3 b s h) = wy x1 x3 b s h := by
  rw [val_main_v2_apply]
  unfold wy
  refine Finset.sum_congr rfl fun k _ => ?_
  exact congrArg₂ (· * ·) (congrArg x1 (funext fun a => Fin.ext (by match a with | ⟨0, _⟩ => rfl | ⟨1, _⟩ => rfl | ⟨2, _⟩ => rfl))) (congrArg x3 (funext fun a => Fin.ext (by match a with | ⟨0, _⟩ => rfl | ⟨1, _⟩ => rfl)))

/-- Its first 512 columns. -/
theorem wy_sel (b : Fin 4) (s : Fin 4096) (j : Fin 512) :
    val_main_v3 (F := Ideal) x1 x3 (ix3 b s j) = wy x1 x3 b s ⟨j.val, by omega⟩ := by
  rw [val_main_v3_apply]
  refine Eq.trans (congrArg (val_main_v2 (F := Ideal) x1 x3) ?_) (wy_at x1 x3 b s ⟨j.val, by omega⟩)
  exact funext fun a => Fin.ext (by match a with | ⟨0, _⟩ => rfl | ⟨1, _⟩ => rfl | ⟨2, _⟩ => rfl)

/-- Its last 1536 columns. -/
theorem wy_res (b : Fin 4) (s : Fin 4096) (j : Fin 1536) :
    val_main_v4 (F := Ideal) x1 x3 (ix3 b s j) = wy x1 x3 b s ⟨512 + j.val, by omega⟩ := by
  rw [val_main_v4_apply]
  refine Eq.trans (congrArg (val_main_v2 (F := Ideal) x1 x3) ?_) (wy_at x1 x3 b s ⟨512 + j.val, by omega⟩)
  exact funext fun a => Fin.ext (by match a with | ⟨0, _⟩ => rfl | ⟨1, _⟩ => rfl | ⟨2, _⟩ => rfl)

/-! ## The concatenated row [n_sel, n_res, yrow] and the low-rank projection -/

/-- Columns below 512 of [n_sel, n_res] are n_sel. -/
theorem cat1_left (b : Fin 4) (s : Fin 4096) (k : Fin 512) :
    val_main_v53 (F := Ideal) x0 x7 x8 x9 x10 (ix3 b s ⟨k.val, by omega⟩) = nsel x0 x7 x8 b s k := by
  unfold val_main_v53
  refine Eq.trans (concatenate_pair_apply_left (t := S4x4096x2048) (s₁ := S4x4096x512) (s₂ := S4x4096x1536) 2 _ _ _ _ rfl (ix3 b s k)
    (fun a => by match a with | ⟨0, _⟩ => rfl | ⟨1, _⟩ => rfl | ⟨2, _⟩ => rfl)) (sel_norm x0 x7 x8 b s k)

/-- Columns from 512 on of [n_sel, n_res] are n_res. -/
theorem cat1_right (b : Fin 4) (s : Fin 4096) (k : Fin 1536) :
    val_main_v53 (F := Ideal) x0 x7 x8 x9 x10 (ix3 b s ⟨512 + k.val, by omega⟩) = nres x0 x9 x10 b s k := by
  unfold val_main_v53
  refine Eq.trans (concatenate_pair_apply_right (t := S4x4096x2048) (s₁ := S4x4096x512) (s₂ := S4x4096x1536) 2 _ _ _ _ rfl rfl (ix3 b s k)
    (fun a ha => by match a, ha with | ⟨0, _⟩, _ => rfl | ⟨1, _⟩, _ => rfl | ⟨2, _⟩, ha => exact absurd rfl ha)
    (by show k.val + 512 = 512 + k.val; omega)) (res_norm x0 x9 x10 b s k)

/-- Columns below 512 of [n_sel, n_res, yrow]. -/
theorem cat2_sel (b : Fin 4) (s : Fin 4096) (k : Fin 512) :
    val_main_v54 (F := Ideal) x0 x1 x7 x8 x9 x10 (ix3 b s ⟨k.val, by omega⟩) = nsel x0 x7 x8 b s k := by
  unfold val_main_v54
  refine Eq.trans (concatenate_pair_apply_left (t := S4x4096x4096) (s₁ := S4x4096x2048) (s₂ := S4x4096x2048) 2 _ _ _ _ rfl (ix3 b s ⟨k.val, by omega⟩)
    (fun a => by match a with | ⟨0, _⟩ => rfl | ⟨1, _⟩ => rfl | ⟨2, _⟩ => rfl)) (cat1_left x0 x7 x8 x9 x10 b s k)

/-- Columns 512 to 2047 of [n_sel, n_res, yrow]. -/
theorem cat2_res (b : Fin 4) (s : Fin 4096) (k : Fin 1536) :
    val_main_v54 (F := Ideal) x0 x1 x7 x8 x9 x10 (ix3 b s ⟨512 + k.val, by omega⟩) = nres x0 x9 x10 b s k := by
  unfold val_main_v54
  refine Eq.trans (concatenate_pair_apply_left (t := S4x4096x4096) (s₁ := S4x4096x2048) (s₂ := S4x4096x2048) 2 _ _ _ _ rfl (ix3 b s ⟨512 + k.val, by omega⟩)
    (fun a => by match a with | ⟨0, _⟩ => rfl | ⟨1, _⟩ => rfl | ⟨2, _⟩ => rfl)) (cat1_right x0 x7 x8 x9 x10 b s k)

/-- Columns from 2048 on of [n_sel, n_res, yrow] are the row of Y. -/
theorem cat2_y (b : Fin 4) (s : Fin 4096) (k : Fin 2048) :
    val_main_v54 (F := Ideal) x0 x1 x7 x8 x9 x10 (ix3 b s ⟨2048 + k.val, by omega⟩) = x1 (ix3 b s k) := by
  unfold val_main_v54
  exact concatenate_pair_apply_right (t := S4x4096x4096) (s₁ := S4x4096x2048) (s₂ := S4x4096x2048) 2 _ _ _ _ rfl rfl (ix3 b s k)
    (fun a ha => by match a, ha with | ⟨0, _⟩, _ => rfl | ⟨1, _⟩, _ => rfl | ⟨2, _⟩, ha => exact absurd rfl ha)
    (by show k.val + 2048 = 2048 + k.val; omega)

/-- The contraction against D splits into the three column ranges. -/
theorem low_at (b : Fin 4) (s : Fin 4096) (r : Fin 64) :
    val_main_v55 (F := Ideal) x0 x1 x4 x7 x8 x9 x10 (ix3 b s r) = low x0 x1 x4 x7 x8 x9 x10 b s r := by
  rw [val_main_v55_apply]
  have el : ∀ c : Fin 4096, lidx_main_v55 (ix3 b s r) c = ix3 b s c := fun c =>
    funext fun a => Fin.ext (by match a with | ⟨0, _⟩ => rfl | ⟨1, _⟩ => rfl | ⟨2, _⟩ => rfl)
  have er : ∀ c : Fin 4096, ridx_main_v55 (ix3 b s r) c = ix2 r c := fun c =>
    funext fun a => Fin.ext (by match a with | ⟨0, _⟩ => rfl | ⟨1, _⟩ => rfl)
  refine (Finset.sum_congr rfl fun c _ => congrArg₂ (· * ·)
    (congrArg (val_main_v54 (F := Ideal) x0 x1 x7 x8 x9 x10) (el c)) (congrArg x4 (er c))).trans ?_
  refine (sum_split3 (fun c : Fin 4096 => val_main_v54 (F := Ideal) x0 x1 x7 x8 x9 x10 (ix3 b s c) * x4 (ix2 r c))).trans ?_
  unfold low
  refine congrArg₂ (· + ·) (congrArg₂ (· + ·) (Finset.sum_congr rfl fun k _ => ?_) (Finset.sum_congr rfl fun k _ => ?_))
    (Finset.sum_congr rfl fun k _ => ?_)
  · exact congrArg (· * x4 (ix2 r ⟨k.val, by omega⟩)) (cat2_sel x0 x1 x7 x8 x9 x10 b s k)
  · exact congrArg (· * x4 (ix2 r ⟨512 + k.val, by omega⟩)) (cat2_res x0 x1 x7 x8 x9 x10 b s k)
  · exact congrArg (· * x4 (ix2 r ⟨2048 + k.val, by omega⟩)) (cat2_y x0 x1 x7 x8 x9 x10 b s k)

/-- `pre[d] = Σ_r low[r]·U[d, r] + bd[d]`. -/
theorem pre_at (b : Fin 4) (s : Fin 4096) (d : Fin 512) :
    val_main_v59 (F := Ideal) x0 x1 x4 x5 x6 x7 x8 x9 x10 (ix3 b s d) = pre x0 x1 x4 x5 x6 x7 x8 x9 x10 b s d := by
  rw [val_main_v59_apply, val_main_v56_apply, val_main_v58_apply, val_main_v57_apply, Ideal.addf_def]
  unfold pre
  refine congrArg₂ (· + ·) (Finset.sum_congr rfl fun r _ => ?_) (congrArg x6 (funext fun a => Fin.ext (by match a with | ⟨0, _⟩ => rfl)))
  refine congrArg₂ (· * ·) ((congrArg (val_main_v55 (F := Ideal) x0 x1 x4 x7 x8 x9 x10) ?_).trans (low_at x0 x1 x4 x7 x8 x9 x10 b s r)) (congrArg x5 (funext fun a => Fin.ext (by match a with | ⟨0, _⟩ => rfl | ⟨1, _⟩ => rfl)))
  exact funext fun a => Fin.ext (by match a with | ⟨0, _⟩ => rfl | ⟨1, _⟩ => rfl | ⟨2, _⟩ => rfl)

/-! ## softplus, the decay and the two halves of the result -/

/-- The reference's softplus at one element: the guard "t differs from t" fails, the other branch is
    `max(u, 0) + log1p(exp(-|u - 0|))`. -/
theorem softplus_word (u : Ideal .f32) :
    Scalar.select (FloatOps.cmpf .une (FloatOps.subf u (FloatOps.ofBits .f32 0x00000000#32)) (FloatOps.subf u (FloatOps.ofBits .f32 0x00000000#32)))
      (FloatOps.addf u (FloatOps.ofBits .f32 0x00000000#32))
      (FloatOps.addf (FloatOps.maximumf u (FloatOps.ofBits .f32 0x00000000#32))
        (FloatOps.hostUnary .log1p (FloatOps.hostUnary .exp (FloatOps.hostNegf (FloatOps.hostAbsf (FloatOps.subf u (FloatOps.ofBits .f32 0x00000000#32)))))))
      = softplus u := by
  rw [Ideal.cmpf_def, select_ne_self .une (Or.inr rfl)]
  rfl

/-- `delta[d] = softplus(pre[d])`. -/
theorem delta_at (b : Fin 4) (s : Fin 4096) (d : Fin 512) :
    val_main_v60 (F := Ideal) x0 x1 x4 x5 x6 x7 x8 x9 x10 (ix3 b s d) = softplus (pre x0 x1 x4 x5 x6 x7 x8 x9 x10 b s d) := by
  simp only [val_main_v60_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, pre_at]
  exact softplus_word _

/-- `aneg[d] = -softplus(A[0, 0, d])`. -/
theorem aneg_at (d : Fin 512) :
    val_main_v62 (F := Ideal) x2 (ix3 (0 : Fin 1) (0 : Fin 1) d) = aneg x2 d := by
  simp only [val_main_v62_apply, val_main_v61_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  exact congrArg (fun t : EReal => -t) (softplus_word (x2 (ix3 (0 : Fin 1) (0 : Fin 1) d)))

/-- `abar[d] = exp(delta[d] · aneg[d])`. -/
theorem abar_at (b : Fin 4) (s : Fin 4096) (d : Fin 512) :
    val_main_v65 (F := Ideal) x0 x1 x2 x4 x5 x6 x7 x8 x9 x10 (ix3 b s d) = abar x0 x1 x2 x4 x5 x6 x7 x8 x9 x10 b s d := by
  rw [val_main_v65_apply, val_main_v64_apply, delta_at, val_main_v63_apply]
  have e : idx_main_v63 (ix3 b s d) = ix3 (0 : Fin 1) (0 : Fin 1) d :=
    funext fun a => Fin.ext (by match a with | ⟨0, _⟩ => rfl | ⟨1, _⟩ => rfl | ⟨2, _⟩ => rfl)
  rw [e, aneg_at]
  rfl

/-- `bbar[d] = (abar[d] - 1) / aneg[d]`. -/
theorem bbar_at (b : Fin 4) (s : Fin 4096) (d : Fin 512) :
    val_main_v69 (F := Ideal) x0 x1 x2 x4 x5 x6 x7 x8 x9 x10 (ix3 b s d) = bbar x0 x1 x2 x4 x5 x6 x7 x8 x9 x10 b s d := by
  rw [val_main_v69_apply, val_main_v67_apply, abar_at, val_main_v66_apply, val_main_cst_9_apply, val_main_v68_apply]
  have e : idx_main_v68 (ix3 b s d) = ix3 (0 : Fin 1) (0 : Fin 1) d :=
    funext fun a => Fin.ext (by match a with | ⟨0, _⟩ => rfl | ⟨1, _⟩ => rfl | ⟨2, _⟩ => rfl)
  rw [e, aneg_at]
  rfl

/-- The first 512 entries of the result's row. -/
theorem selOut_at (b : Fin 4) (s : Fin 4096) (j : Fin 512) :
    val_main_v72 (F := Ideal) x0 x1 x2 x3 x4 x5 x6 x7 x8 x9 x10 (ix3 b s j) = selOut x0 x1 x2 x3 x4 x5 x6 x7 x8 x9 x10 b s j := by
  rw [val_main_v72_apply, val_main_v70_apply, val_main_v71_apply, abar_at, sel_slice, bbar_at, wy_sel]
  rfl

/-- The last 1536 entries of the result's row. -/
theorem resOut_at (b : Fin 4) (s : Fin 4096) (j : Fin 1536) :
    val_main_v73 (F := Ideal) x0 x1 x3 (ix3 b s j) = resOut x0 x1 x3 b s j := by
  rw [val_main_v73_apply, res_slice, wy_res]
  rfl

/-! ## The reference is G -/

/-- The last concatenation below column 512. -/
theorem out_left (b : Fin 4) (s : Fin 4096) (j : Fin 512) :
    val_main_v74 (F := Ideal) x0 x1 x2 x3 x4 x5 x6 x7 x8 x9 x10 (ix3 b s ⟨j.val, by omega⟩) = selOut x0 x1 x2 x3 x4 x5 x6 x7 x8 x9 x10 b s j := by
  unfold val_main_v74
  refine Eq.trans (concatenate_pair_apply_left (t := S4x4096x2048) (s₁ := S4x4096x512) (s₂ := S4x4096x1536) 2 _ _ _ _ rfl (ix3 b s j)
    (fun a => by match a with | ⟨0, _⟩ => rfl | ⟨1, _⟩ => rfl | ⟨2, _⟩ => rfl)) (selOut_at x0 x1 x2 x3 x4 x5 x6 x7 x8 x9 x10 b s j)

/-- The last concatenation from column 512 on. -/
theorem out_right (b : Fin 4) (s : Fin 4096) (j : Fin 1536) :
    val_main_v74 (F := Ideal) x0 x1 x2 x3 x4 x5 x6 x7 x8 x9 x10 (ix3 b s ⟨512 + j.val, by omega⟩) = resOut x0 x1 x3 b s j := by
  unfold val_main_v74
  refine Eq.trans (concatenate_pair_apply_right (t := S4x4096x2048) (s₁ := S4x4096x512) (s₂ := S4x4096x1536) 2 _ _ _ _ rfl rfl (ix3 b s j)
    (fun a ha => by match a, ha with | ⟨0, _⟩, _ => rfl | ⟨1, _⟩, _ => rfl | ⟨2, _⟩, ha => exact absurd rfl ha)
    (by show j.val + 512 = 512 + j.val; omega)) (resOut_at x0 x1 x3 b s j)

theorem ref_eq (x0 x1 : (⟨S4x4096x2048, .f32⟩ : BufTy).Contents (Elt Ideal)) (x2 : (⟨S1x1x512, .f32⟩ : BufTy).Contents (Elt Ideal)) (x3 : (⟨S2048x2048, .f32⟩ : BufTy).Contents (Elt Ideal)) (x4 : (⟨S64x4096, .f32⟩ : BufTy).Contents (Elt Ideal)) (x5 : (⟨S512x64, .f32⟩ : BufTy).Contents (Elt Ideal)) (x6 x7 x8 : (⟨S512, .f32⟩ : BufTy).Contents (Elt Ideal)) (x9 x10 : (⟨S1536, .f32⟩ : BufTy).Contents (Elt Ideal)) :
      Cert.ReferenceIdeal.Read.val_main_v74 (F := Ideal) x0 x1 x2 x3 x4 x5 x6 x7 x8 x9 x10 = Cert.SsmRow.G x0 x1 x2 x3 x4 x5 x6 x7 x8 x9 x10 := by
  funext i
  obtain ⟨b, s, j, rfl⟩ : ∃ b s j, i = ix3 b s j := ⟨i 0, i 1, i 2, eq_ix3 i⟩
  obtain ⟨jv, hjv⟩ := j
  by_cases h : jv < 512
  · exact (out_left x0 x1 x2 x3 x4 x5 x6 x7 x8 x9 x10 b s ⟨jv, h⟩).trans (G_sel x0 x1 x2 x3 x4 x5 x6 x7 x8 x9 x10 b s ⟨jv, h⟩).symm
  · obtain ⟨t, rfl⟩ : ∃ t, jv = 512 + t := ⟨jv - 512, by omega⟩
    exact (out_right x0 x1 x2 x3 x4 x5 x6 x7 x8 x9 x10 b s ⟨t, by omega⟩).trans (G_res x0 x1 x2 x3 x4 x5 x6 x7 x8 x9 x10 b s ⟨t, by omega⟩).symm

end Cert.ReferenceIdeal.RefValue

end
-- ==== Proof.RefRun.lean ====
/-
  The idealized reference's run, read: its result array is the specification's function of the argument arrays.

  The reference is a straight line of 112 host operations; after it every buffer holds the fold of the operations
  over the launch contents.  Two things are read out of that fold:
    * no operation writes an argument buffer, so each argument array ends as it was launched;
    * the result buffer holds the last operation's value, which unwinds, one operation at a time, into the chain of
      stages `val_…` each applied to the stages it reads — the staged form of the reference, in which a value that
      several later operations read is named once instead of being written out at every use.
  The last stage is `val_main_v74` of the argument arrays, and that is the specification's function G
  (Proof/RefIsSpec.lean).
-/
import proofs.«117532_j26560077758945_2_alg».proof.Proof.RefOps
import proofs.«117532_j26560077758945_2_alg».proof.Proof.RefRead
import proofs.«117532_j26560077758945_2_alg».proof.Proof.RefKept
import proofs.«117532_j26560077758945_2_alg».proof.Proof.RefResult
import proofs.«117532_j26560077758945_2_alg».proof.Proof.RefIsSpec

noncomputable section

namespace Cert.ReferenceIdeal.RefRun

open Cert.ReferenceIdeal Cert.ReferenceIdeal.Gen Cert.ReferenceIdeal.Value Idealize.ShloMosaic Idealize.ShloMosaic.TcCoe
open Idealize.SL.Sem Idealize.ShloMosaic.StableHlo

/-- Every weakly fair execution of the idealized reference terminates with its result at the specification's function
    of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = Cert.SsmRow.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      ((h c main_v74).trans (Cert.ReferenceIdeal.ResultRead.result_read (F := Ideal) _)).trans (Cert.ReferenceIdeal.RefValue.ref_eq _ _ _ _ _ _ _ _ _ _ _),
      (h c main_arg0).trans (Cert.ReferenceIdeal.Kept.kept_arg0 (F := Ideal) _),
      (h c main_arg1).trans (Cert.ReferenceIdeal.Kept.kept_arg1 (F := Ideal) _),
      (h c main_arg2).trans (Cert.ReferenceIdeal.Kept.kept_arg2 (F := Ideal) _),
      (h c main_arg3).trans (Cert.ReferenceIdeal.Kept.kept_arg3 (F := Ideal) _),
      (h c main_arg4).trans (Cert.ReferenceIdeal.Kept.kept_arg4 (F := Ideal) _),
      (h c main_arg5).trans (Cert.ReferenceIdeal.Kept.kept_arg5 (F := Ideal) _),
      (h c main_arg6).trans (Cert.ReferenceIdeal.Kept.kept_arg6 (F := Ideal) _),
      (h c main_arg7).trans (Cert.ReferenceIdeal.Kept.kept_arg7 (F := Ideal) _),
      (h c main_arg8).trans (Cert.ReferenceIdeal.Kept.kept_arg8 (F := Ideal) _),
      (h c main_arg9).trans (Cert.ReferenceIdeal.Kept.kept_arg9 (F := Ideal) _),
      (h c main_arg10).trans (Cert.ReferenceIdeal.Kept.kept_arg10 (F := Ideal) _)⟩) (seq_run (F := Ideal) m ρ)

end Cert.ReferenceIdeal.RefRun

end
-- ==== Proof.lean ====
/-
  The certificate of the selective-state-update kernel against its jnp reference.

  Both programs compute, for every row (b, s) of the two [4, 4096, 2048] inputs, one function of that row and of the
  weights: a product of the y-row with W; layer norms of the first 512 and the last 1536 entries of the hidden-state
  row; a low-rank projection through D and U with a bias; softplus; a decay abar = exp(softplus(·)·an) with
  an = -softplus(A); and the output  abar·x + ((abar - 1)/an)·wy  on the first 512 columns,  x + wy  on the rest
  (Proof/RowSpec.lean states it once as the function G of the eleven argument arrays).

  The kernel tiles the 16384 rows in 64 blocks of 256, computes the three column blocks of the projection through D
  as three products and adds them, and multiplies by a reciprocal 1/an computed once; the reference contracts the
  4096-wide concatenation in one product and divides by an.  Over the extended reals the three sums are the one sum
  (addition is commutative and associative there), and  t·(1/an) = t/an  for every t as soon as an ≠ 0, which holds
  because A is finite and softplus of a real number is positive: the one use of the precondition.  Changes of float
  format are the identity, and neither program's guard against "not a number" can fire.

  So: the idealized kernel's result array is G of its arguments (Proof/KernelValue.lean, read off the generated frame
  run block by block and through the reshape after the region), the idealized reference's result is G of its
  arguments (Proof/RefRun.lean and Proof/RefIsSpec.lean: the straight line of host operations unwound into its stages,
  each stage read at an index), and the arguments agree.  The two kernel frames are the generated ones, the
  reference's frame is its run with the result dropped; the ideal pass rewrote nothing, so `preserves` is trivial.
-/
import proofs.«117532_j26560077758945_2_alg».proof.Defs
import proofs.«117532_j26560077758945_2_alg».proof.Proof.Gen.Kernel
import proofs.«117532_j26560077758945_2_alg».proof.Proof.Gen.Kernel.Frame
import proofs.«117532_j26560077758945_2_alg».proof.Proof.Gen.KernelIdeal
import proofs.«117532_j26560077758945_2_alg».proof.Proof.Gen.KernelIdeal.Frame
import proofs.«117532_j26560077758945_2_alg».proof.Proof.Gen.ReferenceIdeal
import proofs.«117532_j26560077758945_2_alg».proof.Proof.Gen.Pre_finite_inputs
import proofs.«117532_j26560077758945_2_alg».proof.Proof.KernelValue
import proofs.«117532_j26560077758945_2_alg».proof.Proof.RefRun
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both idealized programs end with the function G of their (agreeing) arguments. -/
theorem algebraic : Cert.algebraic_KernelIdeal_ReferenceIdeal := by
  intro m ρ m' ρ' hpre hagree
  refine ⟨fun c => Cert.KernelIdeal.Result.Gm m c, Cert.KernelIdeal.Result.run m ρ hpre, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
